-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel

variable [Facts]

def fn {F : FTy → Type} [FloatOps F] (main_arg0 : FVec F S262144x128 .f32) (main_arg1 : FVec F S262144x128 .f32) (main_arg2 : FVec F S262144x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  main_v13
-- ==== Kernel.lean ====
abbrev S262144x128 : Shape := ⟨2, ![262144, 128]⟩
abbrev S2x16x128 : Shape := ⟨3, ![2, 16, 128]⟩
abbrev S4096x128 : Shape := ⟨2, ![4096, 128]⟩
abbrev S1x16x128 : Shape := ⟨3, ![1, 16, 128]⟩
abbrev S16x128 : Shape := ⟨2, ![16, 128]⟩
abbrev S128 : Shape := ⟨1, ![128]⟩
abbrev S1x128 : Shape := ⟨2, ![1, 128]⟩
abbrev S_ : Shape := ⟨0, ![]⟩
abbrev S16 : Shape := ⟨1, ![16]⟩
abbrev S10 : Shape := ⟨1, ![10]⟩

abbrev nBuf : Space → Nat
  | .hbm => 46
  | .vmem => 12
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S2x16x128, .f32⟩
  | .hbm, ⟨4, _⟩ => ⟨S2x16x128, .f32⟩
  | .hbm, ⟨5, _⟩ => ⟨S_, .f32⟩
  | .hbm, ⟨6, _⟩ => ⟨S16, .f32⟩
  | .hbm, ⟨7, _⟩ => ⟨S10, .f32⟩
  | .hbm, ⟨8, _⟩ => ⟨S_, .f32⟩
  | .hbm, ⟨9, _⟩ => ⟨S16, .f32⟩
  | .hbm, ⟨10, _⟩ => ⟨S10, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S10, .f32⟩
  | .hbm, ⟨17, _⟩ => ⟨S10, .i1⟩
  | .hbm, ⟨18, _⟩ => ⟨S10, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S10, .f32⟩
  | .hbm, ⟨23, _⟩ => ⟨S10, .i1⟩
  | .hbm, ⟨24, _⟩ => ⟨S_, .f32⟩
  | .hbm, ⟨25, _⟩ => ⟨S10, .f32⟩
  | .hbm, ⟨26, _⟩ => ⟨S10, .f32⟩
  | .hbm, ⟨27, _⟩ => ⟨S10, .f32⟩
  | .hbm, ⟨28, _⟩ => ⟨S10, .f32⟩
  | .hbm, ⟨29, _⟩ => ⟨S_, .f32⟩
  | .hbm, ⟨30, _⟩ => ⟨S_, .f32⟩
  | .hbm, ⟨31, _⟩ => ⟨S10, .f32⟩
  | .hbm, ⟨32, _⟩ => ⟨S10, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S10, .f32⟩
  | .hbm, ⟨38, _⟩ => ⟨S10, .f32⟩
  | .hbm, ⟨39, _⟩ => ⟨S10, .f32⟩
  | .hbm, ⟨40, _⟩ => ⟨S10, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x16x128, .f32⟩
  | .local _ .vmem, ⟨7, _⟩ => ⟨S1x16x128, .f32⟩
  | .local _ .vmem, ⟨8, _⟩ => ⟨S1x16x128, .f32⟩
  | .local _ .vmem, ⟨9, _⟩ => ⟨S1x16x128, .f32⟩
  | .local _ .vmem, ⟨10, _⟩ => ⟨S16x128, .f32⟩
  | .local _ .vmem, ⟨11, _⟩ => ⟨S16x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_7 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_cst_8 : Ref sig .tc := ⟨.hbm, 33, rfl⟩
abbrev main_v18 : Ref sig .tc := ⟨.hbm, 34, rfl⟩
abbrev main_cst_9 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_10 : Ref sig .tc := ⟨.hbm, 41, rfl⟩
abbrev main_v24 : Ref sig .tc := ⟨.hbm, 42, rfl⟩
abbrev main_v25 : Ref sig .tc := ⟨.hbm, 43, rfl⟩
abbrev main_cst_11 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v229 : BitVec 1 := Scalar.cmpi .eq arg1 c31_i32
  let v230 : BitVec 32 := Scalar.extui v229
  let c0_i32_102 : BitVec 32 := 0#32
  let v231 : BitVec 1 := Scalar.cmpi .ne v230 c0_i32_102
  v231

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S4096x128_S4096x128_0_0 : ∀ a, (![0, 0] : Fin 2 → Nat) a + S4096x128.size a ≤ S4096x128.size a
  h_S4096x128 : 0 < S4096x128.numel
  natLt_1_32 : 1 < 32
  reduces_S4096x128_S128 : S4096x128.Reduces [0] S128
  shapeCasts_S128_S1x128 : S128.ShapeCasts S1x128
  inb_S16x128_S1x128_0_0 : ∀ a, (![0, 0] : Fin 2 → Nat) a + S1x128.size a ≤ S16x128.size a
  h_S1x128 : 0 < S1x128.numel
  shapeCasts_S1x128_S1x128 : S1x128.ShapeCasts S1x128
  inb_S16x128_S1x128_1_0 : ∀ a, (![1, 0] : Fin 2 → Nat) a + S1x128.size a ≤ S16x128.size a
  inb_S16x128_S1x128_2_0 : ∀ a, (![2, 0] : Fin 2 → Nat) a + S1x128.size a ≤ S16x128.size a
  inb_S16x128_S1x128_3_0 : ∀ a, (![3, 0] : Fin 2 → Nat) a + S1x128.size a ≤ S16x128.size a
  inb_S16x128_S1x128_4_0 : ∀ a, (![4, 0] : Fin 2 → Nat) a + S1x128.size a ≤ S16x128.size a
  inb_S16x128_S1x128_5_0 : ∀ a, (![5, 0] : Fin 2 → Nat) a + S1x128.size a ≤ S16x128.size a
  inb_S16x128_S1x128_6_0 : ∀ a, (![6, 0] : Fin 2 → Nat) a + S1x128.size a ≤ S16x128.size a
  inb_S16x128_S1x128_7_0 : ∀ a, (![7, 0] : Fin 2 → Nat) a + S1x128.size a ≤ S16x128.size a
  inb_S16x128_S1x128_8_0 : ∀ a, (![8, 0] : Fin 2 → Nat) a + S1x128.size a ≤ S16x128.size a
  inb_S16x128_S1x128_9_0 : ∀ a, (![9, 0] : Fin 2 → Nat) a + S1x128.size a ≤ S16x128.size a
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  reducesTo_S2x16x128_S16_d0_2 : S2x16x128.ReducesTo [0, 2] S16
  h_S_ : 0 < S_.numel
  slices_S16_S10_0 : S16.Slices ![0] S10
  reducesTo_S10_S_d0 : S10.ReducesTo [0] S_
  bcast_S_S10 : S_.BroadcastsInDim S10 (![] : Fin 0 → Fin S10.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128.size a ≤ S2x16x128.size a
  hwx0_3 : ∀ i : grid0.Coords, EltTy.bits .f32 = 32 ∨ (Rect.block (s := S2x16x128) S1x16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128.size a ≤ S2x16x128.size a
  hwx0_4 : ∀ i : grid0.Coords, EltTy.bits .f32 = 32 ∨ (Rect.block (s := S2x16x128) S1x16x128.size (cc0_transform_4 i) (hinb0_4 i)).WholeWords (EltTy.packing .f32)

variable [Facts₀]

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x16x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x16x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S262144x128 : Shape := ⟨2, ![262144, 128]⟩
abbrev S_ : Shape := ⟨0, ![]⟩
abbrev S33554432 : Shape := ⟨1, ![33554432]⟩
abbrev S10 : Shape := ⟨1, ![10]⟩
abbrev S33554432x1 : Shape := ⟨2, ![33554432, 1]⟩
abbrev S262144x128x1 : Shape := ⟨3, ![262144, 128, 1]⟩

abbrev nBuf : Space → Nat
  | .hbm => 87
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144x128, .f32⟩
  | .hbm, ⟨4, _⟩ => ⟨S262144x128, .f32⟩
  | .hbm, ⟨5, _⟩ => ⟨S_, .f32⟩
  | .hbm, ⟨6, _⟩ => ⟨S262144x128, .f32⟩
  | .hbm, ⟨7, _⟩ => ⟨S262144x128, .f32⟩
  | .hbm, ⟨8, _⟩ => ⟨S_, .f32⟩
  | .hbm, ⟨9, _⟩ => ⟨S262144x128, .f32⟩
  | .hbm, ⟨10, _⟩ => ⟨S262144x128, .f32⟩
  | .hbm, ⟨11, _⟩ => ⟨S262144x128, .f32⟩
  | .hbm, ⟨12, _⟩ => ⟨S262144x128, .f32⟩
  | .hbm, ⟨13, _⟩ => ⟨S_, .f32⟩
  | .hbm, ⟨14, _⟩ => ⟨S262144x128, .f32⟩
  | .hbm, ⟨15, _⟩ => ⟨S262144x128, .i1⟩
  | .hbm, ⟨16, _⟩ => ⟨S262144x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S262144x128, .f32⟩
  | .hbm, ⟨23, _⟩ => ⟨S262144x128, .f32⟩
  | .hbm, ⟨24, _⟩ => ⟨S262144x128, .i32⟩
  | .hbm, ⟨25, _⟩ => ⟨S_, .i32⟩
  | .hbm, ⟨26, _⟩ => ⟨S262144x128, .i32⟩
  | .hbm, ⟨27, _⟩ => ⟨S262144x128, .i32⟩
  | .hbm, ⟨28, _⟩ => ⟨S33554432, .f32⟩
  | .hbm, ⟨29, _⟩ => ⟨S33554432, .i32⟩
  | .hbm, ⟨30, _⟩ => ⟨S_, .f32⟩
  | .hbm, ⟨31, _⟩ => ⟨S10, .f32⟩
  | .hbm, ⟨32, _⟩ => ⟨S33554432x1, .i32⟩
  | .hbm, ⟨33, _⟩ => ⟨S10, .f32⟩
  | .hbm, ⟨34, _⟩ => ⟨S_, .f32⟩
  | .hbm, ⟨35, _⟩ => ⟨S10, .f32⟩
  | .hbm, ⟨36, _⟩ => ⟨S10, .i1⟩
  | .hbm, ⟨37, _⟩ => ⟨S10, .i32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S10, .f32⟩
  | .hbm, ⟨42, _⟩ => ⟨S10, .i1⟩
  | .hbm, ⟨43, _⟩ => ⟨S_, .f32⟩
  | .hbm, ⟨44, _⟩ => ⟨S10, .f32⟩
  | .hbm, ⟨45, _⟩ => ⟨S10, .f32⟩
  | .hbm, ⟨46, _⟩ => ⟨S10, .f32⟩
  | .hbm, ⟨47, _⟩ => ⟨S10, .f32⟩
  | .hbm, ⟨48, _⟩ => ⟨S_, .f32⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S_, .i32⟩
  | .hbm, ⟨53, _⟩ => ⟨S262144x128, .i32⟩
  | .hbm, ⟨54, _⟩ => ⟨S262144x128, .i1⟩
  | .hbm, ⟨55, _⟩ => ⟨S_, .i32⟩
  | .hbm, ⟨56, _⟩ => ⟨S262144x128, .i32⟩
  | .hbm, ⟨57, _⟩ => ⟨S262144x128, .i32⟩
  | .hbm, ⟨58, _⟩ => ⟨S262144x128, .i32⟩
  | .hbm, ⟨59, _⟩ => ⟨S262144x128x1, .i32⟩
  | .hbm, ⟨60, _⟩ => ⟨S262144x128, .f32⟩
  | .hbm, ⟨61, _⟩ => ⟨S_, .f32⟩
  | .hbm, ⟨62, _⟩ => ⟨S_, .f32⟩
  | .hbm, ⟨63, _⟩ => ⟨S262144x128, .f32⟩
  | .hbm, ⟨64, _⟩ => ⟨S262144x128, .f32⟩
  | .hbm, ⟨65, _⟩ => ⟨S_, .i32⟩
  | .hbm, ⟨66, _⟩ => ⟨S_, .i1⟩
  | .hbm, ⟨67, _⟩ => ⟨S_, .f32⟩
  | .hbm, ⟨68, _⟩ => ⟨S262144x128, .f32⟩
  | .hbm, ⟨69, _⟩ => ⟨S262144x128, .f32⟩
  | .hbm, ⟨70, _⟩ => ⟨S262144x128, .f32⟩
  | .hbm, ⟨71, _⟩ => ⟨S_, .f32⟩
  | .hbm, ⟨72, _⟩ => ⟨S262144x128, .f32⟩
  | .hbm, ⟨73, _⟩ => ⟨S262144x128, .f32⟩
  | .hbm, ⟨74, _⟩ => ⟨S262144x128, .f32⟩
  | .hbm, ⟨75, _⟩ => ⟨S262144x128, .f32⟩
  | .hbm, ⟨76, _⟩ => ⟨S262144x128, .f32⟩
  | .hbm, ⟨77, _⟩ => ⟨S262144x128, .f32⟩
  | .hbm, ⟨78, _⟩ => ⟨S262144x128, .f32⟩
  | .hbm, ⟨79, _⟩ => ⟨S262144x128, .f32⟩
  | .hbm, ⟨80, _⟩ => ⟨S262144x128, .f32⟩
  | .hbm, ⟨81, _⟩ => ⟨S262144x128, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_call0_v0 : Ref sig .tc := ⟨.hbm, 49, rfl⟩
abbrev main_call0_v1 : Ref sig .tc := ⟨.hbm, 50, rfl⟩
abbrev main_v33 : Ref sig .tc := ⟨.hbm, 51, rfl⟩
abbrev main_c_11 : Ref sig .tc := ⟨.hbm, 52, rfl⟩
abbrev main_v34 : Ref sig .tc := ⟨.hbm, 53, rfl⟩
abbrev main_v35 : Ref sig .tc := ⟨.hbm, 54, rfl⟩
abbrev main_c_12 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_call1_v0 : Ref sig .tc := ⟨.hbm, 62, rfl⟩
abbrev main_call1_v1 : Ref sig .tc := ⟨.hbm, 63, rfl⟩
abbrev main_v41 : Ref sig .tc := ⟨.hbm, 64, rfl⟩
abbrev main_c_14 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_15 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_16 : Ref sig .tc := ⟨.hbm, 82, rfl⟩
abbrev main_v57 : Ref sig .tc := ⟨.hbm, 83, rfl⟩
abbrev main_v58 : Ref sig .tc := ⟨.hbm, 84, rfl⟩
abbrev main_cst_17 : Ref sig .tc := ⟨.hbm, 85, rfl⟩
abbrev main_v59 : Ref sig .tc := ⟨.hbm, 86, rfl⟩

abbrev nD : Nat := 1
abbrev τ : Topo := Topo.v7x

variable {F : FTy → Type} [FloatOps F]

class Facts₀ : Prop where
  bcast_S_S262144x128 : S_.BroadcastsInDim S262144x128 (![] : Fin 0 → Fin S262144x128.rank)
  reducesTo_S262144x128_S_d0_1 : S262144x128.ReducesTo [0, 1] S_
  h_S_ : 0 < S_.numel
  shapeCasts_S262144x128_S33554432 : S262144x128.ShapeCasts S33554432
  bcast_S_S10 : S_.BroadcastsInDim S10 (![] : Fin 0 → Fin S10.rank)
  bcast_S33554432_S33554432x1_0 : S33554432.BroadcastsInDim S33554432x1 (![0] : Fin 1 → Fin S33554432x1.rank)
  natLt_1_32 : 1 < 32
  reducesTo_S10_S_d0 : S10.ReducesTo [0] S_
  bcast_S262144x128_S262144x128x1_0_1 : S262144x128.BroadcastsInDim S262144x128x1 (![0, 1] : Fin 2 → Fin S262144x128x1.rank)
  scatter_S10_S33554432x1_S33554432_n_0_0_1_wf : ScatterDims.WF S10 S33554432x1 S33554432 [] [0] [0] 1
  gather_S10_S262144x128x1_S262144x128_n_0_n_n_0_2_1_wf : GatherDims.WF S10 S262144x128x1 S262144x128 [] [0] [] [0] [] 2 ![1]

variable [Facts₀]

def scatter_S10_S33554432x1_S33554432_n_0_0_1 : ScatterDims S10 S33554432x1 S33554432 where
  updateWindowDims := []
  insertedWindowDims := [0]
  scatterDimsToOperandDims := [0]
  indexVectorDim := 1
  wf := scatter_S10_S33554432x1_S33554432_n_0_0_1_wf
def gather_S10_S262144x128x1_S262144x128_n_0_n_n_0_2_1 : GatherDims S10 S262144x128x1 S262144x128 where
  offsetDims := []
  collapsedSliceDims := [0]
  operandBatchingDims := []
  startIndicesBatchingDims := []
  startIndexMap := [0]
  indexVectorDim := 2
  sliceSizes := ![1]
  wf := gather_S10_S262144x128x1_S262144x128_n_0_n_n_0_2_1_wf

class Facts : Prop extends Facts₀ where

variable [Facts]
-- ==== Proof.KRows.lean ====
/-
  Ten stores of one row each — row k of a [16,128] buffer, k = 0..9, the newest (row 9) first in the list — read back
  at an index (b, l): for b < 10 the payload of the store of row b at its column l (the other nine stores miss row b),
  for b ≥ 10 what the buffer held before (all ten miss). Newest wins one piece at a time: the library's row readings.
-/
import Idealize.ShloMosaic.Lib.WritesUnit
import Idealize.ShloMosaic.Lib.ValueIdx
import Idealize.ShloMosaic.Lib.Pipeline.FrameBody

noncomputable section

namespace Ghmc.Rows

open Idealize.ShloMosaic Idealize.ShloMosaic.ValueIdx

variable {sig : RefSig} {κ : Kind} {sp : Space} {e : EltTy} {Val : EltTy → Type}
variable (v : View sig κ sp (⟨2, ![16, 128]⟩ : Shape) e) (f : v.ty.Contents Val)
variable (inb0 : ∀ a : Fin 2, (![0, 0] : Fin 2 → ℕ) a + (![1, 128] : Fin 2 → ℕ) a ≤ (![16, 128] : Fin 2 → ℕ) a) (inb1 : ∀ a : Fin 2, (![1, 0] : Fin 2 → ℕ) a + (![1, 128] : Fin 2 → ℕ) a ≤ (![16, 128] : Fin 2 → ℕ) a) (inb2 : ∀ a : Fin 2, (![2, 0] : Fin 2 → ℕ) a + (![1, 128] : Fin 2 → ℕ) a ≤ (![16, 128] : Fin 2 → ℕ) a) (inb3 : ∀ a : Fin 2, (![3, 0] : Fin 2 → ℕ) a + (![1, 128] : Fin 2 → ℕ) a ≤ (![16, 128] : Fin 2 → ℕ) a) (inb4 : ∀ a : Fin 2, (![4, 0] : Fin 2 → ℕ) a + (![1, 128] : Fin 2 → ℕ) a ≤ (![16, 128] : Fin 2 → ℕ) a) (inb5 : ∀ a : Fin 2, (![5, 0] : Fin 2 → ℕ) a + (![1, 128] : Fin 2 → ℕ) a ≤ (![16, 128] : Fin 2 → ℕ) a) (inb6 : ∀ a : Fin 2, (![6, 0] : Fin 2 → ℕ) a + (![1, 128] : Fin 2 → ℕ) a ≤ (![16, 128] : Fin 2 → ℕ) a) (inb7 : ∀ a : Fin 2, (![7, 0] : Fin 2 → ℕ) a + (![1, 128] : Fin 2 → ℕ) a ≤ (![16, 128] : Fin 2 → ℕ) a) (inb8 : ∀ a : Fin 2, (![8, 0] : Fin 2 → ℕ) a + (![1, 128] : Fin 2 → ℕ) a ≤ (![16, 128] : Fin 2 → ℕ) a) (inb9 : ∀ a : Fin 2, (![9, 0] : Fin 2 → ℕ) a + (![1, 128] : Fin 2 → ℕ) a ≤ (![16, 128] : Fin 2 → ℕ) a)
variable (w0 : (Rect.unit (s := (⟨2, ![16, 128]⟩ : Shape)) ![0, 0] ![1, 128] inb0).shape.Idx → Val e) (w1 : (Rect.unit (s := (⟨2, ![16, 128]⟩ : Shape)) ![1, 0] ![1, 128] inb1).shape.Idx → Val e) (w2 : (Rect.unit (s := (⟨2, ![16, 128]⟩ : Shape)) ![2, 0] ![1, 128] inb2).shape.Idx → Val e) (w3 : (Rect.unit (s := (⟨2, ![16, 128]⟩ : Shape)) ![3, 0] ![1, 128] inb3).shape.Idx → Val e) (w4 : (Rect.unit (s := (⟨2, ![16, 128]⟩ : Shape)) ![4, 0] ![1, 128] inb4).shape.Idx → Val e) (w5 : (Rect.unit (s := (⟨2, ![16, 128]⟩ : Shape)) ![5, 0] ![1, 128] inb5).shape.Idx → Val e) (w6 : (Rect.unit (s := (⟨2, ![16, 128]⟩ : Shape)) ![6, 0] ![1, 128] inb6).shape.Idx → Val e) (w7 : (Rect.unit (s := (⟨2, ![16, 128]⟩ : Shape)) ![7, 0] ![1, 128] inb7).shape.Idx → Val e) (w8 : (Rect.unit (s := (⟨2, ![16, 128]⟩ : Shape)) ![8, 0] ![1, 128] inb8).shape.Idx → Val e) (w9 : (Rect.unit (s := (⟨2, ![16, 128]⟩ : Shape)) ![9, 0] ![1, 128] inb9).shape.Idx → Val e)

/-- The ten row stores, row 9 newest. -/
abbrev tenRows : List (View.Piece Val (⟨2, ![16, 128]⟩ : Shape) e) :=
  [(⟨Rect.unit (s := (⟨2, ![16, 128]⟩ : Shape)) ![9, 0] ![1, 128] inb9, w9⟩ : View.Piece Val (⟨2, ![16, 128]⟩ : Shape) e),
      (⟨Rect.unit (s := (⟨2, ![16, 128]⟩ : Shape)) ![8, 0] ![1, 128] inb8, w8⟩ : View.Piece Val (⟨2, ![16, 128]⟩ : Shape) e),
      (⟨Rect.unit (s := (⟨2, ![16, 128]⟩ : Shape)) ![7, 0] ![1, 128] inb7, w7⟩ : View.Piece Val (⟨2, ![16, 128]⟩ : Shape) e),
      (⟨Rect.unit (s := (⟨2, ![16, 128]⟩ : Shape)) ![6, 0] ![1, 128] inb6, w6⟩ : View.Piece Val (⟨2, ![16, 128]⟩ : Shape) e),
      (⟨Rect.unit (s := (⟨2, ![16, 128]⟩ : Shape)) ![5, 0] ![1, 128] inb5, w5⟩ : View.Piece Val (⟨2, ![16, 128]⟩ : Shape) e),
      (⟨Rect.unit (s := (⟨2, ![16, 128]⟩ : Shape)) ![4, 0] ![1, 128] inb4, w4⟩ : View.Piece Val (⟨2, ![16, 128]⟩ : Shape) e),
      (⟨Rect.unit (s := (⟨2, ![16, 128]⟩ : Shape)) ![3, 0] ![1, 128] inb3, w3⟩ : View.Piece Val (⟨2, ![16, 128]⟩ : Shape) e),
      (⟨Rect.unit (s := (⟨2, ![16, 128]⟩ : Shape)) ![2, 0] ![1, 128] inb2, w2⟩ : View.Piece Val (⟨2, ![16, 128]⟩ : Shape) e),
      (⟨Rect.unit (s := (⟨2, ![16, 128]⟩ : Shape)) ![1, 0] ![1, 128] inb1, w1⟩ : View.Piece Val (⟨2, ![16, 128]⟩ : Shape) e),
      (⟨Rect.unit (s := (⟨2, ![16, 128]⟩ : Shape)) ![0, 0] ![1, 128] inb0, w0⟩ : View.Piece Val (⟨2, ![16, 128]⟩ : Shape) e)]

/-- Row 0 reads the store of row 0. -/
theorem read_row0 (b : Fin 16) (l : Fin 128) (hb : b.val = 0) :
    v.read Val (v.writes Val f (tenRows inb0 inb1 inb2 inb3 inb4 inb5 inb6 inb7 inb8 inb9 w0 w1 w2 w3 w4 w5 w6 w7 w8 w9)) (ix2 b l) = w0 (ix2 0 l) := by
  unfold tenRows
  rw [View.read_writes_cons_rows_of_not_mem v f inb9 w9 _ (ix2 b l) rfl rfl (by show b.val < 9 ∨ 9 + 1 ≤ b.val; omega)]
  rw [View.read_writes_cons_rows_of_not_mem v f inb8 w8 _ (ix2 b l) rfl rfl (by show b.val < 8 ∨ 8 + 1 ≤ b.val; omega)]
  rw [View.read_writes_cons_rows_of_not_mem v f inb7 w7 _ (ix2 b l) rfl rfl (by show b.val < 7 ∨ 7 + 1 ≤ b.val; omega)]
  rw [View.read_writes_cons_rows_of_not_mem v f inb6 w6 _ (ix2 b l) rfl rfl (by show b.val < 6 ∨ 6 + 1 ≤ b.val; omega)]
  rw [View.read_writes_cons_rows_of_not_mem v f inb5 w5 _ (ix2 b l) rfl rfl (by show b.val < 5 ∨ 5 + 1 ≤ b.val; omega)]
  rw [View.read_writes_cons_rows_of_not_mem v f inb4 w4 _ (ix2 b l) rfl rfl (by show b.val < 4 ∨ 4 + 1 ≤ b.val; omega)]
  rw [View.read_writes_cons_rows_of_not_mem v f inb3 w3 _ (ix2 b l) rfl rfl (by show b.val < 3 ∨ 3 + 1 ≤ b.val; omega)]
  rw [View.read_writes_cons_rows_of_not_mem v f inb2 w2 _ (ix2 b l) rfl rfl (by show b.val < 2 ∨ 2 + 1 ≤ b.val; omega)]
  rw [View.read_writes_cons_rows_of_not_mem v f inb1 w1 _ (ix2 b l) rfl rfl (by show b.val < 1 ∨ 1 + 1 ≤ b.val; omega)]
  exact View.read_writes_cons_rows_of_mem v f inb0 w0 _ (ix2 b l) (ix2 0 l) rfl (by show b.val = 0 + 0; omega) rfl

/-- Row 1 reads the store of row 1. -/
theorem read_row1 (b : Fin 16) (l : Fin 128) (hb : b.val = 1) :
    v.read Val (v.writes Val f (tenRows inb0 inb1 inb2 inb3 inb4 inb5 inb6 inb7 inb8 inb9 w0 w1 w2 w3 w4 w5 w6 w7 w8 w9)) (ix2 b l) = w1 (ix2 0 l) := by
  unfold tenRows
  rw [View.read_writes_cons_rows_of_not_mem v f inb9 w9 _ (ix2 b l) rfl rfl (by show b.val < 9 ∨ 9 + 1 ≤ b.val; omega)]
  rw [View.read_writes_cons_rows_of_not_mem v f inb8 w8 _ (ix2 b l) rfl rfl (by show b.val < 8 ∨ 8 + 1 ≤ b.val; omega)]
  rw [View.read_writes_cons_rows_of_not_mem v f inb7 w7 _ (ix2 b l) rfl rfl (by show b.val < 7 ∨ 7 + 1 ≤ b.val; omega)]
  rw [View.read_writes_cons_rows_of_not_mem v f inb6 w6 _ (ix2 b l) rfl rfl (by show b.val < 6 ∨ 6 + 1 ≤ b.val; omega)]
  rw [View.read_writes_cons_rows_of_not_mem v f inb5 w5 _ (ix2 b l) rfl rfl (by show b.val < 5 ∨ 5 + 1 ≤ b.val; omega)]
  rw [View.read_writes_cons_rows_of_not_mem v f inb4 w4 _ (ix2 b l) rfl rfl (by show b.val < 4 ∨ 4 + 1 ≤ b.val; omega)]
  rw [View.read_writes_cons_rows_of_not_mem v f inb3 w3 _ (ix2 b l) rfl rfl (by show b.val < 3 ∨ 3 + 1 ≤ b.val; omega)]
  rw [View.read_writes_cons_rows_of_not_mem v f inb2 w2 _ (ix2 b l) rfl rfl (by show b.val < 2 ∨ 2 + 1 ≤ b.val; omega)]
  exact View.read_writes_cons_rows_of_mem v f inb1 w1 _ (ix2 b l) (ix2 0 l) rfl (by show b.val = 1 + 0; omega) rfl

/-- Row 2 reads the store of row 2. -/
theorem read_row2 (b : Fin 16) (l : Fin 128) (hb : b.val = 2) :
    v.read Val (v.writes Val f (tenRows inb0 inb1 inb2 inb3 inb4 inb5 inb6 inb7 inb8 inb9 w0 w1 w2 w3 w4 w5 w6 w7 w8 w9)) (ix2 b l) = w2 (ix2 0 l) := by
  unfold tenRows
  rw [View.read_writes_cons_rows_of_not_mem v f inb9 w9 _ (ix2 b l) rfl rfl (by show b.val < 9 ∨ 9 + 1 ≤ b.val; omega)]
  rw [View.read_writes_cons_rows_of_not_mem v f inb8 w8 _ (ix2 b l) rfl rfl (by show b.val < 8 ∨ 8 + 1 ≤ b.val; omega)]
  rw [View.read_writes_cons_rows_of_not_mem v f inb7 w7 _ (ix2 b l) rfl rfl (by show b.val < 7 ∨ 7 + 1 ≤ b.val; omega)]
  rw [View.read_writes_cons_rows_of_not_mem v f inb6 w6 _ (ix2 b l) rfl rfl (by show b.val < 6 ∨ 6 + 1 ≤ b.val; omega)]
  rw [View.read_writes_cons_rows_of_not_mem v f inb5 w5 _ (ix2 b l) rfl rfl (by show b.val < 5 ∨ 5 + 1 ≤ b.val; omega)]
  rw [View.read_writes_cons_rows_of_not_mem v f inb4 w4 _ (ix2 b l) rfl rfl (by show b.val < 4 ∨ 4 + 1 ≤ b.val; omega)]
  rw [View.read_writes_cons_rows_of_not_mem v f inb3 w3 _ (ix2 b l) rfl rfl (by show b.val < 3 ∨ 3 + 1 ≤ b.val; omega)]
  exact View.read_writes_cons_rows_of_mem v f inb2 w2 _ (ix2 b l) (ix2 0 l) rfl (by show b.val = 2 + 0; omega) rfl

/-- Row 3 reads the store of row 3. -/
theorem read_row3 (b : Fin 16) (l : Fin 128) (hb : b.val = 3) :
    v.read Val (v.writes Val f (tenRows inb0 inb1 inb2 inb3 inb4 inb5 inb6 inb7 inb8 inb9 w0 w1 w2 w3 w4 w5 w6 w7 w8 w9)) (ix2 b l) = w3 (ix2 0 l) := by
  unfold tenRows
  rw [View.read_writes_cons_rows_of_not_mem v f inb9 w9 _ (ix2 b l) rfl rfl (by show b.val < 9 ∨ 9 + 1 ≤ b.val; omega)]
  rw [View.read_writes_cons_rows_of_not_mem v f inb8 w8 _ (ix2 b l) rfl rfl (by show b.val < 8 ∨ 8 + 1 ≤ b.val; omega)]
  rw [View.read_writes_cons_rows_of_not_mem v f inb7 w7 _ (ix2 b l) rfl rfl (by show b.val < 7 ∨ 7 + 1 ≤ b.val; omega)]
  rw [View.read_writes_cons_rows_of_not_mem v f inb6 w6 _ (ix2 b l) rfl rfl (by show b.val < 6 ∨ 6 + 1 ≤ b.val; omega)]
  rw [View.read_writes_cons_rows_of_not_mem v f inb5 w5 _ (ix2 b l) rfl rfl (by show b.val < 5 ∨ 5 + 1 ≤ b.val; omega)]
  rw [View.read_writes_cons_rows_of_not_mem v f inb4 w4 _ (ix2 b l) rfl rfl (by show b.val < 4 ∨ 4 + 1 ≤ b.val; omega)]
  exact View.read_writes_cons_rows_of_mem v f inb3 w3 _ (ix2 b l) (ix2 0 l) rfl (by show b.val = 3 + 0; omega) rfl

/-- Row 4 reads the store of row 4. -/
theorem read_row4 (b : Fin 16) (l : Fin 128) (hb : b.val = 4) :
    v.read Val (v.writes Val f (tenRows inb0 inb1 inb2 inb3 inb4 inb5 inb6 inb7 inb8 inb9 w0 w1 w2 w3 w4 w5 w6 w7 w8 w9)) (ix2 b l) = w4 (ix2 0 l) := by
  unfold tenRows
  rw [View.read_writes_cons_rows_of_not_mem v f inb9 w9 _ (ix2 b l) rfl rfl (by show b.val < 9 ∨ 9 + 1 ≤ b.val; omega)]
  rw [View.read_writes_cons_rows_of_not_mem v f inb8 w8 _ (ix2 b l) rfl rfl (by show b.val < 8 ∨ 8 + 1 ≤ b.val; omega)]
  rw [View.read_writes_cons_rows_of_not_mem v f inb7 w7 _ (ix2 b l) rfl rfl (by show b.val < 7 ∨ 7 + 1 ≤ b.val; omega)]
  rw [View.read_writes_cons_rows_of_not_mem v f inb6 w6 _ (ix2 b l) rfl rfl (by show b.val < 6 ∨ 6 + 1 ≤ b.val; omega)]
  rw [View.read_writes_cons_rows_of_not_mem v f inb5 w5 _ (ix2 b l) rfl rfl (by show b.val < 5 ∨ 5 + 1 ≤ b.val; omega)]
  exact View.read_writes_cons_rows_of_mem v f inb4 w4 _ (ix2 b l) (ix2 0 l) rfl (by show b.val = 4 + 0; omega) rfl

/-- Row 5 reads the store of row 5. -/
theorem read_row5 (b : Fin 16) (l : Fin 128) (hb : b.val = 5) :
    v.read Val (v.writes Val f (tenRows inb0 inb1 inb2 inb3 inb4 inb5 inb6 inb7 inb8 inb9 w0 w1 w2 w3 w4 w5 w6 w7 w8 w9)) (ix2 b l) = w5 (ix2 0 l) := by
  unfold tenRows
  rw [View.read_writes_cons_rows_of_not_mem v f inb9 w9 _ (ix2 b l) rfl rfl (by show b.val < 9 ∨ 9 + 1 ≤ b.val; omega)]
  rw [View.read_writes_cons_rows_of_not_mem v f inb8 w8 _ (ix2 b l) rfl rfl (by show b.val < 8 ∨ 8 + 1 ≤ b.val; omega)]
  rw [View.read_writes_cons_rows_of_not_mem v f inb7 w7 _ (ix2 b l) rfl rfl (by show b.val < 7 ∨ 7 + 1 ≤ b.val; omega)]
  rw [View.read_writes_cons_rows_of_not_mem v f inb6 w6 _ (ix2 b l) rfl rfl (by show b.val < 6 ∨ 6 + 1 ≤ b.val; omega)]
  exact View.read_writes_cons_rows_of_mem v f inb5 w5 _ (ix2 b l) (ix2 0 l) rfl (by show b.val = 5 + 0; omega) rfl

/-- Row 6 reads the store of row 6. -/
theorem read_row6 (b : Fin 16) (l : Fin 128) (hb : b.val = 6) :
    v.read Val (v.writes Val f (tenRows inb0 inb1 inb2 inb3 inb4 inb5 inb6 inb7 inb8 inb9 w0 w1 w2 w3 w4 w5 w6 w7 w8 w9)) (ix2 b l) = w6 (ix2 0 l) := by
  unfold tenRows
  rw [View.read_writes_cons_rows_of_not_mem v f inb9 w9 _ (ix2 b l) rfl rfl (by show b.val < 9 ∨ 9 + 1 ≤ b.val; omega)]
  rw [View.read_writes_cons_rows_of_not_mem v f inb8 w8 _ (ix2 b l) rfl rfl (by show b.val < 8 ∨ 8 + 1 ≤ b.val; omega)]
  rw [View.read_writes_cons_rows_of_not_mem v f inb7 w7 _ (ix2 b l) rfl rfl (by show b.val < 7 ∨ 7 + 1 ≤ b.val; omega)]
  exact View.read_writes_cons_rows_of_mem v f inb6 w6 _ (ix2 b l) (ix2 0 l) rfl (by show b.val = 6 + 0; omega) rfl

/-- Row 7 reads the store of row 7. -/
theorem read_row7 (b : Fin 16) (l : Fin 128) (hb : b.val = 7) :
    v.read Val (v.writes Val f (tenRows inb0 inb1 inb2 inb3 inb4 inb5 inb6 inb7 inb8 inb9 w0 w1 w2 w3 w4 w5 w6 w7 w8 w9)) (ix2 b l) = w7 (ix2 0 l) := by
  unfold tenRows
  rw [View.read_writes_cons_rows_of_not_mem v f inb9 w9 _ (ix2 b l) rfl rfl (by show b.val < 9 ∨ 9 + 1 ≤ b.val; omega)]
  rw [View.read_writes_cons_rows_of_not_mem v f inb8 w8 _ (ix2 b l) rfl rfl (by show b.val < 8 ∨ 8 + 1 ≤ b.val; omega)]
  exact View.read_writes_cons_rows_of_mem v f inb7 w7 _ (ix2 b l) (ix2 0 l) rfl (by show b.val = 7 + 0; omega) rfl

/-- Row 8 reads the store of row 8. -/
theorem read_row8 (b : Fin 16) (l : Fin 128) (hb : b.val = 8) :
    v.read Val (v.writes Val f (tenRows inb0 inb1 inb2 inb3 inb4 inb5 inb6 inb7 inb8 inb9 w0 w1 w2 w3 w4 w5 w6 w7 w8 w9)) (ix2 b l) = w8 (ix2 0 l) := by
  unfold tenRows
  rw [View.read_writes_cons_rows_of_not_mem v f inb9 w9 _ (ix2 b l) rfl rfl (by show b.val < 9 ∨ 9 + 1 ≤ b.val; omega)]
  exact View.read_writes_cons_rows_of_mem v f inb8 w8 _ (ix2 b l) (ix2 0 l) rfl (by show b.val = 8 + 0; omega) rfl

/-- Row 9 reads the store of row 9. -/
theorem read_row9 (b : Fin 16) (l : Fin 128) (hb : b.val = 9) :
    v.read Val (v.writes Val f (tenRows inb0 inb1 inb2 inb3 inb4 inb5 inb6 inb7 inb8 inb9 w0 w1 w2 w3 w4 w5 w6 w7 w8 w9)) (ix2 b l) = w9 (ix2 0 l) := by
  unfold tenRows
  exact View.read_writes_cons_rows_of_mem v f inb9 w9 _ (ix2 b l) (ix2 0 l) rfl (by show b.val = 9 + 0; omega) rfl

/-- Rows 10..15 keep what the buffer held. -/
theorem read_rowHigh (b : Fin 16) (l : Fin 128) (hb : 10 ≤ b.val) :
    v.read Val (v.writes Val f (tenRows inb0 inb1 inb2 inb3 inb4 inb5 inb6 inb7 inb8 inb9 w0 w1 w2 w3 w4 w5 w6 w7 w8 w9)) (ix2 b l) = v.read Val f (ix2 b l) := by
  unfold tenRows
  rw [View.read_writes_cons_rows_of_not_mem v f inb9 w9 _ (ix2 b l) rfl rfl (by show b.val < 9 ∨ 9 + 1 ≤ b.val; omega)]
  rw [View.read_writes_cons_rows_of_not_mem v f inb8 w8 _ (ix2 b l) rfl rfl (by show b.val < 8 ∨ 8 + 1 ≤ b.val; omega)]
  rw [View.read_writes_cons_rows_of_not_mem v f inb7 w7 _ (ix2 b l) rfl rfl (by show b.val < 7 ∨ 7 + 1 ≤ b.val; omega)]
  rw [View.read_writes_cons_rows_of_not_mem v f inb6 w6 _ (ix2 b l) rfl rfl (by show b.val < 6 ∨ 6 + 1 ≤ b.val; omega)]
  rw [View.read_writes_cons_rows_of_not_mem v f inb5 w5 _ (ix2 b l) rfl rfl (by show b.val < 5 ∨ 5 + 1 ≤ b.val; omega)]
  rw [View.read_writes_cons_rows_of_not_mem v f inb4 w4 _ (ix2 b l) rfl rfl (by show b.val < 4 ∨ 4 + 1 ≤ b.val; omega)]
  rw [View.read_writes_cons_rows_of_not_mem v f inb3 w3 _ (ix2 b l) rfl rfl (by show b.val < 3 ∨ 3 + 1 ≤ b.val; omega)]
  rw [View.read_writes_cons_rows_of_not_mem v f inb2 w2 _ (ix2 b l) rfl rfl (by show b.val < 2 ∨ 2 + 1 ≤ b.val; omega)]
  rw [View.read_writes_cons_rows_of_not_mem v f inb1 w1 _ (ix2 b l) rfl rfl (by show b.val < 1 ∨ 1 + 1 ≤ b.val; omega)]
  rw [View.read_writes_cons_rows_of_not_mem v f inb0 w0 _ (ix2 b l) rfl rfl (by show b.val < 0 ∨ 0 + 1 ≤ b.val; omega)]
  rfl

/-- A load of row k (one row, all 128 lanes) of a [16,128] array, read at lane l, is the array at (k, l). -/
theorem ld_row {α : EltTy → Type} {e' : EltTy} (X : (⟨2, ![16, 128]⟩ : Shape).Idx → α e') (k : ℕ) (hk : k < 16)
    (inb : ∀ a : Fin 2, (![k, 0] : Fin 2 → ℕ) a + (![1, 128] : Fin 2 → ℕ) a ≤ (![16, 128] : Fin 2 → ℕ) a) (l : Fin 128) :
    View.ld X (Rect.unit (s := (⟨2, ![16, 128]⟩ : Shape)) ![k, 0] ![1, 128] inb) (ix2 0 l) = X (ix2 ⟨k, hk⟩ l) := by
  show X _ = X _
  refine congrArg X (funext fun a => Fin.ext ?_)
  match a with
  | ⟨0, _⟩ => show k + 1 * 0 = k; omega
  | ⟨1, _⟩ => show 0 + 1 * l.val = l.val; omega

end Ghmc.Rows

end
-- ==== Proof.KPay.lean ====
/-
  One row update of an accumulator: the old row plus, lane by lane, the sum over the block's 4096 rows of
  (indicator that the element's bin word is bw) times (the element's value X). Every one of the twenty row payloads
  the kernel body stores — ten bins times the count accumulator (X = the validity indicator) and the cross-entropy
  accumulator (X = cross entropy times validity) — is this one function, at bw = 0..9; they differ only in how
  the printed text happens to be cut into named pieces.
-/
import proofs.«100415_j21895743275016_2_alg».proof.Proof.Gen.KernelIdeal.Skeleton

noncomputable section

namespace Cert.KernelIdeal.Acc

open Idealize.ShloMosaic Cert.KernelIdeal Cert.KernelIdeal.Gen

variable {F : FTy → Type} [FloatOps F]

/-- The 0/1 indicator, as floats, that the bin word is `bw`. -/
def ind (bw : BitVec 32) (bin : IVec S4096x128 32) : FVec F S4096x128 .f32 :=
  sitofp .f32 (extui 32 (cmpi .eq bin (broadcast S4096x128 bw)) natLt_1_32)

/-- The old row plus the column sums of indicator times value. -/
def rowUpd (bw : BitVec 32) (X : FVec F S4096x128 .f32) (bin : IVec S4096x128 32) (old : Vec F S1x128 .f32) : FVec F S1x128 .f32 :=
  shapeCast S1x128 (addf old (shapeCast S1x128 (multiReduction .add [0] S128 (mulf (ind (F := F) bw bin) X) 0x00000000#32 reduces_S4096x128_S128 (.inl rfl) rfl) shapeCasts_S128_S1x128)) shapeCasts_S1x128_S1x128

variable (x0 x1 x2 : Vec F S4096x128 .f32) (old : Vec F S1x128 .f32)

theorem cnt_row0 : k0_pay13 (k0_pay11 x0 x1 x2) old = rowUpd (F := F) 0#32 (k0_pay7 x2) (k0_pay8 x0 x1) old := rfl
theorem bce_row0 : k0_pay14 (k0_pay12 x0 x1 x2) old = rowUpd (F := F) 0#32 (k0_pay9 x0 x1 x2) (k0_pay8 x0 x1) old := rfl
theorem cnt_row1 : k0_pay16 (k0_pay7 x2) (k0_pay8 x0 x1) old = rowUpd (F := F) 1#32 (k0_pay7 x2) (k0_pay8 x0 x1) old := rfl
theorem bce_row1 : k0_pay17 (k0_pay8 x0 x1) (k0_pay9 x0 x1 x2) old = rowUpd (F := F) 1#32 (k0_pay9 x0 x1 x2) (k0_pay8 x0 x1) old := rfl
theorem cnt_row2 : k0_pay20 (k0_pay19 (k0_pay7 x2) (k0_pay8 x0 x1)) old = rowUpd (F := F) 2#32 (k0_pay7 x2) (k0_pay8 x0 x1) old := rfl
theorem bce_row2 : k0_pay21 (k0_pay9 x0 x1 x2) (k0_pay18 (k0_pay8 x0 x1)) old = rowUpd (F := F) 2#32 (k0_pay9 x0 x1 x2) (k0_pay8 x0 x1) old := rfl
theorem cnt_row3 : k0_pay23 (k0_pay7 x2) (k0_pay8 x0 x1) old = rowUpd (F := F) 3#32 (k0_pay7 x2) (k0_pay8 x0 x1) old := rfl
theorem bce_row3 : k0_pay24 (k0_pay8 x0 x1) (k0_pay9 x0 x1 x2) old = rowUpd (F := F) 3#32 (k0_pay9 x0 x1 x2) (k0_pay8 x0 x1) old := rfl
theorem cnt_row4 : k0_pay27 (k0_pay7 x2) (k0_pay25 (k0_pay8 x0 x1)) old = rowUpd (F := F) 4#32 (k0_pay7 x2) (k0_pay8 x0 x1) old := rfl
theorem bce_row4 : k0_pay28 (k0_pay9 x0 x1 x2) (k0_pay25 (k0_pay8 x0 x1)) old = rowUpd (F := F) 4#32 (k0_pay9 x0 x1 x2) (k0_pay8 x0 x1) old := rfl
theorem cnt_row5 : k0_pay30 (k0_pay7 x2) (k0_pay8 x0 x1) old = rowUpd (F := F) 5#32 (k0_pay7 x2) (k0_pay8 x0 x1) old := rfl
theorem bce_row5 : k0_pay32 (k0_pay31 (k0_pay8 x0 x1) (k0_pay9 x0 x1 x2) old) = rowUpd (F := F) 5#32 (k0_pay9 x0 x1 x2) (k0_pay8 x0 x1) old := rfl
theorem cnt_row6 : k0_pay34 (k0_pay7 x2) (k0_pay8 x0 x1) old = rowUpd (F := F) 6#32 (k0_pay7 x2) (k0_pay8 x0 x1) old := rfl
theorem bce_row6 : k0_pay35 (k0_pay8 x0 x1) (k0_pay9 x0 x1 x2) old = rowUpd (F := F) 6#32 (k0_pay9 x0 x1 x2) (k0_pay8 x0 x1) old := rfl
theorem cnt_row7 : k0_pay38 (k0_pay7 x2) (k0_pay8 x0 x1) old = rowUpd (F := F) 7#32 (k0_pay7 x2) (k0_pay8 x0 x1) old := rfl
theorem bce_row7 : k0_pay39 (k0_pay37 (k0_pay8 x0 x1) (k0_pay9 x0 x1 x2)) old = rowUpd (F := F) 7#32 (k0_pay9 x0 x1 x2) (k0_pay8 x0 x1) old := rfl
theorem cnt_row8 : k0_pay41 (k0_pay7 x2) (k0_pay8 x0 x1) old = rowUpd (F := F) 8#32 (k0_pay7 x2) (k0_pay8 x0 x1) old := rfl
theorem bce_row8 : k0_pay42 (k0_pay8 x0 x1) (k0_pay9 x0 x1 x2) old = rowUpd (F := F) 8#32 (k0_pay9 x0 x1 x2) (k0_pay8 x0 x1) old := rfl
theorem cnt_row9 : k0_pay1 (k0_pay45 (k0_pay7 x2) (k0_pay8 x0 x1) old) = rowUpd (F := F) 9#32 (k0_pay7 x2) (k0_pay8 x0 x1) old := rfl
theorem bce_row9 : k0_pay2 (k0_pay44 (k0_pay8 x0 x1) (k0_pay9 x0 x1 x2)) old = rowUpd (F := F) 9#32 (k0_pay9 x0 x1 x2) (k0_pay8 x0 x1) old := rfl

end Cert.KernelIdeal.Acc

end
-- ==== Proof.Elem.lean ====
/-
  The per-element quantities of the gradient-harmonised classification loss, on the extended reals.

  For a logit x, a target y and a label weight w:
    validW w   = 1 where w > 0, else 0                      (the element counts at all)
    gradW x y  = |sigmoid x - y|                             (the gradient norm)
    binW x y   = min (trunc (10 * gradW x y)) 9              (which of the ten bins; a 32-bit word)
    bceW x y   = max x 0 - x*y + log (1 + exp (-|x|))       (binary cross entropy with logits)
  The bin word always denotes one of 0..9: the gradient norm is nonnegative, truncation of a nonnegative
  extended real clamps into [0, 2^31 - 1], and the minimum with 9 caps it. For real x, y the cross entropy
  is a real number.
-/
import Idealize.ShloMosaic.PureOps.Ideal

noncomputable section

namespace Ghmc

open Idealize.ShloMosaic

/-- The f32 word of 1.0 denotes 1. -/
theorem ofBits_one : Ideal.ofBits .f32 0x3F800000#32 = 1 := by
  simp [Ideal.ofBits, Ideal.ieee, -EReal.coe_mul]; norm_num

/-- The f32 word of 10.0 denotes 10. -/
theorem ofBits_ten : Ideal.ofBits .f32 0x41200000#32 = ((10 : ℝ) : EReal) := by
  simp [Ideal.ofBits, Ideal.ieee, -EReal.coe_mul]; norm_num

/-- 1 where the label weight is positive, else 0. -/
def validW (w : EReal) : EReal := if 0 < w then 1 else 0

/-- The gradient norm |sigmoid x - y|. -/
def gradW (x y : EReal) : EReal := max (Ideal.logistic x - y) (-(Ideal.logistic x - y))

/-- The bin word: ten times the gradient norm, truncated, capped at 9. -/
def binW (x y : EReal) : BitVec 32 :=
  IntOp.minsi (Ideal.fptosi 32 (gradW x y * Ideal.ofBits .f32 0x41200000#32)) 9#32

/-- Binary cross entropy with logits, in the overflow-free form. -/
def bceW (x y : EReal) : EReal := max x 0 - x * y + Ideal.log1p (Ideal.exp (-(max x (-x))))

theorem validW_cases (w : EReal) : validW w = 0 ∨ validW w = 1 := by
  unfold validW; split <;> simp

/-- The larger of a and -a is nonnegative. -/
theorem max_neg_self_nonneg (a : EReal) : 0 ≤ max a (-a) := by
  rcases le_total 0 a with h | h
  · exact le_max_of_le_left h
  · exact le_max_of_le_right (EReal.neg_nonneg.mpr h)

/-- Truncation of a nonnegative extended real into the signed 32-bit range lands in [0, 2^31 - 1]. -/
theorem toIntClamped_nonneg_range (z : EReal) (hz : 0 ≤ z) :
    0 ≤ Ideal.toIntClamped (-(2 ^ (32 - 1) : Nat)) ((2 ^ (32 - 1) : Nat) - 1) z
      ∧ Ideal.toIntClamped (-(2 ^ (32 - 1) : Nat)) ((2 ^ (32 - 1) : Nat) - 1) z < 2 ^ 31 := by
  induction z using EReal.rec with
  | bot => exact absurd hz (by simp)
  | top => simp [Ideal.toIntClamped_top]
  | coe r =>
    have hr : 0 ≤ r := EReal.coe_nonneg.mp hz
    rw [Ideal.toIntClamped_coe, if_pos hr]
    have hf : 0 ≤ ⌊r⌋ := Int.floor_nonneg.mpr hr
    constructor
    · omega
    · omega

/-- A word of a value in [0, 2^31 - 1], capped at 9 in the signed order, denotes one of 0..9. -/
theorem minsi_nine_lt (n : Int) (h0 : 0 ≤ n) (h1 : n < 2 ^ 31) :
    (IntOp.minsi (BitVec.ofInt 32 n) 9#32).toNat < 10 := by
  have hti : (BitVec.ofInt 32 n).toInt = n :=
    BitVec.toInt_ofInt_eq_self (by decide) (by simpa using (by omega : -2 ^ 31 ≤ n)) (by simpa using h1)
  unfold IntOp.minsi
  split
  · rename_i hs
    rw [BitVec.slt_iff_toInt_lt, hti] at hs
    have h9 : (9#32 : BitVec 32).toInt = 9 := by decide
    rw [h9] at hs
    rw [BitVec.toNat_ofInt]
    omega
  · decide

/-- The bin word denotes one of 0..9, whatever the inputs. -/
theorem binW_lt (x y : EReal) : (binW x y).toNat < 10 := by
  unfold binW Ideal.fptosi
  have hz : 0 ≤ gradW x y * Ideal.ofBits .f32 0x41200000#32 := by
    rw [ofBits_ten]
    exact mul_nonneg (max_neg_self_nonneg _) (by exact_mod_cast (by norm_num : (0 : ℝ) ≤ 10))
  obtain ⟨h0, h1⟩ := toIntClamped_nonneg_range _ hz
  exact minsi_nine_lt _ h0 h1

/-- The bin as an element of Fin 10. -/
def binF (x y : EReal) : Fin 10 := ⟨(binW x y).toNat, binW_lt x y⟩

theorem binW_eq (x y : EReal) : binW x y = BitVec.ofNat 32 (binF x y).val := by
  show binW x y = BitVec.ofNat 32 (binW x y).toNat
  apply BitVec.eq_of_toNat_eq
  rw [BitVec.toNat_ofNat]
  exact (Nat.mod_eq_of_lt (binW x y).isLt).symm

/-- Over real logits and targets the cross entropy is a real number. -/
theorem bceW_real (x y : ℝ) : ∃ r : ℝ, bceW (x : EReal) (y : EReal) = (r : EReal) := by
  have hpos : 0 < 1 + Real.exp (-(max x (-x))) := by positivity
  have hmax : ∀ a b : ℝ, max (a : EReal) (b : EReal) = ((max a b : ℝ) : EReal) :=
    fun a b => (EReal.coe_strictMono.monotone.map_max).symm
  refine ⟨max x 0 - x * y + Real.log (1 + Real.exp (-(max x (-x)))), ?_⟩
  unfold bceW Ideal.log1p
  rw [← EReal.coe_neg x, ← EReal.coe_zero, hmax, hmax, ← EReal.coe_neg, Ideal.exp_coe,
    ← EReal.coe_one, ← EReal.coe_add, Ideal.log_coe, if_neg (not_le.mpr hpos), ← EReal.coe_mul, ← EReal.coe_sub,
    ← EReal.coe_add]

end Ghmc

end
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.KElem.lean ====
/-
  The kernel's per-element payloads read at one element, and the index set of a whole input cut by core, lane,
  step and row.

  At row r and lane l of a 4096 x 128 block, for a logit block x0, a target block x1 and a label-weight block x2:
    the validity payload is 1 where the label weight is positive and 0 elsewhere (the comparison bit,
      zero-extended to a word and converted to a float, is the word's value 0 or 1);
    the bin payload is the bin word of the gradient norm |sigmoid x0 - x1|: ten times it, truncated, capped at 9;
    the cross-entropy payload is max x0 0 - x0*x1 + log (1 + exp (0 - |x0|)) times the validity, and 0 - a = -a;
    the indicator of a bin word is 1 where the element's bin word is that word and 0 elsewhere.
  A row index below 262144 = 2 * 32 * 4096 is (c * 32 + j) * 4096 + r for one core c < 2, one step j < 32 and one
  row r < 4096 of the block, so a sum over all entries of a 262144 x 128 array is the sum over cores, lanes, steps
  and rows; the order of the finite sums is free in a commutative monoid.
-/
import proofs.«100415_j21895743275016_2_alg».proof.Proof.Gen.KernelIdeal.Skeleton
import proofs.«100415_j21895743275016_2_alg».proof.Proof.Elem
import Idealize.ShloMosaic.Lib.ValueIdx
import Idealize.ShloMosaic.PureOps.Ideal.Laws
import proofs.«100415_j21895743275016_2_alg».proof.Proof.LibTileSum

noncomputable section

namespace Ghmc.KElem

open Cert.KernelIdeal Cert.KernelIdeal.Gen Idealize.ShloMosaic Idealize.ShloMosaic.ValueIdx

/-- A one-bit word, zero-extended to 32 bits and read as a signed integer, is 1 for the set bit and 0 for the
    clear one. -/
theorem bit_toInt (b : Bool) :
    ((((BitVec.ofBool b).setWidth 32 : BitVec 32).toInt : ℝ) : EReal) = if b then 1 else 0 := by
  cases b
  · have h : ((BitVec.ofBool false).setWidth 32 : BitVec 32).toInt = 0 := by decide
    rw [h]; simp
  · have h : ((BitVec.ofBool true).setWidth 32 : BitVec 32).toInt = 1 := by decide
    rw [h]; simp

/-- The validity payload at an element: 1 where the label weight is positive, else 0. -/
theorem pay7_apply (x2 : Vec Ideal S4096x128 .f32) (r : Fin 4096) (l : Fin 128) :
    k0_pay7 (F := Ideal) x2 (ix2 r l) = Ghmc.validW (x2 (ix2 r l)) := by
  show ((((Ideal.cmp .ogt (x2 (ix2 r l)) (Ideal.ofBits .f32 0x00000000#32)).setWidth 32 : BitVec 32).toInt : ℝ)
    : EReal) = _
  rw [Ideal.ofBits_zero_f32]
  show ((((BitVec.ofBool (decide ((0 : EReal) < x2 (ix2 r l)))).setWidth 32 : BitVec 32).toInt : ℝ) : EReal) = _
  rw [bit_toInt]
  unfold Ghmc.validW
  by_cases h : (0 : EReal) < x2 (ix2 r l)
  · rw [if_pos h, if_pos (decide_eq_true h)]
  · rw [if_neg h, if_neg (by simpa using h)]

/-- The bin payload at an element: the bin word of the logit and the target. -/
theorem pay8_apply (x0 x1 : Vec Ideal S4096x128 .f32) (r : Fin 4096) (l : Fin 128) :
    k0_pay8 (F := Ideal) x0 x1 (ix2 r l) = Ghmc.binW (x0 (ix2 r l)) (x1 (ix2 r l)) := rfl

/-- The cross-entropy payload at an element: the cross entropy times the validity. -/
theorem pay9_apply (x0 x1 x2 : Vec Ideal S4096x128 .f32) (r : Fin 4096) (l : Fin 128) :
    k0_pay9 (F := Ideal) x0 x1 x2 (ix2 r l)
      = Ghmc.bceW (x0 (ix2 r l)) (x1 (ix2 r l)) * Ghmc.validW (x2 (ix2 r l)) := by
  show (max (x0 (ix2 r l)) (Ideal.ofBits .f32 0x00000000#32) - x0 (ix2 r l) * x1 (ix2 r l)
      + Ideal.log1p (Ideal.exp (Ideal.ofBits .f32 0x00000000#32 - max (x0 (ix2 r l)) (-(x0 (ix2 r l))))))
      * k0_pay7 (F := Ideal) x2 (ix2 r l) = _
  rw [pay7_apply, Ideal.ofBits_zero_f32, zero_sub]
  rfl

/-- The indicator of a bin word at an element: 1 where the element's bin word is that word, else 0. -/
theorem ind_apply (bin : IVec S4096x128 32) (bw : BitVec 32) (h : 1 < 32) (r : Fin 4096) (l : Fin 128) :
    sitofp (F := Ideal) .f32 (extui 32 (cmpi .eq bin (broadcast S4096x128 bw)) h) (ix2 r l)
      = if bin (ix2 r l) = bw then (1 : EReal) else 0 := by
  show ((((BitVec.ofBool (bin (ix2 r l) == bw)).setWidth 32 : BitVec 32).toInt : ℝ) : EReal) = _
  rw [bit_toInt]
  by_cases hb : bin (ix2 r l) = bw
  · rw [if_pos hb, if_pos (by simpa using hb)]
  · rw [if_neg hb, if_neg (by simpa using hb)]

/-- A sum over all entries of a 262144 x 128 array, by core, lane, step and row of the block. -/
theorem sum_by_core_lane_step_row {M : Type*} [AddCommMonoid M] (f : (⟨2, ![262144, 128]⟩ : Shape).Idx → M) :
    ∑ i, f i = ∑ c : Fin 2, ∑ l : Fin 128, ∑ j : Fin 32, ∑ r : Fin 4096,
      f (ix2 (⟨(c.val * 32 + j.val) * 4096 + r.val, by omega⟩ : Fin 262144) l) := by
  rw [sum_idx2,
    TileSum.sum_axis (show 64 * 4096 = 262144 from rfl) (fun a => ∑ b : Fin 128, f (ix2 a b)),
    TileSum.sum_axis (show 2 * 32 = 64 from rfl)
      (fun t => ∑ r : Fin 4096, ∑ b : Fin 128, f (ix2 (TileSum.idx (show 64 * 4096 = 262144 from rfl) t r) b))]
  refine Finset.sum_congr rfl fun c _ => ?_
  calc ∑ j : Fin 32, ∑ r : Fin 4096, ∑ b : Fin 128,
        f (ix2 (TileSum.idx (show 64 * 4096 = 262144 from rfl) (TileSum.idx (show 2 * 32 = 64 from rfl) c j) r) b)
      = ∑ j : Fin 32, ∑ b : Fin 128, ∑ r : Fin 4096,
        f (ix2 (TileSum.idx (show 64 * 4096 = 262144 from rfl) (TileSum.idx (show 2 * 32 = 64 from rfl) c j) r) b) :=
        Finset.sum_congr rfl fun j _ => Finset.sum_comm
    _ = ∑ b : Fin 128, ∑ j : Fin 32, ∑ r : Fin 4096,
        f (ix2 (TileSum.idx (show 64 * 4096 = 262144 from rfl) (TileSum.idx (show 2 * 32 = 64 from rfl) c j) r) b) :=
        Finset.sum_comm
    _ = _ := rfl

end Ghmc.KElem

end
-- ==== Proof.LibAxisSums.lean ====
/-
  Two readings of sums over small index sets:
  • at the ideal values a float sum reduction over the FIRST axis of an `[a, b]` matrix, read at column `c`, is the sum
    over `r : Fin a` of the entries `(r, c)` (the companion of the last-axis reading, which sums a row);
  • a rank-1 index set `[n]` is its one coordinate's range, so a sum over it is the sum over `Fin n` at `ix1`.
-/
import Idealize.ShloMosaic.Lib.ValueIdx
import Idealize.ShloMosaic.PureOps.Ideal.Laws

noncomputable section

open scoped BigOperators

namespace Cert.LibAxisSums

open Idealize.ShloMosaic Idealize.ShloMosaic.ValueIdx

/-- At the ideal values a float sum reduction over the FIRST axis of an `[a, b]` matrix, read at column `c`, is the sum
    of that column's `a` entries. -/
theorem multiReduction_add_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src ?_
  funext ax; apply Fin.ext
  match ax with
  | ⟨0, _⟩ => rfl
  | ⟨1, _⟩ => rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

end Cert.LibAxisSums

end
-- ==== Proof.KInc.lean ====
/-
  The row update at the ideal values, read at a lane: the old row's entry plus the sum over the block's 4096 rows of
  (1 where the element's bin word is bw, else 0) times the element's value. From it, what one grid point adds to
  the two [16,128] accumulators: row b < 10 of the count accumulator gains, at lane l, the number of valid elements
  of bin b in column l of the block; of the cross-entropy accumulator, their summed cross entropy; rows 10..15 gain
  nothing. Also the [16,128] → [1,16,128] cast the last point stores through, read at an index.
-/
import proofs.«100415_j21895743275016_2_alg».proof.Proof.KPay
import proofs.«100415_j21895743275016_2_alg».proof.Proof.KElem
import proofs.«100415_j21895743275016_2_alg».proof.Proof.LibAxisSums
import Idealize.ShloMosaic.Lib.ValueLayout
import Idealize.ShloMosaic.Lib.Pipeline.Value

noncomputable section

namespace Cert.KernelIdeal.Acc

open Idealize.ShloMosaic Idealize.ShloMosaic.ValueIdx Cert.KernelIdeal Cert.KernelIdeal.Gen

/-- Lane l's sum over the block's rows of indicator times value. -/
def colsum (bw : BitVec 32) (X : FVec Ideal S4096x128 .f32) (bin : IVec S4096x128 32) (l : Fin 128) : EReal :=
  ∑ r : Fin 4096, (if bin (ix2 r l) = bw then (1 : EReal) else 0) * X (ix2 r l)

/-- The row update at lane l. -/
theorem rowUpd_apply (bw : BitVec 32) (X : FVec Ideal S4096x128 .f32) (bin : IVec S4096x128 32)
    (old : Vec Ideal S1x128 .f32) (l : Fin 128) :
    rowUpd (F := Ideal) bw X bin old (ix2 0 l) = old (ix2 0 l) + colsum bw X bin l := by
  unfold rowUpd
  rw [shapeCast_self]
  show old (ix2 0 l) + shapeCast S1x128 (multiReduction .add [0] S128 (mulf (ind (F := Ideal) bw bin) X) 0x00000000#32
      reduces_S4096x128_S128 (.inl rfl) rfl) shapeCasts_S128_S1x128 (ix2 0 l) = _
  rw [shapeCast_a_1a_apply]
  congr 1
  refine (Cert.LibAxisSums.multiReduction_add_firstAxis_apply _ _ _ _ _ l).trans ?_
  unfold colsum
  refine Finset.sum_congr rfl fun r _ => ?_
  rw [mulf_apply]
  unfold ind
  rw [Ghmc.KElem.ind_apply]

/-- The cast [16,128] → [1,16,128] read at an index. -/
theorem pay3_apply (X : Vec Ideal S16x128 .f32) (b : Fin 16) (l : Fin 128) :
    k0_pay3 (F := Ideal) X (ix3 0 b l) = X (ix2 b l) := by
  unfold k0_pay3
  exact shapeCast_ab_1ab_apply X _ 0 b l

theorem pay4_apply (X : Vec Ideal S16x128 .f32) (b : Fin 16) (l : Fin 128) :
    k0_pay4 (F := Ideal) X (ix3 0 b l) = X (ix2 b l) := pay3_apply X b l

/-- What one block adds to the count accumulator at (b, l). -/
def incC (x0 x1 x2 : Vec Ideal S4096x128 .f32) (b : Fin 16) (l : Fin 128) : EReal :=
  if b.val < 10 then colsum (BitVec.ofNat 32 b.val) (k0_pay7 (F := Ideal) x2) (k0_pay8 (F := Ideal) x0 x1) l else 0

/-- What one block adds to the cross-entropy accumulator at (b, l). -/
def incB (x0 x1 x2 : Vec Ideal S4096x128 .f32) (b : Fin 16) (l : Fin 128) : EReal :=
  if b.val < 10 then colsum (BitVec.ofNat 32 b.val) (k0_pay9 (F := Ideal) x0 x1 x2) (k0_pay8 (F := Ideal) x0 x1) l else 0

end Cert.KernelIdeal.Acc

end
-- ==== Proof.KCaseB.lean ====
/-
  Case B of the kernel body (a grid point that is neither the first nor the last of its core's 32): the body reads
  the two accumulators as the point before left them and adds this point's block to rows 0..9, one row store per
  bin. Read at an index (b, l): the old entry plus what the block adds there (Acc.incC / Acc.incB).
-/
import proofs.«100415_j21895743275016_2_alg».proof.Proof.Gen.KernelIdeal.Frame
import proofs.«100415_j21895743275016_2_alg».proof.Proof.KRows
import proofs.«100415_j21895743275016_2_alg».proof.Proof.KInc
import Idealize.ShloMosaic.Lib.Pipeline.Value
import Idealize.ShloMosaic.Lib.Tactic

noncomputable section

namespace Cert.KernelIdeal.Acc

open Idealize.ShloMosaic Idealize.ShloMosaic.ValueIdx Idealize.ShloMosaic.TcCoe Idealize.ShloMosaic.Tactic Idealize.SL.Sem
open Cert.KernelIdeal Cert.KernelIdeal.Gen

theorem hz2 : (![0, 0] : Fin 2 → Nat) = fun _ => 0 := funext fun a => by fin_cases a <;> rfl

variable (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (hc0 : ¬cond0_0 i) (hc1 : ¬cond0_1 i)
variable (x0 x1 x2 : Vec Ideal S4096x128 .f32) (xs0 xs1 : Vec Ideal S16x128 .f32)

/-- The count accumulator after a case-B point. -/
theorem sout_B_0 (b : Fin 16) (l : Fin 128) :
    sout0_B_0 (F := Ideal) c i arg2 harg2 arg3 harg3 arg4 harg4 arg5 harg5 arg6 harg6 arg7 harg7 arg8 harg8 hc0 hc1 x0 x1 x2 xs0 xs1 (ix2 b l) = xs0 (ix2 b l) + incC x0 x1 x2 b l := by
  unfold sout0_B_0 kernelRun0_B
  dsimp only
  sl_unfold_words
  simp only [View.readAt_eq_ld, harg2.read_unread, harg3.read_unread, harg4.read_unread, harg7.read_unread, View.ld_unit_zero (S := S4096x128) hz2]
  simp only [cnt_row0, cnt_row1, cnt_row2, cnt_row3, cnt_row4, cnt_row5, cnt_row6, cnt_row7, cnt_row8, cnt_row9]
  by_cases h0 : b.val = 0
  · refine (Ghmc.Rows.read_row0 arg7.view (harg7.unread xs0) _ _ _ _ _ _ _ _ _ _ _ _ _ _ _ _ _ _ _ _ b l h0).trans ?_
    obtain rfl : b = ⟨0, by decide⟩ := Fin.ext h0
    rw [rowUpd_apply, Ghmc.Rows.ld_row xs0 0 (by decide)]
    unfold incC
    rw [if_pos (by decide)]
  by_cases h1 : b.val = 1
  · refine (Ghmc.Rows.read_row1 arg7.view (harg7.unread xs0) _ _ _ _ _ _ _ _ _ _ _ _ _ _ _ _ _ _ _ _ b l h1).trans ?_
    obtain rfl : b = ⟨1, by decide⟩ := Fin.ext h1
    rw [rowUpd_apply, Ghmc.Rows.ld_row xs0 1 (by decide)]
    unfold incC
    rw [if_pos (by decide)]
  by_cases h2 : b.val = 2
  · refine (Ghmc.Rows.read_row2 arg7.view (harg7.unread xs0) _ _ _ _ _ _ _ _ _ _ _ _ _ _ _ _ _ _ _ _ b l h2).trans ?_
    obtain rfl : b = ⟨2, by decide⟩ := Fin.ext h2
    rw [rowUpd_apply, Ghmc.Rows.ld_row xs0 2 (by decide)]
    unfold incC
    rw [if_pos (by decide)]
  by_cases h3 : b.val = 3
  · refine (Ghmc.Rows.read_row3 arg7.view (harg7.unread xs0) _ _ _ _ _ _ _ _ _ _ _ _ _ _ _ _ _ _ _ _ b l h3).trans ?_
    obtain rfl : b = ⟨3, by decide⟩ := Fin.ext h3
    rw [rowUpd_apply, Ghmc.Rows.ld_row xs0 3 (by decide)]
    unfold incC
    rw [if_pos (by decide)]
  by_cases h4 : b.val = 4
  · refine (Ghmc.Rows.read_row4 arg7.view (harg7.unread xs0) _ _ _ _ _ _ _ _ _ _ _ _ _ _ _ _ _ _ _ _ b l h4).trans ?_
    obtain rfl : b = ⟨4, by decide⟩ := Fin.ext h4
    rw [rowUpd_apply, Ghmc.Rows.ld_row xs0 4 (by decide)]
    unfold incC
    rw [if_pos (by decide)]
  by_cases h5 : b.val = 5
  · refine (Ghmc.Rows.read_row5 arg7.view (harg7.unread xs0) _ _ _ _ _ _ _ _ _ _ _ _ _ _ _ _ _ _ _ _ b l h5).trans ?_
    obtain rfl : b = ⟨5, by decide⟩ := Fin.ext h5
    rw [rowUpd_apply, Ghmc.Rows.ld_row xs0 5 (by decide)]
    unfold incC
    rw [if_pos (by decide)]
  by_cases h6 : b.val = 6
  · refine (Ghmc.Rows.read_row6 arg7.view (harg7.unread xs0) _ _ _ _ _ _ _ _ _ _ _ _ _ _ _ _ _ _ _ _ b l h6).trans ?_
    obtain rfl : b = ⟨6, by decide⟩ := Fin.ext h6
    rw [rowUpd_apply, Ghmc.Rows.ld_row xs0 6 (by decide)]
    unfold incC
    rw [if_pos (by decide)]
  by_cases h7 : b.val = 7
  · refine (Ghmc.Rows.read_row7 arg7.view (harg7.unread xs0) _ _ _ _ _ _ _ _ _ _ _ _ _ _ _ _ _ _ _ _ b l h7).trans ?_
    obtain rfl : b = ⟨7, by decide⟩ := Fin.ext h7
    rw [rowUpd_apply, Ghmc.Rows.ld_row xs0 7 (by decide)]
    unfold incC
    rw [if_pos (by decide)]
  by_cases h8 : b.val = 8
  · refine (Ghmc.Rows.read_row8 arg7.view (harg7.unread xs0) _ _ _ _ _ _ _ _ _ _ _ _ _ _ _ _ _ _ _ _ b l h8).trans ?_
    obtain rfl : b = ⟨8, by decide⟩ := Fin.ext h8
    rw [rowUpd_apply, Ghmc.Rows.ld_row xs0 8 (by decide)]
    unfold incC
    rw [if_pos (by decide)]
  by_cases h9 : b.val = 9
  · refine (Ghmc.Rows.read_row9 arg7.view (harg7.unread xs0) _ _ _ _ _ _ _ _ _ _ _ _ _ _ _ _ _ _ _ _ b l h9).trans ?_
    obtain rfl : b = ⟨9, by decide⟩ := Fin.ext h9
    rw [rowUpd_apply, Ghmc.Rows.ld_row xs0 9 (by decide)]
    unfold incC
    rw [if_pos (by decide)]
  refine (Ghmc.Rows.read_rowHigh arg7.view (harg7.unread xs0) _ _ _ _ _ _ _ _ _ _ _ _ _ _ _ _ _ _ _ _ b l (by omega)).trans ?_
  rw [congrFun (harg7.read_unread xs0) (ix2 b l)]
  unfold incC
  rw [if_neg (by omega), add_zero]

/-- The cross-entropy accumulator after a case-B point. -/
theorem sout_B_1 (b : Fin 16) (l : Fin 128) :
    sout0_B_1 (F := Ideal) c i arg2 harg2 arg3 harg3 arg4 harg4 arg5 harg5 arg6 harg6 arg7 harg7 arg8 harg8 hc0 hc1 x0 x1 x2 xs0 xs1 (ix2 b l) = xs1 (ix2 b l) + incB x0 x1 x2 b l := by
  unfold sout0_B_1 kernelRun0_B
  dsimp only
  sl_unfold_words
  simp only [View.readAt_eq_ld, harg2.read_unread, harg3.read_unread, harg4.read_unread, harg8.read_unread, View.ld_unit_zero (S := S4096x128) hz2]
  simp only [bce_row0, bce_row1, bce_row2, bce_row3, bce_row4, bce_row5, bce_row6, bce_row7, bce_row8, bce_row9]
  by_cases h0 : b.val = 0
  · refine (Ghmc.Rows.read_row0 arg8.view (harg8.unread xs1) _ _ _ _ _ _ _ _ _ _ _ _ _ _ _ _ _ _ _ _ b l h0).trans ?_
    obtain rfl : b = ⟨0, by decide⟩ := Fin.ext h0
    rw [rowUpd_apply, Ghmc.Rows.ld_row xs1 0 (by decide)]
    unfold incB
    rw [if_pos (by decide)]
  by_cases h1 : b.val = 1
  · refine (Ghmc.Rows.read_row1 arg8.view (harg8.unread xs1) _ _ _ _ _ _ _ _ _ _ _ _ _ _ _ _ _ _ _ _ b l h1).trans ?_
    obtain rfl : b = ⟨1, by decide⟩ := Fin.ext h1
    rw [rowUpd_apply, Ghmc.Rows.ld_row xs1 1 (by decide)]
    unfold incB
    rw [if_pos (by decide)]
  by_cases h2 : b.val = 2
  · refine (Ghmc.Rows.read_row2 arg8.view (harg8.unread xs1) _ _ _ _ _ _ _ _ _ _ _ _ _ _ _ _ _ _ _ _ b l h2).trans ?_
    obtain rfl : b = ⟨2, by decide⟩ := Fin.ext h2
    rw [rowUpd_apply, Ghmc.Rows.ld_row xs1 2 (by decide)]
    unfold incB
    rw [if_pos (by decide)]
  by_cases h3 : b.val = 3
  · refine (Ghmc.Rows.read_row3 arg8.view (harg8.unread xs1) _ _ _ _ _ _ _ _ _ _ _ _ _ _ _ _ _ _ _ _ b l h3).trans ?_
    obtain rfl : b = ⟨3, by decide⟩ := Fin.ext h3
    rw [rowUpd_apply, Ghmc.Rows.ld_row xs1 3 (by decide)]
    unfold incB
    rw [if_pos (by decide)]
  by_cases h4 : b.val = 4
  · refine (Ghmc.Rows.read_row4 arg8.view (harg8.unread xs1) _ _ _ _ _ _ _ _ _ _ _ _ _ _ _ _ _ _ _ _ b l h4).trans ?_
    obtain rfl : b = ⟨4, by decide⟩ := Fin.ext h4
    rw [rowUpd_apply, Ghmc.Rows.ld_row xs1 4 (by decide)]
    unfold incB
    rw [if_pos (by decide)]
  by_cases h5 : b.val = 5
  · refine (Ghmc.Rows.read_row5 arg8.view (harg8.unread xs1) _ _ _ _ _ _ _ _ _ _ _ _ _ _ _ _ _ _ _ _ b l h5).trans ?_
    obtain rfl : b = ⟨5, by decide⟩ := Fin.ext h5
    rw [rowUpd_apply, Ghmc.Rows.ld_row xs1 5 (by decide)]
    unfold incB
    rw [if_pos (by decide)]
  by_cases h6 : b.val = 6
  · refine (Ghmc.Rows.read_row6 arg8.view (harg8.unread xs1) _ _ _ _ _ _ _ _ _ _ _ _ _ _ _ _ _ _ _ _ b l h6).trans ?_
    obtain rfl : b = ⟨6, by decide⟩ := Fin.ext h6
    rw [rowUpd_apply, Ghmc.Rows.ld_row xs1 6 (by decide)]
    unfold incB
    rw [if_pos (by decide)]
  by_cases h7 : b.val = 7
  · refine (Ghmc.Rows.read_row7 arg8.view (harg8.unread xs1) _ _ _ _ _ _ _ _ _ _ _ _ _ _ _ _ _ _ _ _ b l h7).trans ?_
    obtain rfl : b = ⟨7, by decide⟩ := Fin.ext h7
    rw [rowUpd_apply, Ghmc.Rows.ld_row xs1 7 (by decide)]
    unfold incB
    rw [if_pos (by decide)]
  by_cases h8 : b.val = 8
  · refine (Ghmc.Rows.read_row8 arg8.view (harg8.unread xs1) _ _ _ _ _ _ _ _ _ _ _ _ _ _ _ _ _ _ _ _ b l h8).trans ?_
    obtain rfl : b = ⟨8, by decide⟩ := Fin.ext h8
    rw [rowUpd_apply, Ghmc.Rows.ld_row xs1 8 (by decide)]
    unfold incB
    rw [if_pos (by decide)]
  by_cases h9 : b.val = 9
  · refine (Ghmc.Rows.read_row9 arg8.view (harg8.unread xs1) _ _ _ _ _ _ _ _ _ _ _ _ _ _ _ _ _ _ _ _ b l h9).trans ?_
    obtain rfl : b = ⟨9, by decide⟩ := Fin.ext h9
    rw [rowUpd_apply, Ghmc.Rows.ld_row xs1 9 (by decide)]
    unfold incB
    rw [if_pos (by decide)]
  refine (Ghmc.Rows.read_rowHigh arg8.view (harg8.unread xs1) _ _ _ _ _ _ _ _ _ _ _ _ _ _ _ _ _ _ _ _ b l (by omega)).trans ?_
  rw [congrFun (harg8.read_unread xs1) (ix2 b l)]
  unfold incB
  rw [if_neg (by omega), add_zero]

end Cert.KernelIdeal.Acc

end
-- ==== Proof.KCaseC.lean ====
/-
  Case C of the kernel body (the last of a core's 32 grid points): as in the middle points the body adds the block
  to rows 0..9 of the two accumulators, and then copies each accumulator, reshaped [16,128] → [1,16,128], into its
  output block. Read at an index: both the accumulator at (b, l) and the output block at (0, b, l) hold the old
  accumulator entry plus what the block adds there.
-/
import proofs.«100415_j21895743275016_2_alg».proof.Proof.Gen.KernelIdeal.Frame
import proofs.«100415_j21895743275016_2_alg».proof.Proof.KRows
import proofs.«100415_j21895743275016_2_alg».proof.Proof.KInc
import Idealize.ShloMosaic.Lib.Pipeline.Value
import Idealize.ShloMosaic.Lib.Tactic

noncomputable section

namespace Cert.KernelIdeal.Acc

open Idealize.ShloMosaic Idealize.ShloMosaic.ValueIdx Idealize.ShloMosaic.TcCoe Idealize.ShloMosaic.Tactic Idealize.SL.Sem
open Cert.KernelIdeal Cert.KernelIdeal.Gen

theorem hzC2 : (![0, 0] : Fin 2 → Nat) = fun _ => 0 := funext fun a => by fin_cases a <;> rfl

theorem hzC3 : (![0, 0, 0] : Fin 3 → Nat) = fun _ => 0 := funext fun a => by fin_cases a <;> rfl

variable (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (hc0 : ¬cond0_0 i) (hc1 : cond0_1 i)
variable (x0 x1 x2 : Vec Ideal S4096x128 .f32) (xs0 xs1 : Vec Ideal S16x128 .f32)

/-- The count accumulator after the last point. -/
theorem sout_C_0 (b : Fin 16) (l : Fin 128) :
    sout0_C_0 (F := Ideal) c i arg2 harg2 arg3 harg3 arg4 harg4 arg5 harg5 arg6 harg6 arg7 harg7 arg8 harg8 hc0 hc1 x0 x1 x2 xs0 xs1 (ix2 b l) = xs0 (ix2 b l) + incC x0 x1 x2 b l := by
  unfold sout0_C_0 kernelRun0_C
  dsimp only
  sl_unfold_words
  simp only [View.readAt_eq_ld, harg2.read_unread, harg3.read_unread, harg4.read_unread, harg7.read_unread, View.ld_unit_zero (S := S4096x128) hzC2]
  simp only [cnt_row0, cnt_row1, cnt_row2, cnt_row3, cnt_row4, cnt_row5, cnt_row6, cnt_row7, cnt_row8, cnt_row9]
  by_cases h0 : b.val = 0
  · refine (Ghmc.Rows.read_row0 arg7.view (harg7.unread xs0) _ _ _ _ _ _ _ _ _ _ _ _ _ _ _ _ _ _ _ _ b l h0).trans ?_
    obtain rfl : b = ⟨0, by decide⟩ := Fin.ext h0
    rw [rowUpd_apply, Ghmc.Rows.ld_row xs0 0 (by decide)]
    unfold incC
    rw [if_pos (by decide)]
  by_cases h1 : b.val = 1
  · refine (Ghmc.Rows.read_row1 arg7.view (harg7.unread xs0) _ _ _ _ _ _ _ _ _ _ _ _ _ _ _ _ _ _ _ _ b l h1).trans ?_
    obtain rfl : b = ⟨1, by decide⟩ := Fin.ext h1
    rw [rowUpd_apply, Ghmc.Rows.ld_row xs0 1 (by decide)]
    unfold incC
    rw [if_pos (by decide)]
  by_cases h2 : b.val = 2
  · refine (Ghmc.Rows.read_row2 arg7.view (harg7.unread xs0) _ _ _ _ _ _ _ _ _ _ _ _ _ _ _ _ _ _ _ _ b l h2).trans ?_
    obtain rfl : b = ⟨2, by decide⟩ := Fin.ext h2
    rw [rowUpd_apply, Ghmc.Rows.ld_row xs0 2 (by decide)]
    unfold incC
    rw [if_pos (by decide)]
  by_cases h3 : b.val = 3
  · refine (Ghmc.Rows.read_row3 arg7.view (harg7.unread xs0) _ _ _ _ _ _ _ _ _ _ _ _ _ _ _ _ _ _ _ _ b l h3).trans ?_
    obtain rfl : b = ⟨3, by decide⟩ := Fin.ext h3
    rw [rowUpd_apply, Ghmc.Rows.ld_row xs0 3 (by decide)]
    unfold incC
    rw [if_pos (by decide)]
  by_cases h4 : b.val = 4
  · refine (Ghmc.Rows.read_row4 arg7.view (harg7.unread xs0) _ _ _ _ _ _ _ _ _ _ _ _ _ _ _ _ _ _ _ _ b l h4).trans ?_
    obtain rfl : b = ⟨4, by decide⟩ := Fin.ext h4
    rw [rowUpd_apply, Ghmc.Rows.ld_row xs0 4 (by decide)]
    unfold incC
    rw [if_pos (by decide)]
  by_cases h5 : b.val = 5
  · refine (Ghmc.Rows.read_row5 arg7.view (harg7.unread xs0) _ _ _ _ _ _ _ _ _ _ _ _ _ _ _ _ _ _ _ _ b l h5).trans ?_
    obtain rfl : b = ⟨5, by decide⟩ := Fin.ext h5
    rw [rowUpd_apply, Ghmc.Rows.ld_row xs0 5 (by decide)]
    unfold incC
    rw [if_pos (by decide)]
  by_cases h6 : b.val = 6
  · refine (Ghmc.Rows.read_row6 arg7.view (harg7.unread xs0) _ _ _ _ _ _ _ _ _ _ _ _ _ _ _ _ _ _ _ _ b l h6).trans ?_
    obtain rfl : b = ⟨6, by decide⟩ := Fin.ext h6
    rw [rowUpd_apply, Ghmc.Rows.ld_row xs0 6 (by decide)]
    unfold incC
    rw [if_pos (by decide)]
  by_cases h7 : b.val = 7
  · refine (Ghmc.Rows.read_row7 arg7.view (harg7.unread xs0) _ _ _ _ _ _ _ _ _ _ _ _ _ _ _ _ _ _ _ _ b l h7).trans ?_
    obtain rfl : b = ⟨7, by decide⟩ := Fin.ext h7
    rw [rowUpd_apply, Ghmc.Rows.ld_row xs0 7 (by decide)]
    unfold incC
    rw [if_pos (by decide)]
  by_cases h8 : b.val = 8
  · refine (Ghmc.Rows.read_row8 arg7.view (harg7.unread xs0) _ _ _ _ _ _ _ _ _ _ _ _ _ _ _ _ _ _ _ _ b l h8).trans ?_
    obtain rfl : b = ⟨8, by decide⟩ := Fin.ext h8
    rw [rowUpd_apply, Ghmc.Rows.ld_row xs0 8 (by decide)]
    unfold incC
    rw [if_pos (by decide)]
  by_cases h9 : b.val = 9
  · refine (Ghmc.Rows.read_row9 arg7.view (harg7.unread xs0) _ _ _ _ _ _ _ _ _ _ _ _ _ _ _ _ _ _ _ _ b l h9).trans ?_
    obtain rfl : b = ⟨9, by decide⟩ := Fin.ext h9
    rw [rowUpd_apply, Ghmc.Rows.ld_row xs0 9 (by decide)]
    unfold incC
    rw [if_pos (by decide)]
  refine (Ghmc.Rows.read_rowHigh arg7.view (harg7.unread xs0) _ _ _ _ _ _ _ _ _ _ _ _ _ _ _ _ _ _ _ _ b l (by omega)).trans ?_
  rw [congrFun (harg7.read_unread xs0) (ix2 b l)]
  unfold incC
  rw [if_neg (by omega), add_zero]

/-- The cross-entropy accumulator after the last point. -/
theorem sout_C_1 (b : Fin 16) (l : Fin 128) :
    sout0_C_1 (F := Ideal) c i arg2 harg2 arg3 harg3 arg4 harg4 arg5 harg5 arg6 harg6 arg7 harg7 arg8 harg8 hc0 hc1 x0 x1 x2 xs0 xs1 (ix2 b l) = xs1 (ix2 b l) + incB x0 x1 x2 b l := by
  unfold sout0_C_1 kernelRun0_C
  dsimp only
  sl_unfold_words
  simp only [View.readAt_eq_ld, harg2.read_unread, harg3.read_unread, harg4.read_unread, harg8.read_unread, View.ld_unit_zero (S := S4096x128) hzC2]
  simp only [bce_row0, bce_row1, bce_row2, bce_row3, bce_row4, bce_row5, bce_row6, bce_row7, bce_row8, bce_row9]
  by_cases h0 : b.val = 0
  · refine (Ghmc.Rows.read_row0 arg8.view (harg8.unread xs1) _ _ _ _ _ _ _ _ _ _ _ _ _ _ _ _ _ _ _ _ b l h0).trans ?_
    obtain rfl : b = ⟨0, by decide⟩ := Fin.ext h0
    rw [rowUpd_apply, Ghmc.Rows.ld_row xs1 0 (by decide)]
    unfold incB
    rw [if_pos (by decide)]
  by_cases h1 : b.val = 1
  · refine (Ghmc.Rows.read_row1 arg8.view (harg8.unread xs1) _ _ _ _ _ _ _ _ _ _ _ _ _ _ _ _ _ _ _ _ b l h1).trans ?_
    obtain rfl : b = ⟨1, by decide⟩ := Fin.ext h1
    rw [rowUpd_apply, Ghmc.Rows.ld_row xs1 1 (by decide)]
    unfold incB
    rw [if_pos (by decide)]
  by_cases h2 : b.val = 2
  · refine (Ghmc.Rows.read_row2 arg8.view (harg8.unread xs1) _ _ _ _ _ _ _ _ _ _ _ _ _ _ _ _ _ _ _ _ b l h2).trans ?_
    obtain rfl : b = ⟨2, by decide⟩ := Fin.ext h2
    rw [rowUpd_apply, Ghmc.Rows.ld_row xs1 2 (by decide)]
    unfold incB
    rw [if_pos (by decide)]
  by_cases h3 : b.val = 3
  · refine (Ghmc.Rows.read_row3 arg8.view (harg8.unread xs1) _ _ _ _ _ _ _ _ _ _ _ _ _ _ _ _ _ _ _ _ b l h3).trans ?_
    obtain rfl : b = ⟨3, by decide⟩ := Fin.ext h3
    rw [rowUpd_apply, Ghmc.Rows.ld_row xs1 3 (by decide)]
    unfold incB
    rw [if_pos (by decide)]
  by_cases h4 : b.val = 4
  · refine (Ghmc.Rows.read_row4 arg8.view (harg8.unread xs1) _ _ _ _ _ _ _ _ _ _ _ _ _ _ _ _ _ _ _ _ b l h4).trans ?_
    obtain rfl : b = ⟨4, by decide⟩ := Fin.ext h4
    rw [rowUpd_apply, Ghmc.Rows.ld_row xs1 4 (by decide)]
    unfold incB
    rw [if_pos (by decide)]
  by_cases h5 : b.val = 5
  · refine (Ghmc.Rows.read_row5 arg8.view (harg8.unread xs1) _ _ _ _ _ _ _ _ _ _ _ _ _ _ _ _ _ _ _ _ b l h5).trans ?_
    obtain rfl : b = ⟨5, by decide⟩ := Fin.ext h5
    rw [rowUpd_apply, Ghmc.Rows.ld_row xs1 5 (by decide)]
    unfold incB
    rw [if_pos (by decide)]
  by_cases h6 : b.val = 6
  · refine (Ghmc.Rows.read_row6 arg8.view (harg8.unread xs1) _ _ _ _ _ _ _ _ _ _ _ _ _ _ _ _ _ _ _ _ b l h6).trans ?_
    obtain rfl : b = ⟨6, by decide⟩ := Fin.ext h6
    rw [rowUpd_apply, Ghmc.Rows.ld_row xs1 6 (by decide)]
    unfold incB
    rw [if_pos (by decide)]
  by_cases h7 : b.val = 7
  · refine (Ghmc.Rows.read_row7 arg8.view (harg8.unread xs1) _ _ _ _ _ _ _ _ _ _ _ _ _ _ _ _ _ _ _ _ b l h7).trans ?_
    obtain rfl : b = ⟨7, by decide⟩ := Fin.ext h7
    rw [rowUpd_apply, Ghmc.Rows.ld_row xs1 7 (by decide)]
    unfold incB
    rw [if_pos (by decide)]
  by_cases h8 : b.val = 8
  · refine (Ghmc.Rows.read_row8 arg8.view (harg8.unread xs1) _ _ _ _ _ _ _ _ _ _ _ _ _ _ _ _ _ _ _ _ b l h8).trans ?_
    obtain rfl : b = ⟨8, by decide⟩ := Fin.ext h8
    rw [rowUpd_apply, Ghmc.Rows.ld_row xs1 8 (by decide)]
    unfold incB
    rw [if_pos (by decide)]
  by_cases h9 : b.val = 9
  · refine (Ghmc.Rows.read_row9 arg8.view (harg8.unread xs1) _ _ _ _ _ _ _ _ _ _ _ _ _ _ _ _ _ _ _ _ b l h9).trans ?_
    obtain rfl : b = ⟨9, by decide⟩ := Fin.ext h9
    rw [rowUpd_apply, Ghmc.Rows.ld_row xs1 9 (by decide)]
    unfold incB
    rw [if_pos (by decide)]
  refine (Ghmc.Rows.read_rowHigh arg8.view (harg8.unread xs1) _ _ _ _ _ _ _ _ _ _ _ _ _ _ _ _ _ _ _ _ b l (by omega)).trans ?_
  rw [congrFun (harg8.read_unread xs1) (ix2 b l)]
  unfold incB
  rw [if_neg (by omega), add_zero]

/-- The count output block the last point stores. -/
theorem out_C_3 (b : Fin 16) (l : Fin 128) :
    out0_C_3 (F := Ideal) c i arg2 harg2 arg3 harg3 arg4 harg4 arg5 harg5 arg6 harg6 arg7 harg7 arg8 harg8 hc0 hc1 x0 x1 x2 xs0 xs1 (ix3 0 b l) = xs0 (ix2 b l) + incC x0 x1 x2 b l := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hzC3, pay3_apply]
  simp only [View.readAt_eq_ld, harg2.read_unread, harg3.read_unread, harg4.read_unread, harg7.read_unread, View.ld_unit_zero (S := S4096x128) hzC2, View.ld_unit_zero (S := S16x128) hzC2]
  simp only [cnt_row0, cnt_row1, cnt_row2, cnt_row3, cnt_row4, cnt_row5, cnt_row6, cnt_row7, cnt_row8, cnt_row9]
  by_cases h0 : b.val = 0
  · refine (Ghmc.Rows.read_row0 arg7.view (harg7.unread xs0) _ _ _ _ _ _ _ _ _ _ _ _ _ _ _ _ _ _ _ _ b l h0).trans ?_
    obtain rfl : b = ⟨0, by decide⟩ := Fin.ext h0
    rw [rowUpd_apply, Ghmc.Rows.ld_row xs0 0 (by decide)]
    unfold incC
    rw [if_pos (by decide)]
  by_cases h1 : b.val = 1
  · refine (Ghmc.Rows.read_row1 arg7.view (harg7.unread xs0) _ _ _ _ _ _ _ _ _ _ _ _ _ _ _ _ _ _ _ _ b l h1).trans ?_
    obtain rfl : b = ⟨1, by decide⟩ := Fin.ext h1
    rw [rowUpd_apply, Ghmc.Rows.ld_row xs0 1 (by decide)]
    unfold incC
    rw [if_pos (by decide)]
  by_cases h2 : b.val = 2
  · refine (Ghmc.Rows.read_row2 arg7.view (harg7.unread xs0) _ _ _ _ _ _ _ _ _ _ _ _ _ _ _ _ _ _ _ _ b l h2).trans ?_
    obtain rfl : b = ⟨2, by decide⟩ := Fin.ext h2
    rw [rowUpd_apply, Ghmc.Rows.ld_row xs0 2 (by decide)]
    unfold incC
    rw [if_pos (by decide)]
  by_cases h3 : b.val = 3
  · refine (Ghmc.Rows.read_row3 arg7.view (harg7.unread xs0) _ _ _ _ _ _ _ _ _ _ _ _ _ _ _ _ _ _ _ _ b l h3).trans ?_
    obtain rfl : b = ⟨3, by decide⟩ := Fin.ext h3
    rw [rowUpd_apply, Ghmc.Rows.ld_row xs0 3 (by decide)]
    unfold incC
    rw [if_pos (by decide)]
  by_cases h4 : b.val = 4
  · refine (Ghmc.Rows.read_row4 arg7.view (harg7.unread xs0) _ _ _ _ _ _ _ _ _ _ _ _ _ _ _ _ _ _ _ _ b l h4).trans ?_
    obtain rfl : b = ⟨4, by decide⟩ := Fin.ext h4
    rw [rowUpd_apply, Ghmc.Rows.ld_row xs0 4 (by decide)]
    unfold incC
    rw [if_pos (by decide)]
  by_cases h5 : b.val = 5
  · refine (Ghmc.Rows.read_row5 arg7.view (harg7.unread xs0) _ _ _ _ _ _ _ _ _ _ _ _ _ _ _ _ _ _ _ _ b l h5).trans ?_
    obtain rfl : b = ⟨5, by decide⟩ := Fin.ext h5
    rw [rowUpd_apply, Ghmc.Rows.ld_row xs0 5 (by decide)]
    unfold incC
    rw [if_pos (by decide)]
  by_cases h6 : b.val = 6
  · refine (Ghmc.Rows.read_row6 arg7.view (harg7.unread xs0) _ _ _ _ _ _ _ _ _ _ _ _ _ _ _ _ _ _ _ _ b l h6).trans ?_
    obtain rfl : b = ⟨6, by decide⟩ := Fin.ext h6
    rw [rowUpd_apply, Ghmc.Rows.ld_row xs0 6 (by decide)]
    unfold incC
    rw [if_pos (by decide)]
  by_cases h7 : b.val = 7
  · refine (Ghmc.Rows.read_row7 arg7.view (harg7.unread xs0) _ _ _ _ _ _ _ _ _ _ _ _ _ _ _ _ _ _ _ _ b l h7).trans ?_
    obtain rfl : b = ⟨7, by decide⟩ := Fin.ext h7
    rw [rowUpd_apply, Ghmc.Rows.ld_row xs0 7 (by decide)]
    unfold incC
    rw [if_pos (by decide)]
  by_cases h8 : b.val = 8
  · refine (Ghmc.Rows.read_row8 arg7.view (harg7.unread xs0) _ _ _ _ _ _ _ _ _ _ _ _ _ _ _ _ _ _ _ _ b l h8).trans ?_
    obtain rfl : b = ⟨8, by decide⟩ := Fin.ext h8
    rw [rowUpd_apply, Ghmc.Rows.ld_row xs0 8 (by decide)]
    unfold incC
    rw [if_pos (by decide)]
  by_cases h9 : b.val = 9
  · refine (Ghmc.Rows.read_row9 arg7.view (harg7.unread xs0) _ _ _ _ _ _ _ _ _ _ _ _ _ _ _ _ _ _ _ _ b l h9).trans ?_
    obtain rfl : b = ⟨9, by decide⟩ := Fin.ext h9
    rw [rowUpd_apply, Ghmc.Rows.ld_row xs0 9 (by decide)]
    unfold incC
    rw [if_pos (by decide)]
  refine (Ghmc.Rows.read_rowHigh arg7.view (harg7.unread xs0) _ _ _ _ _ _ _ _ _ _ _ _ _ _ _ _ _ _ _ _ b l (by omega)).trans ?_
  rw [congrFun (harg7.read_unread xs0) (ix2 b l)]
  unfold incC
  rw [if_neg (by omega), add_zero]

/-- The cross-entropy output block the last point stores. -/
theorem out_C_4 (b : Fin 16) (l : Fin 128) :
    out0_C_4 (F := Ideal) c i arg2 harg2 arg3 harg3 arg4 harg4 arg5 harg5 arg6 harg6 arg7 harg7 arg8 harg8 hc0 hc1 x0 x1 x2 xs0 xs1 (ix3 0 b l) = xs1 (ix2 b l) + incB x0 x1 x2 b l := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hzC3, pay4_apply]
  simp only [View.readAt_eq_ld, harg2.read_unread, harg3.read_unread, harg4.read_unread, harg8.read_unread, View.ld_unit_zero (S := S4096x128) hzC2, View.ld_unit_zero (S := S16x128) hzC2]
  simp only [bce_row0, bce_row1, bce_row2, bce_row3, bce_row4, bce_row5, bce_row6, bce_row7, bce_row8, bce_row9]
  by_cases h0 : b.val = 0
  · refine (Ghmc.Rows.read_row0 arg8.view (harg8.unread xs1) _ _ _ _ _ _ _ _ _ _ _ _ _ _ _ _ _ _ _ _ b l h0).trans ?_
    obtain rfl : b = ⟨0, by decide⟩ := Fin.ext h0
    rw [rowUpd_apply, Ghmc.Rows.ld_row xs1 0 (by decide)]
    unfold incB
    rw [if_pos (by decide)]
  by_cases h1 : b.val = 1
  · refine (Ghmc.Rows.read_row1 arg8.view (harg8.unread xs1) _ _ _ _ _ _ _ _ _ _ _ _ _ _ _ _ _ _ _ _ b l h1).trans ?_
    obtain rfl : b = ⟨1, by decide⟩ := Fin.ext h1
    rw [rowUpd_apply, Ghmc.Rows.ld_row xs1 1 (by decide)]
    unfold incB
    rw [if_pos (by decide)]
  by_cases h2 : b.val = 2
  · refine (Ghmc.Rows.read_row2 arg8.view (harg8.unread xs1) _ _ _ _ _ _ _ _ _ _ _ _ _ _ _ _ _ _ _ _ b l h2).trans ?_
    obtain rfl : b = ⟨2, by decide⟩ := Fin.ext h2
    rw [rowUpd_apply, Ghmc.Rows.ld_row xs1 2 (by decide)]
    unfold incB
    rw [if_pos (by decide)]
  by_cases h3 : b.val = 3
  · refine (Ghmc.Rows.read_row3 arg8.view (harg8.unread xs1) _ _ _ _ _ _ _ _ _ _ _ _ _ _ _ _ _ _ _ _ b l h3).trans ?_
    obtain rfl : b = ⟨3, by decide⟩ := Fin.ext h3
    rw [rowUpd_apply, Ghmc.Rows.ld_row xs1 3 (by decide)]
    unfold incB
    rw [if_pos (by decide)]
  by_cases h4 : b.val = 4
  · refine (Ghmc.Rows.read_row4 arg8.view (harg8.unread xs1) _ _ _ _ _ _ _ _ _ _ _ _ _ _ _ _ _ _ _ _ b l h4).trans ?_
    obtain rfl : b = ⟨4, by decide⟩ := Fin.ext h4
    rw [rowUpd_apply, Ghmc.Rows.ld_row xs1 4 (by decide)]
    unfold incB
    rw [if_pos (by decide)]
  by_cases h5 : b.val = 5
  · refine (Ghmc.Rows.read_row5 arg8.view (harg8.unread xs1) _ _ _ _ _ _ _ _ _ _ _ _ _ _ _ _ _ _ _ _ b l h5).trans ?_
    obtain rfl : b = ⟨5, by decide⟩ := Fin.ext h5
    rw [rowUpd_apply, Ghmc.Rows.ld_row xs1 5 (by decide)]
    unfold incB
    rw [if_pos (by decide)]
  by_cases h6 : b.val = 6
  · refine (Ghmc.Rows.read_row6 arg8.view (harg8.unread xs1) _ _ _ _ _ _ _ _ _ _ _ _ _ _ _ _ _ _ _ _ b l h6).trans ?_
    obtain rfl : b = ⟨6, by decide⟩ := Fin.ext h6
    rw [rowUpd_apply, Ghmc.Rows.ld_row xs1 6 (by decide)]
    unfold incB
    rw [if_pos (by decide)]
  by_cases h7 : b.val = 7
  · refine (Ghmc.Rows.read_row7 arg8.view (harg8.unread xs1) _ _ _ _ _ _ _ _ _ _ _ _ _ _ _ _ _ _ _ _ b l h7).trans ?_
    obtain rfl : b = ⟨7, by decide⟩ := Fin.ext h7
    rw [rowUpd_apply, Ghmc.Rows.ld_row xs1 7 (by decide)]
    unfold incB
    rw [if_pos (by decide)]
  by_cases h8 : b.val = 8
  · refine (Ghmc.Rows.read_row8 arg8.view (harg8.unread xs1) _ _ _ _ _ _ _ _ _ _ _ _ _ _ _ _ _ _ _ _ b l h8).trans ?_
    obtain rfl : b = ⟨8, by decide⟩ := Fin.ext h8
    rw [rowUpd_apply, Ghmc.Rows.ld_row xs1 8 (by decide)]
    unfold incB
    rw [if_pos (by decide)]
  by_cases h9 : b.val = 9
  · refine (Ghmc.Rows.read_row9 arg8.view (harg8.unread xs1) _ _ _ _ _ _ _ _ _ _ _ _ _ _ _ _ _ _ _ _ b l h9).trans ?_
    obtain rfl : b = ⟨9, by decide⟩ := Fin.ext h9
    rw [rowUpd_apply, Ghmc.Rows.ld_row xs1 9 (by decide)]
    unfold incB
    rw [if_pos (by decide)]
  refine (Ghmc.Rows.read_rowHigh arg8.view (harg8.unread xs1) _ _ _ _ _ _ _ _ _ _ _ _ _ _ _ _ _ _ _ _ b l (by omega)).trans ?_
  rw [congrFun (harg8.read_unread xs1) (ix2 b l)]
  unfold incB
  rw [if_neg (by omega), add_zero]

end Cert.KernelIdeal.Acc

end
-- ==== Proof.KCaseA.lean ====
/-
  Case A of the kernel body (the first grid point of a core): the body first stores a whole block of zeros into each
  of the two accumulators, then for each bin k = 0..9 loads row k, adds the block's column sums of (indicator of
  bin k) times (the element's value), and stores row k back. Read at an index (b, l) afterwards: zero plus what the
  block adds there (Acc.incC / Acc.incB) — rows 10..15 stay zero.

  The stores are laid over one another newest first; the contents they leave are read one store at a time: a store
  of row k decides the entries (k, l) and leaves every other entry to the earlier stores, and the row it loaded
  before storing is what the earlier stores had left in row k, namely the zeros of the first store.
-/
import proofs.«100415_j21895743275016_2_alg».proof.Proof.Gen.KernelIdeal.Frame
import proofs.«100415_j21895743275016_2_alg».proof.Proof.KInc
import Idealize.ShloMosaic.Lib.Pipeline.Value
import Idealize.ShloMosaic.Lib.Pipeline.FrameBody
import Idealize.ShloMosaic.PureOps.Ideal.Laws
import Idealize.ShloMosaic.Lib.Tactic

noncomputable section

namespace Cert.KernelIdeal.Acc

open Idealize.ShloMosaic Idealize.ShloMosaic.ValueIdx Idealize.ShloMosaic.TcCoe Idealize.ShloMosaic.Tactic Idealize.SL.Sem
open Cert.KernelIdeal Cert.KernelIdeal.Gen

theorem hzA : (![0, 0] : Fin 2 → Nat) = fun _ => 0 := funext fun a => by fin_cases a <;> rfl

namespace CaseA

/-! ### One row store over earlier stores -/

section Rows
variable {Val : EltTy → Type} [∀ e, Nonempty (Val e)] {e : EltTy}

/-- Entry (0, l) of the row-k rectangle of a [16,128] buffer is the buffer's entry (k, l). -/
theorem row_emb (k : ℕ) (hk : k < 16)
    (inb : ∀ a : Fin 2, (![k, 0] : Fin 2 → ℕ) a + (![1, 128] : Fin 2 → ℕ) a ≤ (![16, 128] : Fin 2 → ℕ) a) (l : Fin 128) :
    (Rect.unit (s := (⟨2, ![16, 128]⟩ : Shape)) ![k, 0] ![1, 128] inb).emb (ix2 0 l) = ix2 ⟨k, hk⟩ l := by
  funext a
  apply Fin.ext
  match a with
  | ⟨0, _⟩ => show k + 1 * 0 = k; omega
  | ⟨1, _⟩ => show 0 + 1 * l.val = l.val; omega

/-- A store of row k over earlier stores, read at (b, l): its payload at lane l where b = k, else what the earlier
    stores left. -/
theorem canon_row_cons (k : ℕ) (hk : k < 16)
    (inb : ∀ a : Fin 2, (![k, 0] : Fin 2 → ℕ) a + (![1, 128] : Fin 2 → ℕ) a ≤ (![16, 128] : Fin 2 → ℕ) a)
    (w : (Rect.unit (s := (⟨2, ![16, 128]⟩ : Shape)) ![k, 0] ![1, 128] inb).shape.Idx → Val e)
    (L : List (View.Piece Val (⟨2, ![16, 128]⟩ : Shape) e)) (b : Fin 16) (l : Fin 128) :
    View.canon ((⟨Rect.unit (s := (⟨2, ![16, 128]⟩ : Shape)) ![k, 0] ![1, 128] inb, w⟩ : View.Piece Val _ e) :: L) (ix2 b l)
      = if b.val = k then w (ix2 0 l) else View.canon L (ix2 b l) := by
  by_cases h : b.val = k
  · obtain rfl : b = ⟨k, hk⟩ := Fin.ext h
    rw [if_pos rfl, ← row_emb k hk inb l]
    exact View.canon_cons_emb _ w L (ix2 0 l)
  · rw [if_neg h]
    refine View.canon_cons_of_not_mem _ L fun hm => h ?_
    have hm' : ix2 b l ∈ (Rect.unit (s := (⟨2, ![16, 128]⟩ : Shape)) ![k, 0] ![1, 128] inb).set := hm
    have h1 : k ≤ b.val ∧ b.val < k + 1 := (Rect.mem_set_unit.mp hm') 0
    omega

/-- The load of row k of what a list of stores left, read at lane l, is what they left at (k, l). -/
theorem readCov_row {sig : RefSig} {κ : Kind} {sp : Space} (v : View sig κ sp (⟨2, ![16, 128]⟩ : Shape) e)
    (L : List (View.Piece Val (⟨2, ![16, 128]⟩ : Shape) e)) (k : ℕ) (hk : k < 16)
    (inb : ∀ a : Fin 2, (![k, 0] : Fin 2 → ℕ) a + (![1, 128] : Fin 2 → ℕ) a ≤ (![16, 128] : Fin 2 → ℕ) a) (l : Fin 128) :
    v.readCov L (Rect.unit (s := (⟨2, ![16, 128]⟩ : Shape)) ![k, 0] ![1, 128] inb).toLoadRect (ix2 0 l)
      = View.canon L (ix2 ⟨k, hk⟩ l) := by
  rw [View.readCov_eq_canon']
  exact congrArg (View.canon L) (row_emb k hk inb l)

end Rows

/-- One step of the accumulation: over stores that left G in rows below k and zero elsewhere, the store of row k
    whose payload is the loaded row plus the column sums (which are G's row k) leaves G in rows below k + 1 and
    zero elsewhere. -/
theorem canon_step (k : ℕ) (hk : k < 16)
    (inb : ∀ a : Fin 2, (![k, 0] : Fin 2 → ℕ) a + (![1, 128] : Fin 2 → ℕ) a ≤ (![16, 128] : Fin 2 → ℕ) a)
    (L : List (View.Piece (Elt Ideal) (⟨2, ![16, 128]⟩ : Shape) .f32))
    (w : (Rect.unit (s := (⟨2, ![16, 128]⟩ : Shape)) ![k, 0] ![1, 128] inb).shape.Idx → Elt Ideal .f32)
    (v : Vec Ideal S1x128 .f32) (X : FVec Ideal S4096x128 .f32) (bin : IVec S4096x128 32)
    (G : Fin 16 → Fin 128 → EReal)
    (hw : w = rowUpd (F := Ideal) (BitVec.ofNat 32 k) X bin v)
    (hv : ∀ l : Fin 128, v (ix2 0 l) = View.canon L (ix2 ⟨k, hk⟩ l))
    (hG : ∀ l : Fin 128, G ⟨k, hk⟩ l = colsum (BitVec.ofNat 32 k) X bin l)
    (hL : ∀ (b : Fin 16) (l : Fin 128), View.canon L (ix2 b l) = if b.val < k then G b l else 0)
    (b : Fin 16) (l : Fin 128) :
    View.canon ((⟨Rect.unit (s := (⟨2, ![16, 128]⟩ : Shape)) ![k, 0] ![1, 128] inb, w⟩ : View.Piece (Elt Ideal) _ .f32) :: L) (ix2 b l)
      = if b.val < k + 1 then G b l else 0 := by
  rw [canon_row_cons k hk inb w L b l]
  by_cases h : b.val = k
  · obtain rfl : b = ⟨k, hk⟩ := Fin.ext h
    rw [if_pos rfl, if_pos (Nat.lt_succ_self k), hw, rowUpd_apply, hv l, hL ⟨k, hk⟩ l, if_neg (Nat.lt_irrefl k), hG l]
    exact zero_add _
  · rw [if_neg h, hL b l]
    by_cases h2 : b.val < k
    · rw [if_pos h2, if_pos (by omega)]
    · rw [if_neg h2, if_neg (by omega)]

variable (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (hc0 : cond0_0 i) (hc1 : ¬cond0_1 i)
variable (x0 x1 x2 : Vec Ideal S4096x128 .f32)

/-! ### The loads of the three whole input buffers read the inputs -/

theorem r_eq : kernelRun0_A.sl.r (F := Ideal) c arg4 harg4 x2 = k0_pay7 x2 := by
  unfold kernelRun0_A.sl.r
  simp only [View.readAt_eq_ld, harg4.read_unread, View.ld_unit_zero (S := S4096x128) hzA]

theorem r1_eq : kernelRun0_A.sl.r_1 (F := Ideal) c arg2 harg2 arg3 harg3 x0 x1 = k0_pay8 x0 x1 := by
  unfold kernelRun0_A.sl.r_1
  simp only [View.readAt_eq_ld, harg2.read_unread, harg3.read_unread, View.ld_unit_zero (S := S4096x128) hzA]

theorem r2_eq : kernelRun0_A.sl.r_2 (F := Ideal) c arg2 harg2 arg3 harg3 arg4 harg4 x0 x1 x2 = k0_pay9 x0 x1 x2 := by
  unfold kernelRun0_A.sl.r_2
  simp only [View.readAt_eq_ld, harg2.read_unread, harg3.read_unread, harg4.read_unread, View.ld_unit_zero (S := S4096x128) hzA]

theorem r3_eq : kernelRun0_A.sl.r_3 (F := Ideal) c arg2 harg2 arg3 harg3 arg4 harg4 x0 x1 x2 = k0_pay11 x0 x1 x2 := by
  unfold kernelRun0_A.sl.r_3
  simp only [View.readAt_eq_ld, harg2.read_unread, harg3.read_unread, harg4.read_unread, View.ld_unit_zero (S := S4096x128) hzA]

theorem r4_eq : kernelRun0_A.sl.r_4 (F := Ideal) c arg2 harg2 arg3 harg3 arg4 harg4 x0 x1 x2 = k0_pay12 x0 x1 x2 := by
  unfold kernelRun0_A.sl.r_4
  simp only [View.readAt_eq_ld, harg2.read_unread, harg3.read_unread, harg4.read_unread, View.ld_unit_zero (S := S4096x128) hzA]

/-! ### The count accumulator: what the first j stores leave -/

/-- After the store of the zero block alone: zero everywhere. -/
theorem c0_1 (b : Fin 16) (l : Fin 128) :
    View.canon (kernelRun0_A.sl.HS0_1 (F := Ideal)) (ix2 b l) = if b.val < 0 then incC x0 x1 x2 b l else 0 := by
  unfold kernelRun0_A.sl.HS0_1
  rw [View.canon_unit_zero hzA, if_neg (Nat.not_lt_zero _)]
  exact Ideal.ofBits_zero_f32

/-- After the stores of rows 0..0 as well. -/
theorem c0_2 (b : Fin 16) (l : Fin 128) :
    View.canon (kernelRun0_A.sl.HS0_2 (F := Ideal) c arg2 harg2 arg3 harg3 arg4 harg4 arg7 x0 x1 x2) (ix2 b l) = if b.val < 1 then incC x0 x1 x2 b l else 0 := by
  unfold kernelRun0_A.sl.HS0_2
  exact canon_step 0 (by omega) _ _ _ (kernelRun0_A.sl.v39 (F := Ideal) c arg7) (k0_pay7 x2) (k0_pay8 x0 x1) (incC x0 x1 x2)
    (by rw [r3_eq]; rfl)
    (fun l => by unfold kernelRun0_A.sl.v39; exact readCov_row _ _ 0 (by omega) _ l)
    (fun l => by unfold incC; exact if_pos (by decide))
    (c0_1 x0 x1 x2) b l

/-- After the stores of rows 0..1 as well. -/
theorem c0_3 (b : Fin 16) (l : Fin 128) :
    View.canon (kernelRun0_A.sl.HS0_3 (F := Ideal) c arg2 harg2 arg3 harg3 arg4 harg4 arg7 x0 x1 x2) (ix2 b l) = if b.val < 2 then incC x0 x1 x2 b l else 0 := by
  unfold kernelRun0_A.sl.HS0_3
  exact canon_step 1 (by omega) _ _ _ (kernelRun0_A.sl.v59 (F := Ideal) c arg2 harg2 arg3 harg3 arg4 harg4 arg7 x0 x1 x2) (k0_pay7 x2) (k0_pay8 x0 x1) (incC x0 x1 x2)
    (by rw [r_eq, r1_eq]; rfl)
    (fun l => by unfold kernelRun0_A.sl.v59; exact readCov_row _ _ 1 (by omega) _ l)
    (fun l => by unfold incC; exact if_pos (by decide))
    (c0_2 c arg2 harg2 arg3 harg3 arg4 harg4 arg7 x0 x1 x2) b l

/-- After the stores of rows 0..2 as well. -/
theorem c0_4 (b : Fin 16) (l : Fin 128) :
    View.canon (kernelRun0_A.sl.HS0_4 (F := Ideal) c arg2 harg2 arg3 harg3 arg4 harg4 arg7 x0 x1 x2) (ix2 b l) = if b.val < 3 then incC x0 x1 x2 b l else 0 := by
  unfold kernelRun0_A.sl.HS0_4
  exact canon_step 2 (by omega) _ _ _ (kernelRun0_A.sl.v79 (F := Ideal) c arg2 harg2 arg3 harg3 arg4 harg4 arg7 x0 x1 x2) (k0_pay7 x2) (k0_pay8 x0 x1) (incC x0 x1 x2)
    (by unfold kernelRun0_A.sl.r_6; rw [r_eq, r1_eq]; rfl)
    (fun l => by unfold kernelRun0_A.sl.v79; exact readCov_row _ _ 2 (by omega) _ l)
    (fun l => by unfold incC; exact if_pos (by decide))
    (c0_3 c arg2 harg2 arg3 harg3 arg4 harg4 arg7 x0 x1 x2) b l

/-- After the stores of rows 0..3 as well. -/
theorem c0_5 (b : Fin 16) (l : Fin 128) :
    View.canon (kernelRun0_A.sl.HS0_5 (F := Ideal) c arg2 harg2 arg3 harg3 arg4 harg4 arg7 x0 x1 x2) (ix2 b l) = if b.val < 4 then incC x0 x1 x2 b l else 0 := by
  unfold kernelRun0_A.sl.HS0_5
  exact canon_step 3 (by omega) _ _ _ (kernelRun0_A.sl.v99 (F := Ideal) c arg2 harg2 arg3 harg3 arg4 harg4 arg7 x0 x1 x2) (k0_pay7 x2) (k0_pay8 x0 x1) (incC x0 x1 x2)
    (by rw [r_eq, r1_eq]; rfl)
    (fun l => by unfold kernelRun0_A.sl.v99; exact readCov_row _ _ 3 (by omega) _ l)
    (fun l => by unfold incC; exact if_pos (by decide))
    (c0_4 c arg2 harg2 arg3 harg3 arg4 harg4 arg7 x0 x1 x2) b l

/-- After the stores of rows 0..4 as well. -/
theorem c0_6 (b : Fin 16) (l : Fin 128) :
    View.canon (kernelRun0_A.sl.HS0_6 (F := Ideal) c arg2 harg2 arg3 harg3 arg4 harg4 arg7 x0 x1 x2) (ix2 b l) = if b.val < 5 then incC x0 x1 x2 b l else 0 := by
  unfold kernelRun0_A.sl.HS0_6
  exact canon_step 4 (by omega) _ _ _ (kernelRun0_A.sl.v119 (F := Ideal) c arg2 harg2 arg3 harg3 arg4 harg4 arg7 x0 x1 x2) (k0_pay7 x2) (k0_pay8 x0 x1) (incC x0 x1 x2)
    (by unfold kernelRun0_A.sl.r_7; rw [r_eq, r1_eq]; rfl)
    (fun l => by unfold kernelRun0_A.sl.v119; exact readCov_row _ _ 4 (by omega) _ l)
    (fun l => by unfold incC; exact if_pos (by decide))
    (c0_5 c arg2 harg2 arg3 harg3 arg4 harg4 arg7 x0 x1 x2) b l

/-- After the stores of rows 0..5 as well. -/
theorem c0_7 (b : Fin 16) (l : Fin 128) :
    View.canon (kernelRun0_A.sl.HS0_7 (F := Ideal) c arg2 harg2 arg3 harg3 arg4 harg4 arg7 x0 x1 x2) (ix2 b l) = if b.val < 6 then incC x0 x1 x2 b l else 0 := by
  unfold kernelRun0_A.sl.HS0_7
  exact canon_step 5 (by omega) _ _ _ (kernelRun0_A.sl.v139 (F := Ideal) c arg2 harg2 arg3 harg3 arg4 harg4 arg7 x0 x1 x2) (k0_pay7 x2) (k0_pay8 x0 x1) (incC x0 x1 x2)
    (by rw [r_eq, r1_eq]; rfl)
    (fun l => by unfold kernelRun0_A.sl.v139; exact readCov_row _ _ 5 (by omega) _ l)
    (fun l => by unfold incC; exact if_pos (by decide))
    (c0_6 c arg2 harg2 arg3 harg3 arg4 harg4 arg7 x0 x1 x2) b l

/-- After the stores of rows 0..6 as well. -/
theorem c0_8 (b : Fin 16) (l : Fin 128) :
    View.canon (kernelRun0_A.sl.HS0_8 (F := Ideal) c arg2 harg2 arg3 harg3 arg4 harg4 arg7 x0 x1 x2) (ix2 b l) = if b.val < 7 then incC x0 x1 x2 b l else 0 := by
  unfold kernelRun0_A.sl.HS0_8
  exact canon_step 6 (by omega) _ _ _ (kernelRun0_A.sl.v159 (F := Ideal) c arg2 harg2 arg3 harg3 arg4 harg4 arg7 x0 x1 x2) (k0_pay7 x2) (k0_pay8 x0 x1) (incC x0 x1 x2)
    (by rw [r_eq, r1_eq]; rfl)
    (fun l => by unfold kernelRun0_A.sl.v159; exact readCov_row _ _ 6 (by omega) _ l)
    (fun l => by unfold incC; exact if_pos (by decide))
    (c0_7 c arg2 harg2 arg3 harg3 arg4 harg4 arg7 x0 x1 x2) b l

/-- After the stores of rows 0..7 as well. -/
theorem c0_9 (b : Fin 16) (l : Fin 128) :
    View.canon (kernelRun0_A.sl.HS0_9 (F := Ideal) c arg2 harg2 arg3 harg3 arg4 harg4 arg7 x0 x1 x2) (ix2 b l) = if b.val < 8 then incC x0 x1 x2 b l else 0 := by
  unfold kernelRun0_A.sl.HS0_9
  exact canon_step 7 (by omega) _ _ _ (kernelRun0_A.sl.v179 (F := Ideal) c arg2 harg2 arg3 harg3 arg4 harg4 arg7 x0 x1 x2) (k0_pay7 x2) (k0_pay8 x0 x1) (incC x0 x1 x2)
    (by rw [r_eq, r1_eq]; rfl)
    (fun l => by unfold kernelRun0_A.sl.v179; exact readCov_row _ _ 7 (by omega) _ l)
    (fun l => by unfold incC; exact if_pos (by decide))
    (c0_8 c arg2 harg2 arg3 harg3 arg4 harg4 arg7 x0 x1 x2) b l

/-- After the stores of rows 0..8 as well. -/
theorem c0_10 (b : Fin 16) (l : Fin 128) :
    View.canon (kernelRun0_A.sl.HS0_10 (F := Ideal) c arg2 harg2 arg3 harg3 arg4 harg4 arg7 x0 x1 x2) (ix2 b l) = if b.val < 9 then incC x0 x1 x2 b l else 0 := by
  unfold kernelRun0_A.sl.HS0_10
  exact canon_step 8 (by omega) _ _ _ (kernelRun0_A.sl.v199 (F := Ideal) c arg2 harg2 arg3 harg3 arg4 harg4 arg7 x0 x1 x2) (k0_pay7 x2) (k0_pay8 x0 x1) (incC x0 x1 x2)
    (by rw [r_eq, r1_eq]; rfl)
    (fun l => by unfold kernelRun0_A.sl.v199; exact readCov_row _ _ 8 (by omega) _ l)
    (fun l => by unfold incC; exact if_pos (by decide))
    (c0_9 c arg2 harg2 arg3 harg3 arg4 harg4 arg7 x0 x1 x2) b l

/-! ### The cross-entropy accumulator: what the first j stores leave -/

/-- After the store of the zero block alone: zero everywhere. -/
theorem c1_1 (b : Fin 16) (l : Fin 128) :
    View.canon (kernelRun0_A.sl.HS1_1 (F := Ideal)) (ix2 b l) = if b.val < 0 then incB x0 x1 x2 b l else 0 := by
  unfold kernelRun0_A.sl.HS1_1
  rw [View.canon_unit_zero hzA, if_neg (Nat.not_lt_zero _)]
  exact Ideal.ofBits_zero_f32

/-- After the stores of rows 0..0 as well. -/
theorem c1_2 (b : Fin 16) (l : Fin 128) :
    View.canon (kernelRun0_A.sl.HS1_2 (F := Ideal) c arg2 harg2 arg3 harg3 arg4 harg4 arg8 x0 x1 x2) (ix2 b l) = if b.val < 1 then incB x0 x1 x2 b l else 0 := by
  unfold kernelRun0_A.sl.HS1_2
  exact canon_step 0 (by omega) _ _ _ (kernelRun0_A.sl.v44 (F := Ideal) c arg8) (k0_pay9 x0 x1 x2) (k0_pay8 x0 x1) (incB x0 x1 x2)
    (by rw [r4_eq]; rfl)
    (fun l => by unfold kernelRun0_A.sl.v44; exact readCov_row _ _ 0 (by omega) _ l)
    (fun l => by unfold incB; exact if_pos (by decide))
    (c1_1 x0 x1 x2) b l

/-- After the stores of rows 0..1 as well. -/
theorem c1_3 (b : Fin 16) (l : Fin 128) :
    View.canon (kernelRun0_A.sl.HS1_3 (F := Ideal) c arg2 harg2 arg3 harg3 arg4 harg4 arg8 x0 x1 x2) (ix2 b l) = if b.val < 2 then incB x0 x1 x2 b l else 0 := by
  unfold kernelRun0_A.sl.HS1_3
  exact canon_step 1 (by omega) _ _ _ (kernelRun0_A.sl.v64 (F := Ideal) c arg2 harg2 arg3 harg3 arg4 harg4 arg8 x0 x1 x2) (k0_pay9 x0 x1 x2) (k0_pay8 x0 x1) (incB x0 x1 x2)
    (by rw [r1_eq, r2_eq]; rfl)
    (fun l => by unfold kernelRun0_A.sl.v64; exact readCov_row _ _ 1 (by omega) _ l)
    (fun l => by unfold incB; exact if_pos (by decide))
    (c1_2 c arg2 harg2 arg3 harg3 arg4 harg4 arg8 x0 x1 x2) b l

/-- After the stores of rows 0..2 as well. -/
theorem c1_4 (b : Fin 16) (l : Fin 128) :
    View.canon (kernelRun0_A.sl.HS1_4 (F := Ideal) c arg2 harg2 arg3 harg3 arg4 harg4 arg8 x0 x1 x2) (ix2 b l) = if b.val < 3 then incB x0 x1 x2 b l else 0 := by
  unfold kernelRun0_A.sl.HS1_4
  exact canon_step 2 (by omega) _ _ _ (kernelRun0_A.sl.v84 (F := Ideal) c arg2 harg2 arg3 harg3 arg4 harg4 arg8 x0 x1 x2) (k0_pay9 x0 x1 x2) (k0_pay8 x0 x1) (incB x0 x1 x2)
    (by unfold kernelRun0_A.sl.r_5; rw [r1_eq, r2_eq]; rfl)
    (fun l => by unfold kernelRun0_A.sl.v84; exact readCov_row _ _ 2 (by omega) _ l)
    (fun l => by unfold incB; exact if_pos (by decide))
    (c1_3 c arg2 harg2 arg3 harg3 arg4 harg4 arg8 x0 x1 x2) b l

/-- After the stores of rows 0..3 as well. -/
theorem c1_5 (b : Fin 16) (l : Fin 128) :
    View.canon (kernelRun0_A.sl.HS1_5 (F := Ideal) c arg2 harg2 arg3 harg3 arg4 harg4 arg8 x0 x1 x2) (ix2 b l) = if b.val < 4 then incB x0 x1 x2 b l else 0 := by
  unfold kernelRun0_A.sl.HS1_5
  exact canon_step 3 (by omega) _ _ _ (kernelRun0_A.sl.v104 (F := Ideal) c arg2 harg2 arg3 harg3 arg4 harg4 arg8 x0 x1 x2) (k0_pay9 x0 x1 x2) (k0_pay8 x0 x1) (incB x0 x1 x2)
    (by rw [r1_eq, r2_eq]; rfl)
    (fun l => by unfold kernelRun0_A.sl.v104; exact readCov_row _ _ 3 (by omega) _ l)
    (fun l => by unfold incB; exact if_pos (by decide))
    (c1_4 c arg2 harg2 arg3 harg3 arg4 harg4 arg8 x0 x1 x2) b l

/-- After the stores of rows 0..4 as well. -/
theorem c1_6 (b : Fin 16) (l : Fin 128) :
    View.canon (kernelRun0_A.sl.HS1_6 (F := Ideal) c arg2 harg2 arg3 harg3 arg4 harg4 arg8 x0 x1 x2) (ix2 b l) = if b.val < 5 then incB x0 x1 x2 b l else 0 := by
  unfold kernelRun0_A.sl.HS1_6
  exact canon_step 4 (by omega) _ _ _ (kernelRun0_A.sl.v124 (F := Ideal) c arg2 harg2 arg3 harg3 arg4 harg4 arg8 x0 x1 x2) (k0_pay9 x0 x1 x2) (k0_pay8 x0 x1) (incB x0 x1 x2)
    (by unfold kernelRun0_A.sl.r_7; rw [r1_eq, r2_eq]; rfl)
    (fun l => by unfold kernelRun0_A.sl.v124; exact readCov_row _ _ 4 (by omega) _ l)
    (fun l => by unfold incB; exact if_pos (by decide))
    (c1_5 c arg2 harg2 arg3 harg3 arg4 harg4 arg8 x0 x1 x2) b l

/-- After the stores of rows 0..5 as well. -/
theorem c1_7 (b : Fin 16) (l : Fin 128) :
    View.canon (kernelRun0_A.sl.HS1_7 (F := Ideal) c arg2 harg2 arg3 harg3 arg4 harg4 arg8 x0 x1 x2) (ix2 b l) = if b.val < 6 then incB x0 x1 x2 b l else 0 := by
  unfold kernelRun0_A.sl.HS1_7
  exact canon_step 5 (by omega) _ _ _ (kernelRun0_A.sl.v144 (F := Ideal) c arg2 harg2 arg3 harg3 arg4 harg4 arg8 x0 x1 x2) (k0_pay9 x0 x1 x2) (k0_pay8 x0 x1) (incB x0 x1 x2)
    (by unfold kernelRun0_A.sl.r_8; rw [r1_eq, r2_eq]; rfl)
    (fun l => by unfold kernelRun0_A.sl.v144; exact readCov_row _ _ 5 (by omega) _ l)
    (fun l => by unfold incB; exact if_pos (by decide))
    (c1_6 c arg2 harg2 arg3 harg3 arg4 harg4 arg8 x0 x1 x2) b l

/-- After the stores of rows 0..6 as well. -/
theorem c1_8 (b : Fin 16) (l : Fin 128) :
    View.canon (kernelRun0_A.sl.HS1_8 (F := Ideal) c arg2 harg2 arg3 harg3 arg4 harg4 arg8 x0 x1 x2) (ix2 b l) = if b.val < 7 then incB x0 x1 x2 b l else 0 := by
  unfold kernelRun0_A.sl.HS1_8
  exact canon_step 6 (by omega) _ _ _ (kernelRun0_A.sl.v164 (F := Ideal) c arg2 harg2 arg3 harg3 arg4 harg4 arg8 x0 x1 x2) (k0_pay9 x0 x1 x2) (k0_pay8 x0 x1) (incB x0 x1 x2)
    (by rw [r1_eq, r2_eq]; rfl)
    (fun l => by unfold kernelRun0_A.sl.v164; exact readCov_row _ _ 6 (by omega) _ l)
    (fun l => by unfold incB; exact if_pos (by decide))
    (c1_7 c arg2 harg2 arg3 harg3 arg4 harg4 arg8 x0 x1 x2) b l

/-- After the stores of rows 0..7 as well. -/
theorem c1_9 (b : Fin 16) (l : Fin 128) :
    View.canon (kernelRun0_A.sl.HS1_9 (F := Ideal) c arg2 harg2 arg3 harg3 arg4 harg4 arg8 x0 x1 x2) (ix2 b l) = if b.val < 8 then incB x0 x1 x2 b l else 0 := by
  unfold kernelRun0_A.sl.HS1_9
  exact canon_step 7 (by omega) _ _ _ (kernelRun0_A.sl.v184 (F := Ideal) c arg2 harg2 arg3 harg3 arg4 harg4 arg8 x0 x1 x2) (k0_pay9 x0 x1 x2) (k0_pay8 x0 x1) (incB x0 x1 x2)
    (by unfold kernelRun0_A.sl.r_9; rw [r1_eq, r2_eq]; rfl)
    (fun l => by unfold kernelRun0_A.sl.v184; exact readCov_row _ _ 7 (by omega) _ l)
    (fun l => by unfold incB; exact if_pos (by decide))
    (c1_8 c arg2 harg2 arg3 harg3 arg4 harg4 arg8 x0 x1 x2) b l

/-- After the stores of rows 0..8 as well. -/
theorem c1_10 (b : Fin 16) (l : Fin 128) :
    View.canon (kernelRun0_A.sl.HS1_10 (F := Ideal) c arg2 harg2 arg3 harg3 arg4 harg4 arg8 x0 x1 x2) (ix2 b l) = if b.val < 9 then incB x0 x1 x2 b l else 0 := by
  unfold kernelRun0_A.sl.HS1_10
  exact canon_step 8 (by omega) _ _ _ (kernelRun0_A.sl.v204 (F := Ideal) c arg2 harg2 arg3 harg3 arg4 harg4 arg8 x0 x1 x2) (k0_pay9 x0 x1 x2) (k0_pay8 x0 x1) (incB x0 x1 x2)
    (by rw [r1_eq, r2_eq]; rfl)
    (fun l => by unfold kernelRun0_A.sl.v204; exact readCov_row _ _ 8 (by omega) _ l)
    (fun l => by unfold incB; exact if_pos (by decide))
    (c1_9 c arg2 harg2 arg3 harg3 arg4 harg4 arg8 x0 x1 x2) b l

end CaseA

open CaseA

variable (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (hc0 : cond0_0 i) (hc1 : ¬cond0_1 i)
variable (x0 x1 x2 : Vec Ideal S4096x128 .f32)

/-- The count accumulator after a case-A point. -/
theorem sout_A_0 (b : Fin 16) (l : Fin 128) :
    sout0_A_0 (F := Ideal) c i arg2 harg2 arg3 harg3 arg4 harg4 arg5 harg5 arg6 harg6 arg7 harg7 arg8 harg8 hc0 hc1 x0 x1 x2 (ix2 b l) = 0 + incC x0 x1 x2 b l := by
  unfold sout0_A_0 kernelRun0_A
  dsimp only
  rw [View.read_writes_junk_apply_eq_canon]
  refine (canon_step 9 (by omega) _ _ _ (kernelRun0_A.sl.v219 (F := Ideal) c arg2 harg2 arg3 harg3 arg4 harg4 arg7 x0 x1 x2) (k0_pay7 x2) (k0_pay8 x0 x1) (incC x0 x1 x2)
    (by unfold kernelRun0_A.sl.r_11; rw [r_eq, r1_eq]; rfl)
    (fun l => by unfold kernelRun0_A.sl.v219; exact readCov_row _ _ 9 (by omega) _ l)
    (fun l => by unfold incC; exact if_pos (by decide))
    (c0_10 c arg2 harg2 arg3 harg3 arg4 harg4 arg7 x0 x1 x2) b l).trans ?_
  show (if b.val < 10 then incC x0 x1 x2 b l else 0) = _
  rw [zero_add]
  unfold incC
  split_ifs <;> rfl

/-- The cross-entropy accumulator after a case-A point. -/
theorem sout_A_1 (b : Fin 16) (l : Fin 128) :
    sout0_A_1 (F := Ideal) c i arg2 harg2 arg3 harg3 arg4 harg4 arg5 harg5 arg6 harg6 arg7 harg7 arg8 harg8 hc0 hc1 x0 x1 x2 (ix2 b l) = 0 + incB x0 x1 x2 b l := by
  unfold sout0_A_1 kernelRun0_A
  dsimp only
  rw [View.read_writes_junk_apply_eq_canon]
  refine (canon_step 9 (by omega) _ _ _ (kernelRun0_A.sl.v224 (F := Ideal) c arg2 harg2 arg3 harg3 arg4 harg4 arg8 x0 x1 x2) (k0_pay9 x0 x1 x2) (k0_pay8 x0 x1) (incB x0 x1 x2)
    (by unfold kernelRun0_A.sl.r_10; rw [r1_eq, r2_eq]; rfl)
    (fun l => by unfold kernelRun0_A.sl.v224; exact readCov_row _ _ 9 (by omega) _ l)
    (fun l => by unfold incB; exact if_pos (by decide))
    (c1_10 c arg2 harg2 arg3 harg3 arg4 harg4 arg8 x0 x1 x2) b l).trans ?_
  show (if b.val < 10 then incB x0 x1 x2 b l else 0) = _
  rw [zero_add]
  unfold incB
  split_ifs <;> rfl

end Cert.KernelIdeal.Acc

end
-- ==== Proof.KAcc.lean ====
/-
  The two accumulators across the grid. Grid point p (0..63; core p / 32, step p % 32) adds incCAt p / incBAt p —
  the per-block increments of its three input blocks — to the accumulators; the first point of a core starts them from
  zero. So after point n each accumulator holds the sum of the increments of the points of n's core up to n: the points
  n - n % 32 + j, j ≤ n % 32. One step per case of the body, then induction on the point; at a core's last point the
  output blocks hold the same totals.
-/
import proofs.«100415_j21895743275016_2_alg».proof.Proof.KCaseB
import proofs.«100415_j21895743275016_2_alg».proof.Proof.KCaseC
import proofs.«100415_j21895743275016_2_alg».proof.Proof.KCaseA

noncomputable section

namespace Cert.KernelIdeal.Acc

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (c : Dev nD)

/-! ## One grid point, case by case -/

theorem stepA_cnt (t : Fin cfg0.N) (h0 : t.val % 32 = 0) (h1 : ¬t.val % 32 = 31) (b : Fin 16) (l : Fin 128) :
    (outsAt0 m c t.val t.isLt).2.2.1 (ix2 b l) = 0 + incC (iblk m c 0 t) (iblk m c 1 t) (iblk m c 2 t) b l := by
  rw [outsAt0_A m c t h0 h1]
  exact sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) b l

theorem stepA_bce (t : Fin cfg0.N) (h0 : t.val % 32 = 0) (h1 : ¬t.val % 32 = 31) (b : Fin 16) (l : Fin 128) :
    (outsAt0 m c t.val t.isLt).2.2.2 (ix2 b l) = 0 + incB (iblk m c 0 t) (iblk m c 1 t) (iblk m c 2 t) b l := by
  rw [outsAt0_A m c t h0 h1]
  exact sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) b l

theorem stepB_cnt (t : Fin cfg0.N) (h0 : ¬t.val % 32 = 0) (h1 : ¬t.val % 32 = 31) (b : Fin 16) (l : Fin 128) :
    (outsAt0 m c t.val t.isLt).2.2.1 (ix2 b l) = (outsAt0 m c (t.val - 1) (Nat.lt_of_le_of_lt (Nat.sub_le _ _) t.isLt)).2.2.1 (ix2 b l) + incC (iblk m c 0 t) (iblk m c 1 t) (iblk m c 2 t) b l := by
  rw [outsAt0_B m c t h0 h1]
  exact sout_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2 b l

theorem stepB_bce (t : Fin cfg0.N) (h0 : ¬t.val % 32 = 0) (h1 : ¬t.val % 32 = 31) (b : Fin 16) (l : Fin 128) :
    (outsAt0 m c t.val t.isLt).2.2.2 (ix2 b l) = (outsAt0 m c (t.val - 1) (Nat.lt_of_le_of_lt (Nat.sub_le _ _) t.isLt)).2.2.2 (ix2 b l) + incB (iblk m c 0 t) (iblk m c 1 t) (iblk m c 2 t) b l := by
  rw [outsAt0_B m c t h0 h1]
  exact sout_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2 b l

theorem stepC_cnt (t : Fin cfg0.N) (h0 : ¬t.val % 32 = 0) (h1 : t.val % 32 = 31) (b : Fin 16) (l : Fin 128) :
    (outsAt0 m c t.val t.isLt).2.2.1 (ix2 b l) = (outsAt0 m c (t.val - 1) (Nat.lt_of_le_of_lt (Nat.sub_le _ _) t.isLt)).2.2.1 (ix2 b l) + incC (iblk m c 0 t) (iblk m c 1 t) (iblk m c 2 t) b l := by
  rw [outsAt0_C m c t h0 h1]
  exact sout_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2 b l

theorem stepC_bce (t : Fin cfg0.N) (h0 : ¬t.val % 32 = 0) (h1 : t.val % 32 = 31) (b : Fin 16) (l : Fin 128) :
    (outsAt0 m c t.val t.isLt).2.2.2 (ix2 b l) = (outsAt0 m c (t.val - 1) (Nat.lt_of_le_of_lt (Nat.sub_le _ _) t.isLt)).2.2.2 (ix2 b l) + incB (iblk m c 0 t) (iblk m c 1 t) (iblk m c 2 t) b l := by
  rw [outsAt0_C m c t h0 h1]
  exact sout_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2 b l

theorem stepC_outCnt (t : Fin cfg0.N) (h0 : ¬t.val % 32 = 0) (h1 : t.val % 32 = 31) (b : Fin 16) (l : Fin 128) :
    (outsAt0 m c t.val t.isLt).1 (ix3 0 b l) = (outsAt0 m c (t.val - 1) (Nat.lt_of_le_of_lt (Nat.sub_le _ _) t.isLt)).2.2.1 (ix2 b l) + incC (iblk m c 0 t) (iblk m c 1 t) (iblk m c 2 t) b l := by
  rw [outsAt0_C m c t h0 h1]
  dsimp only
  exact out_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2 b l

theorem stepC_outBce (t : Fin cfg0.N) (h0 : ¬t.val % 32 = 0) (h1 : t.val % 32 = 31) (b : Fin 16) (l : Fin 128) :
    (outsAt0 m c t.val t.isLt).2.1 (ix3 0 b l) = (outsAt0 m c (t.val - 1) (Nat.lt_of_le_of_lt (Nat.sub_le _ _) t.isLt)).2.2.2 (ix2 b l) + incB (iblk m c 0 t) (iblk m c 1 t) (iblk m c 2 t) b l := by
  rw [outsAt0_C m c t h0 h1]
  dsimp only
  exact out_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2 b l

/-! ## The running totals -/

/-- What grid point p adds to the count accumulator at (b, l); nothing past the grid. -/
def incCAt (p : ℕ) (b : Fin 16) (l : Fin 128) : EReal :=
  if hp : p < cfg0.N then incC (iblk m c 0 ⟨p, hp⟩) (iblk m c 1 ⟨p, hp⟩) (iblk m c 2 ⟨p, hp⟩) b l else 0

/-- What grid point p adds to the cross-entropy accumulator at (b, l). -/
def incBAt (p : ℕ) (b : Fin 16) (l : Fin 128) : EReal :=
  if hp : p < cfg0.N then incB (iblk m c 0 ⟨p, hp⟩) (iblk m c 1 ⟨p, hp⟩) (iblk m c 2 ⟨p, hp⟩) b l else 0

/-- The total of f over the points of n's core up to n. -/
def since (f : ℕ → EReal) (n : ℕ) : EReal := ∑ j ∈ Finset.range (n % 32 + 1), f (n - n % 32 + j)

/-- At a core's first point the total is that point's term. -/
theorem since_reset (f : ℕ → EReal) (n : ℕ) (h : n % 32 = 0) : since f n = f n := by
  unfold since
  rw [h, Finset.sum_range_one]
  congr 1

/-- At any other point the total takes in that point's term. -/
theorem since_step (f : ℕ → EReal) (n : ℕ) (h : ¬(n + 1) % 32 = 0) : since f (n + 1) = since f n + f (n + 1) := by
  unfold since
  have e1 : (n + 1) % 32 = n % 32 + 1 := by omega
  have e2 : n + 1 - (n % 32 + 1) = n - n % 32 := by omega
  rw [e1, e2, Finset.sum_range_succ (fun j => f (n - n % 32 + j)) (n % 32 + 1)]
  congr 2
  omega

/-- After point n the carried accumulators hold the totals of the increments since the core's first point. -/
theorem outs_acc : ∀ (n : ℕ) (hn : n < cfg0.N),
    (∀ b l, (outsAt0 m c n hn).2.2.1 (ix2 b l) = since (fun p => incCAt m c p b l) n)
    ∧ (∀ b l, (outsAt0 m c n hn).2.2.2 (ix2 b l) = since (fun p => incBAt m c p b l) n)
  | 0, hn => by
    have h0 : (⟨0, hn⟩ : Fin cfg0.N).val % 32 = 0 := Nat.zero_mod 32
    have h1 : ¬(⟨0, hn⟩ : Fin cfg0.N).val % 32 = 31 := by show ¬(0 : ℕ) % 32 = 31; decide
    refine ⟨fun b l => ?_, fun b l => ?_⟩
    · refine (stepA_cnt m c ⟨0, hn⟩ h0 h1 b l).trans ?_
      rw [zero_add, since_reset _ 0 (Nat.zero_mod 32)]
      unfold incCAt
      rw [dif_pos hn]
    · refine (stepA_bce m c ⟨0, hn⟩ h0 h1 b l).trans ?_
      rw [zero_add, since_reset _ 0 (Nat.zero_mod 32)]
      unfold incBAt
      rw [dif_pos hn]
  | n + 1, hn => by
    obtain ⟨ihC, ihB⟩ := outs_acc n (Nat.lt_of_succ_lt hn)
    by_cases h0 : (n + 1) % 32 = 0
    · have h1 : ¬(n + 1) % 32 = 31 := by omega
      refine ⟨fun b l => ?_, fun b l => ?_⟩
      · refine (stepA_cnt m c ⟨n + 1, hn⟩ h0 h1 b l).trans ?_
        rw [zero_add, since_reset _ (n + 1) h0]
        unfold incCAt
        rw [dif_pos hn]
      · refine (stepA_bce m c ⟨n + 1, hn⟩ h0 h1 b l).trans ?_
        rw [zero_add, since_reset _ (n + 1) h0]
        unfold incBAt
        rw [dif_pos hn]
    · by_cases h1 : (n + 1) % 32 = 31
      · refine ⟨fun b l => ?_, fun b l => ?_⟩
        · refine (stepC_cnt m c ⟨n + 1, hn⟩ h0 h1 b l).trans ?_
          rw [since_step _ n h0]
          unfold incCAt
          rw [dif_pos hn]
          exact congrArg (· + _) (ihC b l)
        · refine (stepC_bce m c ⟨n + 1, hn⟩ h0 h1 b l).trans ?_
          rw [since_step _ n h0]
          unfold incBAt
          rw [dif_pos hn]
          exact congrArg (· + _) (ihB b l)
      · refine ⟨fun b l => ?_, fun b l => ?_⟩
        · refine (stepB_cnt m c ⟨n + 1, hn⟩ h0 h1 b l).trans ?_
          rw [since_step _ n h0]
          unfold incCAt
          rw [dif_pos hn]
          exact congrArg (· + _) (ihC b l)
        · refine (stepB_bce m c ⟨n + 1, hn⟩ h0 h1 b l).trans ?_
          rw [since_step _ n h0]
          unfold incBAt
          rw [dif_pos hn]
          exact congrArg (· + _) (ihB b l)

/-- At a core's last point the two output blocks hold the same totals. -/
theorem outs_out (t : Fin cfg0.N) (h31 : t.val % 32 = 31) (b : Fin 16) (l : Fin 128) :
    (outsAt0 m c t.val t.isLt).1 (ix3 0 b l) = since (fun p => incCAt m c p b l) t.val
    ∧ (outsAt0 m c t.val t.isLt).2.1 (ix3 0 b l) = since (fun p => incBAt m c p b l) t.val := by
  obtain ⟨n, hn⟩ := t
  cases n with
  | zero => exact absurd h31 (by show ¬(0 : ℕ) % 32 = 31; decide)
  | succ n =>
    have h0 : ¬(n + 1) % 32 = 0 := by dsimp only at h31; omega
    have h1 : (n + 1) % 32 = 31 := h31
    obtain ⟨ihC, ihB⟩ := outs_acc m c n (Nat.lt_of_succ_lt hn)
    refine ⟨?_, ?_⟩
    · refine (stepC_outCnt m c ⟨n + 1, hn⟩ h0 h1 b l).trans ?_
      show _ = since (fun p => incCAt m c p b l) (n + 1)
      rw [since_step _ n h0]
      unfold incCAt
      rw [dif_pos hn]
      exact congrArg (· + _) (ihC b l)
    · refine (stepC_outBce m c ⟨n + 1, hn⟩ h0 h1 b l).trans ?_
      show _ = since (fun p => incBAt m c p b l) (n + 1)
      rw [since_step _ n h0]
      unfold incBAt
      rw [dif_pos hn]
      exact congrArg (· + _) (ihB b l)

end Cert.KernelIdeal.Acc

end
-- ==== Proof.KFinal.lean ====
/-
  From blocks to arrays. Input window w's block at grid point t is rows [4096 t, 4096 t + 4096) of argument w, all 128
  lanes; the two output windows are written back only at a core's last point (t % 32 = 31), to block t / 32 of the
  [2,16,128] arrays. So after the run the count array holds at (k, b, l) the sum over core k's 32 points of what each
  adds to the count accumulator at (b, l), and likewise the cross-entropy array; the two blocks cover the arrays.
-/
import proofs.«100415_j21895743275016_2_alg».proof.Proof.KAcc
import Idealize.ShloMosaic.Lib.Pipeline.Value

noncomputable section

namespace Cert.KernelIdeal.Acc

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The printed index maps of the three input windows, decided over the grid: block row t, block column 0. -/
theorem idx_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The printed index maps of the two output windows: block t / 32 along the core axis, 0 on the others. -/
theorem idx_out : ∀ t : Fin cfg0.N,
    win0_3.index t (0 : Fin 3) = t.val / 32 ∧ win0_3.index t (1 : Fin 3) = 0 ∧ win0_3.index t (2 : Fin 3) = 0
    ∧ win0_4.index t (0 : Fin 3) = t.val / 32 ∧ win0_4.index t (1 : Fin 3) = 0 ∧ win0_4.index t (2 : Fin 3) = 0 :=
  (by decide +kernel : ∀ t : Fin grid0.N, _)

/-- Row r of grid point t's block, as a row of the whole arrays. -/
def rowOf (t : Fin cfg0.N) (r : Fin 4096) : Fin 262144 :=
  ⟨t.val * 4096 + r.val, by have := t.isLt; have hN : cfg0.N = 64 := N_0; have := r.isLt; omega⟩

/-- The count array after the run, at (k, b, l). -/
def cntArr (k : Fin 2) (b : Fin 16) (l : Fin 128) : EReal := ∑ j ∈ Finset.range 32, incCAt m c (k.val * 32 + j) b l

/-- The cross-entropy array after the run, at (k, b, l). -/
def bceArr (k : Fin 2) (b : Fin 16) (l : Fin 128) : EReal := ∑ j ∈ Finset.range 32, incBAt m c (k.val * 32 + j) b l

/-- At a core's last point the running total is the core's whole sum. -/
theorem since_last (f : ℕ → EReal) (n : ℕ) (h : n % 32 = 31) : since f n = ∑ j ∈ Finset.range 32, f (n / 32 * 32 + j) := by
  unfold since
  rw [h]
  have e : n - 31 = n / 32 * 32 := by omega
  rw [e]

/-- What a core's last point writes back into output window 3 is that core's block of the array function. -/
theorem flushed3_eq (t : Fin cfg0.N) (hf : (cfg0.win 3).flush t = true) :
    (dats m 0 c).flushed 3 t = ((cfg0.win 3).blk t).view.read (Elt Ideal) (fun y => cntArr m c (y 0) (y 1) (y 2)) := by
  have h31 := (flush0_3 t).mp hf
  have hN : cfg0.N = 64 := N_0
  have ht : t.val < 64 := lt_of_lt_of_eq t.isLt hN
  show (cfg0.win 3).cut (grid0.coords t) ((dats m 0 c).after 3 t) = _
  rw [after0_3]
  funext j
  obtain ⟨b, l, rfl⟩ : ∃ (b : Fin 16) (l : Fin 128), j = ix3 (0 : Fin 1) b l :=
    ⟨⟨(j 1).val, (j 1).isLt⟩, ⟨(j 2).val, (j 2).isLt⟩, by
      funext a
      match a with
      | ⟨0, _⟩ => exact Fin.ext (by show (j 0).val = 0; have h : (j 0).val < 1 := (j 0).isLt; omega)
      | ⟨1, _⟩ => rfl
      | ⟨2, _⟩ => rfl⟩
  have e0 : ((cfg0.win 3).blk t).view.emb (ix3 (0 : Fin 1) b l) = ix3 (⟨t.val / 32, by omega⟩ : Fin 2) b l := by
    obtain ⟨i0, i1, i2, i3, i4, i5⟩ := idx_out t
    funext a
    apply Fin.ext
    match a with
    | ⟨0, _⟩ => show win0_3.index t (0 : Fin 3) * 1 + 1 * 0 = t.val / 32; rw [i0]; omega
    | ⟨1, _⟩ => show win0_3.index t (1 : Fin 3) * 16 + 1 * b.val = b.val; rw [i1]; omega
    | ⟨2, _⟩ => show win0_3.index t (2 : Fin 3) * 128 + 1 * l.val = l.val; rw [i2]; omega
  show (outsAt0 m c t.val t.isLt).1 (ix3 0 b l)
    = cntArr m c ((((cfg0.win 3).blk t).view.emb (ix3 (0 : Fin 1) b l)) 0) ((((cfg0.win 3).blk t).view.emb (ix3 (0 : Fin 1) b l)) 1) ((((cfg0.win 3).blk t).view.emb (ix3 (0 : Fin 1) b l)) 2)
  rw [e0, (outs_out m c t h31 b l).1, since_last _ _ h31]
  rfl

/-- An index of the [2,16,128] array is in point t's block of window 3 iff each coordinate is in the block's range. -/
theorem mem_blk3 (t : Fin cfg0.N) (i : S2x16x128.Idx) :
    i ∈ ((cfg0.win 3).blk t).view.set ↔ ∀ a : Fin 3, win0_3.index t a * S1x16x128.size a ≤ (i a).val ∧ (i a).val < win0_3.index t a * S1x16x128.size a + S1x16x128.size a := by
  show i ∈ ((View.whole main_v0_0).slice (win0_3.rect t)).set ↔ _
  rw [View.set_slice_whole, Rect.mem_set_unit]
  exact Iff.rfl

/-- The array of output window 3 after the run. -/
theorem final3 : (dats m 0 c).arrAt 3 cfg0.N = fun y => cntArr m c (y 0) (y 1) (y 2) :=
  (dats m 0 c).arrAt_eq_of_cover 3 (fun y => cntArr m c (y 0) (y 1) (y 2)) (flushed3_eq m c) fun i => by
    have hN : cfg0.N = 64 := N_0
    have h0 : (i 0).val < 2 := (i 0).isLt
    have h1 : (i 1).val < 16 := (i 1).isLt
    have h2 : (i 2).val < 128 := (i 2).isLt
    refine ⟨⟨(i 0).val * 32 + 31, by omega⟩, (flush0_3 _).mpr (by show ((i 0).val * 32 + 31) % 32 = 31; omega), ?_⟩
    rw [mem_blk3]
    obtain ⟨i0, i1, i2, i3, i4, i5⟩ := idx_out (⟨(i 0).val * 32 + 31, by omega⟩ : Fin cfg0.N)
    have q : ((i 0).val * 32 + 31) / 32 = (i 0).val := by omega
    intro a
    match a with
    | ⟨0, _⟩ => show win0_3.index _ (0 : Fin 3) * 1 ≤ (i 0).val ∧ (i 0).val < win0_3.index _ (0 : Fin 3) * 1 + 1; rw [i0]; dsimp only; omega
    | ⟨1, _⟩ => show win0_3.index _ (1 : Fin 3) * 16 ≤ (i 1).val ∧ (i 1).val < win0_3.index _ (1 : Fin 3) * 16 + 16; rw [i1]; omega
    | ⟨2, _⟩ => show win0_3.index _ (2 : Fin 3) * 128 ≤ (i 2).val ∧ (i 2).val < win0_3.index _ (2 : Fin 3) * 128 + 128; rw [i2]; omega

/-- What a core's last point writes back into output window 4 is that core's block of the array function. -/
theorem flushed4_eq (t : Fin cfg0.N) (hf : (cfg0.win 4).flush t = true) :
    (dats m 0 c).flushed 4 t = ((cfg0.win 4).blk t).view.read (Elt Ideal) (fun y => bceArr m c (y 0) (y 1) (y 2)) := by
  have h31 := (flush0_4 t).mp hf
  have hN : cfg0.N = 64 := N_0
  have ht : t.val < 64 := lt_of_lt_of_eq t.isLt hN
  show (cfg0.win 4).cut (grid0.coords t) ((dats m 0 c).after 4 t) = _
  rw [after0_4]
  funext j
  obtain ⟨b, l, rfl⟩ : ∃ (b : Fin 16) (l : Fin 128), j = ix3 (0 : Fin 1) b l :=
    ⟨⟨(j 1).val, (j 1).isLt⟩, ⟨(j 2).val, (j 2).isLt⟩, by
      funext a
      match a with
      | ⟨0, _⟩ => exact Fin.ext (by show (j 0).val = 0; have h : (j 0).val < 1 := (j 0).isLt; omega)
      | ⟨1, _⟩ => rfl
      | ⟨2, _⟩ => rfl⟩
  have e0 : ((cfg0.win 4).blk t).view.emb (ix3 (0 : Fin 1) b l) = ix3 (⟨t.val / 32, by omega⟩ : Fin 2) b l := by
    obtain ⟨i0, i1, i2, i3, i4, i5⟩ := idx_out t
    funext a
    apply Fin.ext
    match a with
    | ⟨0, _⟩ => show win0_4.index t (0 : Fin 3) * 1 + 1 * 0 = t.val / 32; rw [i3]; omega
    | ⟨1, _⟩ => show win0_4.index t (1 : Fin 3) * 16 + 1 * b.val = b.val; rw [i4]; omega
    | ⟨2, _⟩ => show win0_4.index t (2 : Fin 3) * 128 + 1 * l.val = l.val; rw [i5]; omega
  show (outsAt0 m c t.val t.isLt).2.1 (ix3 0 b l)
    = bceArr m c ((((cfg0.win 4).blk t).view.emb (ix3 (0 : Fin 1) b l)) 0) ((((cfg0.win 4).blk t).view.emb (ix3 (0 : Fin 1) b l)) 1) ((((cfg0.win 4).blk t).view.emb (ix3 (0 : Fin 1) b l)) 2)
  rw [e0, (outs_out m c t h31 b l).2, since_last _ _ h31]
  rfl

/-- An index of the [2,16,128] array is in point t's block of window 4 iff each coordinate is in the block's range. -/
theorem mem_blk4 (t : Fin cfg0.N) (i : S2x16x128.Idx) :
    i ∈ ((cfg0.win 4).blk t).view.set ↔ ∀ a : Fin 3, win0_4.index t a * S1x16x128.size a ≤ (i a).val ∧ (i a).val < win0_4.index t a * S1x16x128.size a + S1x16x128.size a := by
  show i ∈ ((View.whole main_v0_1).slice (win0_4.rect t)).set ↔ _
  rw [View.set_slice_whole, Rect.mem_set_unit]
  exact Iff.rfl

/-- The array of output window 4 after the run. -/
theorem final4 : (dats m 0 c).arrAt 4 cfg0.N = fun y => bceArr m c (y 0) (y 1) (y 2) :=
  (dats m 0 c).arrAt_eq_of_cover 4 (fun y => bceArr m c (y 0) (y 1) (y 2)) (flushed4_eq m c) fun i => by
    have hN : cfg0.N = 64 := N_0
    have h0 : (i 0).val < 2 := (i 0).isLt
    have h1 : (i 1).val < 16 := (i 1).isLt
    have h2 : (i 2).val < 128 := (i 2).isLt
    refine ⟨⟨(i 0).val * 32 + 31, by omega⟩, (flush0_4 _).mpr (by show ((i 0).val * 32 + 31) % 32 = 31; omega), ?_⟩
    rw [mem_blk4]
    obtain ⟨i0, i1, i2, i3, i4, i5⟩ := idx_out (⟨(i 0).val * 32 + 31, by omega⟩ : Fin cfg0.N)
    have q : ((i 0).val * 32 + 31) / 32 = (i 0).val := by omega
    intro a
    match a with
    | ⟨0, _⟩ => show win0_4.index _ (0 : Fin 3) * 1 ≤ (i 0).val ∧ (i 0).val < win0_4.index _ (0 : Fin 3) * 1 + 1; rw [i3]; dsimp only; omega
    | ⟨1, _⟩ => show win0_4.index _ (1 : Fin 3) * 16 ≤ (i 1).val ∧ (i 1).val < win0_4.index _ (1 : Fin 3) * 16 + 16; rw [i4]; omega
    | ⟨2, _⟩ => show win0_4.index _ (2 : Fin 3) * 128 ≤ (i 2).val ∧ (i 2).val < win0_4.index _ (2 : Fin 3) * 128 + 128; rw [i5]; omega

/-- Input window 0's block at point t, entry (r, l): argument 0 at row 4096 t + r, lane l. -/
theorem iblk0_apply (t : Fin cfg0.N) (r : Fin 4096) (l : Fin 128) :
    (iblk m c 0 t : Vec Ideal S4096x128 .f32) (ix2 r l) = m ((c : Thread nD τ).loc main_arg0) (ix2 (rowOf t r) l) := by
  unfold iblk
  rw [View.read_apply]
  show V m c main_arg0 _ = m ((c : Thread nD τ).loc main_arg0) _
  rw [V_main_arg0]
  refine congrArg _ (funext fun a => Fin.ext ?_)
  obtain ⟨i0, i1, i2, i3, i4, i5⟩ := idx_in t
  match a with
  | ⟨0, _⟩ => show win0_0.index t (0 : Fin 2) * 4096 + 1 * r.val = t.val * 4096 + r.val; rw [i0]; omega
  | ⟨1, _⟩ => show win0_0.index t (1 : Fin 2) * 128 + 1 * l.val = l.val; rw [i1]; omega

/-- Input window 1's block at point t, entry (r, l): argument 1 at row 4096 t + r, lane l. -/
theorem iblk1_apply (t : Fin cfg0.N) (r : Fin 4096) (l : Fin 128) :
    (iblk m c 1 t : Vec Ideal S4096x128 .f32) (ix2 r l) = m ((c : Thread nD τ).loc main_arg1) (ix2 (rowOf t r) l) := by
  unfold iblk
  rw [View.read_apply]
  show V m c main_arg1 _ = m ((c : Thread nD τ).loc main_arg1) _
  rw [V_main_arg1]
  refine congrArg _ (funext fun a => Fin.ext ?_)
  obtain ⟨i0, i1, i2, i3, i4, i5⟩ := idx_in t
  match a with
  | ⟨0, _⟩ => show win0_1.index t (0 : Fin 2) * 4096 + 1 * r.val = t.val * 4096 + r.val; rw [i2]; omega
  | ⟨1, _⟩ => show win0_1.index t (1 : Fin 2) * 128 + 1 * l.val = l.val; rw [i3]; omega

/-- Input window 2's block at point t, entry (r, l): argument 2 at row 4096 t + r, lane l. -/
theorem iblk2_apply (t : Fin cfg0.N) (r : Fin 4096) (l : Fin 128) :
    (iblk m c 2 t : Vec Ideal S4096x128 .f32) (ix2 r l) = m ((c : Thread nD τ).loc main_arg2) (ix2 (rowOf t r) l) := by
  unfold iblk
  rw [View.read_apply]
  show V m c main_arg2 _ = m ((c : Thread nD τ).loc main_arg2) _
  rw [V_main_arg2]
  refine congrArg _ (funext fun a => Fin.ext ?_)
  obtain ⟨i0, i1, i2, i3, i4, i5⟩ := idx_in t
  match a with
  | ⟨0, _⟩ => show win0_2.index t (0 : Fin 2) * 4096 + 1 * r.val = t.val * 4096 + r.val; rw [i4]; omega
  | ⟨1, _⟩ => show win0_2.index t (1 : Fin 2) * 128 + 1 * l.val = l.val; rw [i5]; omega

end Cert.KernelIdeal.Acc

end
-- ==== Proof.KTailDef.lean ====
/-
  The host operations after the kernel launch, as ONE function of the two [2,16,128] arrays the launch returns:
  the ten per-bin counts and cross-entropy sums (each array summed over its core and lane axes, the first ten of the
  sixteen rows kept), the total max (Σ counts) 1, the number of nonempty bins, the per-bin weight total / max count 1
  where the count is positive, that weight divided by max (number of nonempty bins) 1 where there is a nonempty bin,
  and the loss Σ_b sum_b * weight_b / total.
-/
import proofs.«100415_j21895743275016_2_alg».proof.KernelIdeal
import Idealize.ShloMosaic.PureOps.Ideal

noncomputable section

namespace Cert.KernelIdeal.Acc

open Idealize.ShloMosaic Cert.KernelIdeal
open Facts₀ Facts

variable {F : FTy → Type} [FloatOps F] [Facts]

/-- The first ten of the sixteen per-row totals of a [2,16,128] array (summed over cores and lanes). -/
def perBin (A : FVec F S2x16x128 .f32) : FVec F S10 .f32 :=
  extractStridedSlice S10 ![0] (Host.reduceAdd A (constant S_ .f32 0x00000000#32) reducesTo_S2x16x128_S16_d0_2 h_S_) slices_S16_S10_0

/-- The loss from the ten counts and the ten cross-entropy sums, as the host computes it. -/
def tailOf (counts bsum : FVec F S10 .f32) : FVec F S_ .f32 :=
  let tot : FVec F S_ .f32 := maximumf (Host.reduceAdd counts (constant S_ .f32 0x00000000#32) reducesTo_S10_S_d0 h_S_) (constant S_ .f32 0x3F800000#32)
  let nne : FVec F S_ .f32 := Host.reduceAdd (uitofp .f32 (cmpf .ogt counts (broadcastInDim S10 ![] bcast_S_S10 (constant S_ .f32 0x00000000#32)))) (constant S_ .f32 0x00000000#32) reducesTo_S10_S_d0 h_S_
  let pbw : FVec F S10 .f32 := select (cmpf .ogt counts (broadcastInDim S10 ![] bcast_S_S10 (constant S_ .f32 0x00000000#32)))
    (Host.divf (broadcastInDim S10 ![] bcast_S_S10 tot) (maximumf counts (broadcastInDim S10 ![] bcast_S_S10 (constant S_ .f32 0x3F800000#32))))
    (broadcastInDim S10 ![] bcast_S_S10 (constant S_ .f32 0x00000000#32))
  let nz : FVec F S10 .f32 := select (broadcastInDim S10 ![] bcast_S_S10 (cmpf .ogt nne (constant S_ .f32 0x00000000#32)))
    (Host.divf pbw (broadcastInDim S10 ![] bcast_S_S10 (maximumf nne (constant S_ .f32 0x3F800000#32)))) pbw
  mulf (Host.divf (Host.reduceAdd (mulf bsum nz) (constant S_ .f32 0x00000000#32) reducesTo_S10_S_d0 h_S_) tot) (constant S_ .f32 0x3F800000#32)

/-- The whole tail: from the two arrays to the loss. -/
def tailFn (cntA bceA : FVec F S2x16x128 .f32) : FVec F S_ .f32 := tailOf (perBin cntA) (perBin bceA)

end Cert.KernelIdeal.Acc

end
-- ==== Proof.KTail.lean ====
/-
  The kernel program's run, read: after the launch the host operations turn the two output arrays into the loss, so the
  result buffer ends at tailFn of the count array and the cross-entropy array (KFinal.lean's closed forms), and the three
  argument arrays end unchanged.
-/
import proofs.«100415_j21895743275016_2_alg».proof.Proof.KFinal
import proofs.«100415_j21895743275016_2_alg».proof.Proof.KTailDef
import Idealize.ShloMosaic.Lib.StableHlo.Run
import Idealize.ShloMosaic.Lib.Pipeline.Value

noncomputable section

namespace Cert.KernelIdeal.Acc

open Idealize.ShloMosaic Idealize.ShloMosaic.ValueIdx Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- What the host operations after the launch leave in the result buffer: the tail of the two output arrays. -/
theorem tail_eq (c : Dev nD) :
    Pipeline.afterTail₀ cfgs (dats m) 0 (V0 m) [hostOps1, hostOps1_1, hostOps1_2, hostOps1_3, hostOps1_4] c main_v26
      = tailFn (F := Ideal) ((dats m 0 c).arrAt 3 cfg0.N) ((dats m 0 c).arrAt 4 cfg0.N) := by
  have e3 : Pipeline.withArrays (cfgs 0).spec c (V0 m c) (fun w => (dats m 0 c).arrAt w (cfgs 0).N) (Proc.devRef .tc main_v0_0)
      = (dats m 0 c).arrAt 3 (cfgs 0).N := Pipeline.withArrays_arr (cfgs 0).spec launch0.win.arr_inj c _ _ 3
  have e4 : Pipeline.withArrays (cfgs 0).spec c (V0 m c) (fun w => (dats m 0 c).arrAt w (cfgs 0).N) (Proc.devRef .tc main_v0_1)
      = (dats m 0 c).arrAt 4 (cfgs 0).N := Pipeline.withArrays_arr (cfgs 0).spec launch0.win.arr_inj c _ _ 4
  unfold Pipeline.afterTail₀
  simp only [hostOps1, hostOps1_1, hostOps1_2, hostOps1_3, hostOps1_4, List.flatten_cons, List.flatten_nil, List.append_nil, List.cons_append, List.nil_append]
  after_results_simp
  rw [e3, e4]
  rfl

/-- The kernel program's run: the result at the tail of the two closed-form arrays, the arguments unchanged. -/
theorem kernel_run : θ_run defs (onTc (τ := τ) (main (F := Ideal))) ⟨m, fun _ => 0, ρ⟩ (fun r => ∀ c : Dev nD,
      r.2.mem ((c.tc : Thread nD τ).loc main_v26)
        = tailFn (F := Ideal) (fun y => cntArr m c (y 0) (y 1) (y 2)) (fun y => bceArr m c (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v26 (Pipeline.mem_restRefs_of main_v26 (by decide) (by decide))).trans
        ((tail_eq m c).trans (by rw [final3 m c, final4 m c] <;> rfl)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Acc

end
-- ==== Proof.Spec.lean ====
/-
  The gradient-harmonised loss as ONE number, in the two arrangements the two programs compute it in,
  and the law that joins them.

  Data: a finite index set of elements e, each with a bin β e in 0..9, a cross entropy c e and a validity
  indicator v e (1 or 0, equivalently a decidable predicate p e).
    cntE b   = Σ_{e in bin b} v e             valid elements of bin b
    bsumE b  = Σ_{e in bin b} c e * v e       their summed cross entropy
  Binned arrangement (tailK over the ten counts and sums):
    T = max (Σ_b cnt b) 1,  n = #{b : cnt b > 0},  pbw b = T / max (cnt b) 1 where cnt b > 0 else 0,
    nz b = pbw b / max n 1 where n > 0 else pbw b,  loss = (Σ_b bsum b * nz b) / T.
  Elementwise arrangement (lossRE):
    T' = max (Σ_e v e) 1,  weight e = pbw (β e) where the element is valid else 0, divided by n where n > 0,
    loss = (Σ_e c e * weight e) / T'.
  They agree because every element lies in exactly one bin (so Σ_b cnt b = Σ_e v e), because a positive count
  of nonempty bins is at least 1, and because over REAL cross entropies the per-bin factor nz b moves out of the
  sum over the bin's elements (distributivity, which fails at infinities: hence the realness hypothesis).
-/
import Idealize.ShloMosaic.PureOps.Ideal

noncomputable section

namespace Ghmc

open Idealize.ShloMosaic

variable {ι : Type} [Fintype ι]

/-- Valid elements of bin b. -/
def cntE (β : ι → Fin 10) (v : ι → EReal) (b : Fin 10) : EReal := ∑ e, if β e = b then v e else 0

/-- Summed cross entropy of the valid elements of bin b. -/
def bsumE (β : ι → Fin 10) (c v : ι → EReal) (b : Fin 10) : EReal := ∑ e, if β e = b then c e * v e else 0

/-- The normalisation total from the ten counts. -/
def totK (cnt : Fin 10 → EReal) : EReal := max (∑ b, cnt b) 1

/-- The number of nonempty bins, as an extended real. -/
def nneK (cnt : Fin 10 → EReal) : EReal := ∑ b, if 0 < cnt b then (1 : EReal) else 0

/-- The per-bin weight. -/
def pbwK (cnt : Fin 10 → EReal) (b : Fin 10) : EReal :=
  if 0 < cnt b then Ideal.div (totK cnt) (max (cnt b) 1) else 0

/-- The per-bin weight divided by the number of nonempty bins. -/
def nzK (cnt : Fin 10 → EReal) (b : Fin 10) : EReal :=
  if 0 < nneK cnt then Ideal.div (pbwK cnt b) (max (nneK cnt) 1) else pbwK cnt b

/-- The loss from the ten counts and the ten cross-entropy sums. -/
def tailK (cnt bs : Fin 10 → EReal) : EReal := Ideal.div (∑ b, bs b * nzK cnt b) (totK cnt) * 1

/-- The loss, binned arrangement. -/
def lossKE (β : ι → Fin 10) (c v : ι → EReal) : EReal := tailK (cntE β v) (bsumE β c v)

/-- The number of nonempty bins, as a natural number. -/
def nneN (β : ι → Fin 10) (v : ι → EReal) : ℕ := (Finset.univ.filter fun b : Fin 10 => 0 < cntE β v b).card

/-- The normalisation total from the elements. -/
def totR (v : ι → EReal) : EReal := max (∑ e, v e) 1

/-- The per-bin weight over the elementwise total. -/
def pbwR (β : ι → Fin 10) (v : ι → EReal) (b : Fin 10) : EReal :=
  if 0 < cntE β v b then Ideal.div (totR v) (max (cntE β v b) 1) else 0

/-- The weight of one element. -/
def weightR (β : ι → Fin 10) (v : ι → EReal) (p : ι → Prop) [DecidablePred p] (e : ι) : EReal :=
  if 0 < nneN β v then Ideal.div (if p e then pbwR β v (β e) else 0) (((nneN β v : ℕ) : ℝ) : EReal)
  else (if p e then pbwR β v (β e) else 0)

/-- The loss, elementwise arrangement. -/
def lossRE (β : ι → Fin 10) (c v : ι → EReal) (p : ι → Prop) [DecidablePred p] : EReal :=
  Ideal.div (∑ e, c e * weightR β v p e) (totR v) * 1

/-! ### Auxiliary facts: casts, the bins partition the elements, everything in sight is real -/

/-- The cast of a finite real sum is the sum of the casts. -/
private theorem coe_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The cast of a maximum of two reals is the maximum of the casts. -/
private theorem coe_max (x y : ℝ) : ((max x y : ℝ) : EReal) = max (x : EReal) (y : EReal) := by
  rcases le_total x y with h | h
  · rw [max_eq_right h, max_eq_right (EReal.coe_le_coe_iff.2 h)]
  · rw [max_eq_left h, max_eq_left (EReal.coe_le_coe_iff.2 h)]

/-- A quotient of two reals with a nonzero denominator is a real. -/
private theorem div_real (x : ℝ) {y : ℝ} (hy : y ≠ 0) :
    Ideal.div (x : EReal) (y : EReal) = ((x * (1 / y) : ℝ) : EReal) := by
  rw [Ideal.div_coe hy, ← EReal.coe_mul]

/-- Every element lies in exactly one bin: the ten counts add up to the number of valid elements. -/
private theorem sum_cntE (β : ι → Fin 10) (v : ι → EReal) : ∑ b, cntE β v b = ∑ e, v e := by
  unfold cntE
  rw [Finset.sum_comm]
  refine Finset.sum_congr rfl fun e _ => ?_
  rw [Finset.sum_ite_eq]
  simp

/-- The two normalisation totals agree. -/
private theorem totK_eq (β : ι → Fin 10) (v : ι → EReal) : totK (cntE β v) = totR v := by
  unfold totK totR
  rw [sum_cntE]

/-- The two per-bin weights agree. -/
private theorem pbwK_eq (β : ι → Fin 10) (v : ι → EReal) (b : Fin 10) :
    pbwK (cntE β v) b = pbwR β v b := by
  unfold pbwK pbwR
  rw [totK_eq]

/-- The number of nonempty bins is the cast of a natural number. -/
private theorem nneK_eq (β : ι → Fin 10) (v : ι → EReal) :
    nneK (cntE β v) = (((nneN β v : ℕ) : ℝ) : EReal) := by
  unfold nneK nneN
  have h : ∀ b, (if 0 < cntE β v b then (1 : EReal) else 0)
      = (((if 0 < cntE β v b then (1 : ℝ) else 0) : ℝ) : EReal) := by
    intro b
    split_ifs <;> simp
  rw [Finset.sum_congr rfl fun b _ => h b, ← coe_sum, Finset.sum_boole]

/-- Counts are real: the cast of the real count. -/
private theorem cntE_coe (β : ι → Fin 10) (v : ι → EReal) (w : ι → ℝ) (hw : ∀ e, v e = (w e : EReal))
    (b : Fin 10) : cntE β v b = ((∑ e, if β e = b then w e else 0 : ℝ) : EReal) := by
  unfold cntE
  rw [coe_sum]
  refine Finset.sum_congr rfl fun e _ => ?_
  split_ifs
  · exact hw e
  · simp

/-- Per-bin cross-entropy sums are real. -/
private theorem bsumE_coe (β : ι → Fin 10) (c v : ι → EReal) (r w : ι → ℝ)
    (hr : ∀ e, c e = (r e : EReal)) (hw : ∀ e, v e = (w e : EReal)) (b : Fin 10) :
    bsumE β c v b = ((∑ e, if β e = b then r e * w e else 0 : ℝ) : EReal) := by
  unfold bsumE
  rw [coe_sum]
  refine Finset.sum_congr rfl fun e _ => ?_
  split_ifs
  · rw [hr e, hw e, EReal.coe_mul]
  · simp

/-- The normalisation total is real. -/
private theorem totR_coe (v : ι → EReal) (w : ι → ℝ) (hw : ∀ e, v e = (w e : EReal)) :
    totR v = ((max (∑ e, w e) 1 : ℝ) : EReal) := by
  unfold totR
  rw [coe_max, coe_sum, EReal.coe_one, Finset.sum_congr rfl fun e _ => hw e]

/-- The per-bin weight is real: a real total over a real denominator that is at least 1. -/
private theorem pbwR_real (β : ι → Fin 10) (v : ι → EReal) (w : ι → ℝ) (hw : ∀ e, v e = (w e : EReal))
    (b : Fin 10) : ∃ z : ℝ, pbwR β v b = (z : EReal) := by
  unfold pbwR
  split_ifs
  · have hne : max (∑ e, if β e = b then w e else 0) 1 ≠ 0 :=
      (lt_of_lt_of_le one_pos (le_max_right _ _)).ne'
    refine ⟨max (∑ e, w e) 1 * (1 / max (∑ e, if β e = b then w e else 0) 1), ?_⟩
    rw [cntE_coe β v w hw b, totR_coe v w hw, ← EReal.coe_one, ← coe_max, div_real _ hne]
  · exact ⟨0, by simp⟩

/-- The per-bin factor is real. -/
private theorem nzK_real (β : ι → Fin 10) (v : ι → EReal) (w : ι → ℝ) (hw : ∀ e, v e = (w e : EReal))
    (b : Fin 10) : ∃ z : ℝ, nzK (cntE β v) b = (z : EReal) := by
  obtain ⟨z, hz⟩ := pbwR_real β v w hw b
  unfold nzK
  rw [pbwK_eq, hz, nneK_eq]
  split_ifs
  · have hne : max ((nneN β v : ℕ) : ℝ) 1 ≠ 0 := (lt_of_lt_of_le one_pos (le_max_right _ _)).ne'
    refine ⟨z * (1 / max ((nneN β v : ℕ) : ℝ) 1), ?_⟩
    rw [← EReal.coe_one, ← coe_max, div_real _ hne]
  · exact ⟨z, rfl⟩

/-- The weight of an element is the per-bin factor of its bin where the element is valid, else 0:
    a positive number of nonempty bins is at least 1, so the maximum with 1 drops. -/
private theorem weightR_eq (β : ι → Fin 10) (v : ι → EReal) (p : ι → Prop) [DecidablePred p] (e : ι) :
    weightR β v p e = if p e then nzK (cntE β v) (β e) else 0 := by
  unfold weightR nzK
  rw [pbwK_eq, nneK_eq]
  by_cases hn : 0 < nneN β v
  · have h1 : (0 : EReal) < (((nneN β v : ℕ) : ℝ) : EReal) := EReal.coe_pos.2 (Nat.cast_pos.2 hn)
    have h2 : max ((((nneN β v : ℕ) : ℝ)) : EReal) 1 = (((nneN β v : ℕ) : ℝ) : EReal) := by
      apply max_eq_left
      rw [← EReal.coe_one]
      exact EReal.coe_le_coe_iff.2 (by exact_mod_cast hn)
    have hne : ((nneN β v : ℕ) : ℝ) ≠ 0 := (Nat.cast_pos.2 hn).ne'
    rw [if_pos hn, if_pos h1, h2]
    split_ifs
    · rfl
    · rw [Ideal.div_coe hne, zero_mul]
  · have h1 : ¬ (0 : EReal) < (((nneN β v : ℕ) : ℝ) : EReal) :=
      fun h => hn (Nat.cast_pos.1 (EReal.coe_pos.1 h))
    rw [if_neg hn, if_neg h1]

/-- The two arrangements give one number: over real cross entropies and 0/1 validity indicators. -/
theorem lossKE_eq_lossRE (β : ι → Fin 10) (c v : ι → EReal) (p : ι → Prop) [DecidablePred p]
    (hc : ∀ e, ∃ r : ℝ, c e = (r : EReal)) (hv : ∀ e, v e = if p e then 1 else 0) :
    lossKE β c v = lossRE β c v p := by
  classical
  choose r hr using hc
  have hw : ∀ e, v e = (((if p e then 1 else 0 : ℝ)) : EReal) := by
    intro e
    rw [hv e]
    split_ifs <;> simp
  choose z hz using nzK_real β v (fun e => if p e then 1 else 0) hw
  unfold lossKE lossRE tailK
  rw [totK_eq]
  -- the two numerators agree: both are the cast of one real double sum
  have hL : ∀ b, bsumE β c v b * nzK (cntE β v) b
      = (((∑ e, if β e = b then r e * (if p e then 1 else 0) else 0) * z b : ℝ) : EReal) := by
    intro b
    rw [hz b, bsumE_coe β c v r (fun e => if p e then 1 else 0) hr hw b, ← EReal.coe_mul]
  have hR : ∀ e, c e * weightR β v p e
      = ((r e * ((if p e then 1 else 0) * z (β e)) : ℝ) : EReal) := by
    intro e
    rw [weightR_eq, hr e]
    split_ifs
    · rw [hz, ← EReal.coe_mul, one_mul]
    · rw [mul_zero, zero_mul, mul_zero, EReal.coe_zero]
  have hreal : (∑ b, (∑ e, if β e = b then r e * (if p e then (1 : ℝ) else 0) else 0) * z b)
      = ∑ e, r e * ((if p e then (1 : ℝ) else 0) * z (β e)) := by
    simp_rw [Finset.sum_mul]
    rw [Finset.sum_comm]
    refine Finset.sum_congr rfl fun e _ => ?_
    simp_rw [ite_mul, zero_mul]
    rw [Finset.sum_ite_eq]
    simp [mul_assoc]
  rw [Finset.sum_congr rfl fun b _ => hL b, Finset.sum_congr rfl fun e _ => hR e, ← coe_sum, ← coe_sum,
    hreal]

end Ghmc

end
-- ==== Proof.KTailRead.lean ====
/-
  The host tail read at the ideal values: applied to two [2,16,128] arrays it is the binned arrangement's tail
  (Spec.lean's tailK) of the per-bin totals — count b = the sum of row b of the first array over its two cores and 128
  lanes, and likewise the cross-entropy sum from the second array, b = 0..9. Each host operation is its textbook one
  on the extended reals: a zero-initialised sum is 0 + Σ, a compare-and-convert is 1 or 0, a select is an if.
-/
import proofs.«100415_j21895743275016_2_alg».proof.Proof.KTailDef
import proofs.«100415_j21895743275016_2_alg».proof.Proof.Gen.KernelIdeal
import proofs.«100415_j21895743275016_2_alg».proof.Proof.Spec
import proofs.«100415_j21895743275016_2_alg».proof.Proof.Elem
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.Acc

open Idealize.ShloMosaic Idealize.ShloMosaic.ValueIdx Cert.KernelIdeal

/-! ### Index sets by coordinates -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : Nat} (f : (⟨1, ![n]⟩ : Shape).Idx → EReal) : ∑ i, f i = ∑ a : Fin n, f (ix1 a) := by
  rw [← Equiv.sum_comp (idxEquiv1 (n := n)).symm f]
  rfl

/-- The indices of a [2,16,128] array that lie on row b: one for every core k and lane l. -/
def rowEmb (b : Fin 16) : Fin 2 × Fin 128 ↪ S2x16x128.Idx :=
  ⟨fun p => ix3 p.1 b p.2, fun p q h => Prod.ext (congrFun h (0 : Fin 3)) (congrFun h (2 : Fin 3))⟩

/-- Dropping the core and lane coordinates of (k, b, l) leaves b. -/
theorem drop_ix3 (h : S2x16x128.ReducesTo [0, 2] S16) (k : Fin 2) (b : Fin 16) (l : Fin 128) :
    h.drop (ix3 k b l) = ix1 b := by
  funext a
  match a with
  | ⟨0, _⟩ => exact Fin.ext (Shape.ReducesTo.drop_apply_val_of_eq h (ix3 k b l) (0 : Fin 1) (1 : Fin 3))

/-- The indices that a sum over cores and lanes sends to row b are exactly the (k, b, l). -/
theorem filter_row (h : S2x16x128.ReducesTo [0, 2] S16) (b : Fin 16) :
    Finset.univ.filter (fun i : S2x16x128.Idx => h.drop i = ix1 b) = Finset.univ.map (rowEmb b) := by
  ext i
  simp only [Finset.mem_filter, Finset.mem_univ, true_and, Finset.mem_map, rowEmb, Function.Embedding.coeFn_mk]
  constructor
  · intro hi
    have h1 : i 1 = b := by
      have h0 := congrArg Fin.val (congrFun hi (0 : Fin 1))
      have hv := Shape.ReducesTo.drop_apply_val_of_eq h i (0 : Fin 1) (1 : Fin 3)
      exact Fin.ext (hv.symm.trans h0)
    refine ⟨(i 0, i 2), ?_⟩
    rw [← h1]
    exact (eq_ix3 i).symm
  · rintro ⟨p, rfl⟩
    exact drop_ix3 h p.1 b p.2

/-- The host's sum of a [2,16,128] array over its core and lane axes, read at row b: the initial value plus the
    double sum over cores and lanes. -/
theorem hostSum_row (h : S2x16x128.ReducesTo [0, 2] S16) (A : S2x16x128.Idx → EReal) (init : EReal) (b : Fin 16) :
    Ideal.hostReduceAdd h A init (ix1 b) = init + ∑ k : Fin 2, ∑ l : Fin 128, A (ix3 k b l) := by
  unfold Ideal.hostReduceAdd
  rw [filter_row, Finset.sum_map, Fintype.sum_prod_type]
  rfl

/-- The host's sum of a [10] vector into a scalar from a zero initial value is the sum over the ten coordinates. -/
theorem sumS10 (h : S10.ReducesTo [0] S_) (hu : 0 < S_.numel) (v : FVec Ideal S10 .f32) (j : S_.Idx) :
    Host.reduceAdd v (constant (F := Ideal) S_ .f32 0x00000000#32) h hu j = ∑ b : Fin 10, v (ix1 b) := by
  rw [hostReduceAdd_apply, Ideal.hostReduceAdd_total h (fun b => b.elim0), constant_apply, Ideal.ofBits_zero_f32,
    zero_add]
  exact sum_idx1 v

/-- Bin b's total: the first ten rows of the per-row sums, row b summed over its two cores and 128 lanes. -/
theorem perBin_apply (A : FVec Ideal S2x16x128 .f32) (b : Fin 10) :
    perBin (F := Ideal) A (ix1 b) = ∑ k : Fin 2, ∑ l : Fin 128, A (ix3 k ⟨b.val, by omega⟩ l) := by
  unfold perBin
  refine (extractStridedSlice_apply _ _ _ (ix1 b) (ix1 (⟨b.val, by omega⟩ : Fin 16)) ?_).trans ?_
  · intro a
    match a with
    | ⟨0, _⟩ => exact (Nat.zero_add _).symm
  · rw [hostReduceAdd_apply, hostSum_row, constant_apply, Ideal.ofBits_zero_f32, zero_add]

/-! ### The scalar operations -/

/-- A scalar broadcast to the ten bins reads the scalar at every bin. -/
theorem bcast_apply {α : Type} (h : S_.BroadcastsInDim S10 (![] : Fin 0 → Fin 1)) (x : S_.Idx → α)
    (i : S10.Idx) : broadcastInDim S10 (![] : Fin 0 → Fin 1) h x i = x ix0 :=
  broadcastInDim_scalar_apply h x i

/-- An integer-to-float conversion at an index converts the element. -/
theorem uitofp_apply {s : Shape} {w : Nat} (x : IVec s w) (i : s.Idx) :
    (uitofp .f32 x : FVec Ideal s .f32) i = FloatOps.uitofp (F := Ideal) .f32 (x i) := rfl

/-- A select on "x is greater than y" is the if. -/
theorem select_ogt {α : Type} (x y : EReal) (a b : α) :
    Scalar.select (FloatOps.cmpf (F := Ideal) (φ := .f32) .ogt x y) a b = if y < x then a else b := by
  show Scalar.select (Ideal.cmp .ogt x y) a b = _
  unfold Ideal.cmp Scalar.select
  by_cases h : y < x <;> simp [h]

/-- "x is greater than y" converted to a float is 1 or 0. -/
theorem uitofp_ogt (x y : EReal) :
    FloatOps.uitofp (F := Ideal) .f32 (FloatOps.cmpf (F := Ideal) (φ := .f32) .ogt x y)
      = if y < x then (1 : EReal) else 0 := by
  show (((Ideal.cmp .ogt x y).toNat : ℝ) : EReal) = _
  unfold Ideal.cmp
  by_cases h : y < x <;> simp [h]

/-- The loss from ten counts and ten sums, as the host computes it, is tailK of them. -/
theorem tailOf_apply (counts bsum : FVec Ideal S10 .f32) (j : S_.Idx) :
    tailOf (F := Ideal) counts bsum j = Ghmc.tailK (fun b => counts (ix1 b)) (fun b => bsum (ix1 b)) := by
  unfold tailOf Ghmc.tailK Ghmc.nzK Ghmc.pbwK Ghmc.nneK Ghmc.totK
  simp only [mulf_apply, hostDivf_apply, maximumf_apply, select_apply, cmpf_apply, uitofp_apply, sumS10,
    bcast_apply, constant_apply, Ideal.ofBits_zero_f32, Ghmc.ofBits_one, select_ogt, uitofp_ogt]

/-- The tail of two arrays is tailK of their per-bin totals. -/
theorem tailFn_eq (cntA bceA : FVec Ideal S2x16x128 .f32) :
    tailFn (F := Ideal) cntA bceA
      = fun _ => Ghmc.tailK (fun b : Fin 10 => ∑ k : Fin 2, ∑ l : Fin 128, cntA (ix3 k ⟨b.val, by omega⟩ l))
          (fun b : Fin 10 => ∑ k : Fin 2, ∑ l : Fin 128, bceA (ix3 k ⟨b.val, by omega⟩ l)) := by
  funext j
  unfold tailFn
  rw [tailOf_apply]
  congr 1 <;> funext b <;> exact perBin_apply _ b

end Cert.KernelIdeal.Acc

end
-- ==== Proof.KSum.lean ====
/-
  The two output arrays summed over cores and lanes, as sums over all elements of the three input arrays.

  After the run the count array holds at (k, b, l) the sum over core k's 32 grid points j of what each point's block
  adds at (b, l): the sum over the block's 4096 rows r of (1 where the element's bin word is b, else 0) times the
  element's validity, the element being row (k * 32 + j) * 4096 + r, lane l of the arguments. Summed over the cores k
  and the lanes l this is the sum over every element of the [262144, 128] arrays — each row index is
  (k * 32 + j) * 4096 + r for exactly one core, step and row — of the validity of the elements whose bin is b: the
  count of bin b. A bin word below 10 is b's word exactly when the bin, as an element of 0..9, is b; and
  1 * v = v, 0 * v = 0. The cross-entropy array is the same with the validity replaced by cross entropy times
  validity: the summed cross entropy of bin b.
-/
import proofs.«100415_j21895743275016_2_alg».proof.Proof.KFinal
import proofs.«100415_j21895743275016_2_alg».proof.Proof.KElem
import proofs.«100415_j21895743275016_2_alg».proof.Proof.Spec
import proofs.«100415_j21895743275016_2_alg».proof.Proof.Elem

noncomputable section

namespace Cert.KernelIdeal.Acc

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The logits: argument 0 as a function of the element. -/
abbrev argX0 : (⟨2, ![262144, 128]⟩ : Shape).Idx → EReal := fun i => m ((c : Thread nD τ).loc main_arg0) i
/-- The targets: argument 1. -/
abbrev argX1 : (⟨2, ![262144, 128]⟩ : Shape).Idx → EReal := fun i => m ((c : Thread nD τ).loc main_arg1) i
/-- The label weights: argument 2. -/
abbrev argX2 : (⟨2, ![262144, 128]⟩ : Shape).Idx → EReal := fun i => m ((c : Thread nD τ).loc main_arg2) i

/-- The indicator that the bin word is b's word, times a value, is the value where the bin is b and 0 elsewhere. -/
theorem ind_mul (x y v : EReal) (b : Fin 10) :
    (if Ghmc.binW x y = BitVec.ofNat 32 b.val then (1 : EReal) else 0) * v = if Ghmc.binF x y = b then v else 0 := by
  have hiff : Ghmc.binW x y = BitVec.ofNat 32 b.val ↔ Ghmc.binF x y = b := by
    constructor
    · intro h
      apply Fin.ext
      show (Ghmc.binW x y).toNat = b.val
      rw [h, BitVec.toNat_ofNat]
      exact Nat.mod_eq_of_lt (by have := b.isLt; omega)
    · intro h
      rw [Ghmc.binW_eq, h]
  by_cases h : Ghmc.binF x y = b
  · rw [if_pos (hiff.2 h), if_pos h, one_mul]
  · rw [if_neg (fun h' => h (hiff.1 h')), if_neg h, zero_mul]

/-- What step j of core k adds to the count array at (b, l), as a sum over the rows of its block. -/
theorem incCAt_eq (k : Fin 2) (j : Fin 32) (b : Fin 10) (l : Fin 128) :
    incCAt m c (k.val * 32 + j.val) ⟨b.val, by omega⟩ l
      = ∑ r : Fin 4096,
          if Ghmc.binF (argX0 m c (ix2 (⟨(k.val * 32 + j.val) * 4096 + r.val, by omega⟩ : Fin 262144) l))
              (argX1 m c (ix2 (⟨(k.val * 32 + j.val) * 4096 + r.val, by omega⟩ : Fin 262144) l)) = b
          then Ghmc.validW (argX2 m c (ix2 (⟨(k.val * 32 + j.val) * 4096 + r.val, by omega⟩ : Fin 262144) l)) else 0 := by
  have hp : k.val * 32 + j.val < cfg0.N := by
    have hN : cfg0.N = 64 := N_0
    omega
  unfold incCAt
  rw [dif_pos hp]
  unfold incC
  rw [if_pos (show (⟨b.val, by omega⟩ : Fin 16).val < 10 from b.isLt)]
  unfold colsum
  refine Finset.sum_congr rfl fun r _ => ?_
  rw [Ghmc.KElem.pay8_apply, Ghmc.KElem.pay7_apply, iblk0_apply, iblk1_apply, iblk2_apply]
  exact ind_mul _ _ _ b

/-- What step j of core k adds to the cross-entropy array at (b, l), as a sum over the rows of its block. -/
theorem incBAt_eq (k : Fin 2) (j : Fin 32) (b : Fin 10) (l : Fin 128) :
    incBAt m c (k.val * 32 + j.val) ⟨b.val, by omega⟩ l
      = ∑ r : Fin 4096,
          if Ghmc.binF (argX0 m c (ix2 (⟨(k.val * 32 + j.val) * 4096 + r.val, by omega⟩ : Fin 262144) l))
              (argX1 m c (ix2 (⟨(k.val * 32 + j.val) * 4096 + r.val, by omega⟩ : Fin 262144) l)) = b
          then Ghmc.bceW (argX0 m c (ix2 (⟨(k.val * 32 + j.val) * 4096 + r.val, by omega⟩ : Fin 262144) l))
              (argX1 m c (ix2 (⟨(k.val * 32 + j.val) * 4096 + r.val, by omega⟩ : Fin 262144) l))
            * Ghmc.validW (argX2 m c (ix2 (⟨(k.val * 32 + j.val) * 4096 + r.val, by omega⟩ : Fin 262144) l)) else 0 := by
  have hp : k.val * 32 + j.val < cfg0.N := by
    have hN : cfg0.N = 64 := N_0
    omega
  unfold incBAt
  rw [dif_pos hp]
  unfold incB
  rw [if_pos (show (⟨b.val, by omega⟩ : Fin 16).val < 10 from b.isLt)]
  unfold colsum
  refine Finset.sum_congr rfl fun r _ => ?_
  rw [Ghmc.KElem.pay8_apply, Ghmc.KElem.pay9_apply, iblk0_apply, iblk1_apply, iblk2_apply]
  exact ind_mul _ _ _ b

/-- Row b of the count array, summed over cores and lanes, is the count of bin b over all elements. -/
theorem cnt_total (b : Fin 10) :
    ∑ k : Fin 2, ∑ l : Fin 128, cntArr m c k ⟨b.val, by omega⟩ l
      = Ghmc.cntE (fun i => Ghmc.binF (argX0 m c i) (argX1 m c i)) (fun i => Ghmc.validW (argX2 m c i)) b := by
  unfold Ghmc.cntE
  refine Eq.trans ?_ (Ghmc.KElem.sum_by_core_lane_step_row _).symm
  refine Finset.sum_congr rfl fun k _ => Finset.sum_congr rfl fun l _ => ?_
  unfold cntArr
  rw [Finset.sum_range]
  exact Finset.sum_congr rfl fun j _ => incCAt_eq m c k j b l

/-- Row b of the cross-entropy array, summed over cores and lanes, is the summed cross entropy of bin b. -/
theorem bce_total (b : Fin 10) :
    ∑ k : Fin 2, ∑ l : Fin 128, bceArr m c k ⟨b.val, by omega⟩ l
      = Ghmc.bsumE (fun i => Ghmc.binF (argX0 m c i) (argX1 m c i)) (fun i => Ghmc.bceW (argX0 m c i) (argX1 m c i))
          (fun i => Ghmc.validW (argX2 m c i)) b := by
  unfold Ghmc.bsumE
  refine Eq.trans ?_ (Ghmc.KElem.sum_by_core_lane_step_row _).symm
  refine Finset.sum_congr rfl fun k _ => Finset.sum_congr rfl fun l _ => ?_
  unfold bceArr
  rw [Finset.sum_range]
  exact Finset.sum_congr rfl fun j _ => incBAt_eq m c k j b l

end Cert.KernelIdeal.Acc

end
-- ==== Proof.KValue.lean ====
/-
  The kernel program's result is the binned arrangement of the loss: the tail of the two output arrays is tailK of
  their per-bin totals (KTailRead), and those totals are the per-bin counts and cross-entropy sums of the elements
  (KSum), with element i's bin binF (pred i) (target i), cross entropy bceW (pred i) (target i) and validity
  validW (weight i).
-/
import proofs.«100415_j21895743275016_2_alg».proof.Proof.KTail
import proofs.«100415_j21895743275016_2_alg».proof.Proof.KTailRead
import proofs.«100415_j21895743275016_2_alg».proof.Proof.KSum

noncomputable section

namespace Cert.KernelIdeal.Acc

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (c : Dev nD)

/-- The tail of the two closed-form arrays is the binned loss of the argument arrays. -/
theorem kernel_value :
    tailFn (F := Ideal) (fun y => cntArr m c (y 0) (y 1) (y 2)) (fun y => bceArr m c (y 0) (y 1) (y 2))
      = fun _ => Ghmc.lossKE (fun i => Ghmc.binF (argX0 m c i) (argX1 m c i))
          (fun i => Ghmc.bceW (argX0 m c i) (argX1 m c i)) (fun i => Ghmc.validW (argX2 m c i)) := by
  rw [tailFn_eq]
  funext _
  unfold Ghmc.lossKE
  refine congr (congrArg Ghmc.tailK (funext fun b => ?_)) (funext fun b => ?_)
  · exact cnt_total m c b
  · exact bce_total m c b

end Cert.KernelIdeal.Acc

end
-- ==== Proof.RefSide.lean ====
/-
  The reference program's result, read at the ideal instance, is the elementwise arrangement of the loss
  (Spec.lean's lossRE) of the per-element quantities of Elem.lean: the bin of element i is binF (pred i) (target i),
  its cross entropy bceW (pred i) (target i), its validity validW (weight i), i ranging over the [262144,128] index set.
  No finiteness is needed for this: it is a re-indexing of sums, the meaning of the scatter-add (the per-bin counts),
  of the integer sum of ten 0/1 words (the number of nonempty bins) and of the gather (an element's per-bin weight).
-/
import proofs.«100415_j21895743275016_2_alg».proof.Proof.RefReadP
import proofs.«100415_j21895743275016_2_alg».proof.Proof.Elem
import proofs.«100415_j21895743275016_2_alg».proof.Proof.Spec
import Idealize.ShloMosaic.Lib.ValueIdx
import Idealize.ShloMosaic.PureOps.Ideal.Laws

noncomputable section

namespace Ghmc.Ref

open Idealize.ShloMosaic Cert.ReferenceIdeal Cert.ReferenceIdeal.Gen Cert.ReferenceIdeal.ReadP Idealize.ShloMosaic.ValueIdx

/-- The validity indicator as a float: 1 where the label weight is positive, else 0. -/
theorem v10_eq (x2 : S262144x128.Idx → EReal) (i : S262144x128.Idx) :
    val_main_v10 (F := Ideal) x2 i = validW (x2 i) := by
  rw [val_main_v10_apply, val_main_v9_apply, val_main_v8_apply, val_main_cst_1_apply]
  show (((Ideal.cmp .ogt (x2 i) (Ideal.ofBits .f32 0x00000000#32)).toNat : ℝ) : EReal) = validW (x2 i)
  rw [Ideal.ofBits_zero_f32]
  unfold validW Ideal.cmp
  by_cases h : 0 < x2 i
  · simp [h]
  · simp [h]

/-- The bin word of element i. -/
theorem v17_eq (x0 x1 : S262144x128.Idx → EReal) (i : S262144x128.Idx) :
    val_main_v17 (F := Ideal) x0 x1 i = binW (x0 i) (x1 i) := by
  rw [val_main_v17_apply, val_main_v16_apply, val_main_c_apply, val_main_v15_apply, val_main_v14_apply,
    val_main_v13_apply, val_main_cst_4_apply, val_main_v7_apply, val_main_v6_apply, val_main_v5_apply,
    val_main_v4_apply, val_main_cst_0_apply, val_main_v3_apply, val_main_v2_apply, val_main_cst_apply,
    val_main_v1_apply, val_main_v0_apply]
  simp only [Ideal.ofBits_def, ofBits_one]
  rfl

/-- The cross entropy of element i. -/
theorem v55_eq (x0 x1 : S262144x128.Idx → EReal) (i : S262144x128.Idx) :
    val_main_v55 (F := Ideal) x0 x1 i = bceW (x0 i) (x1 i) := by
  rw [val_main_v55_apply, val_main_v50_apply, val_main_v48_apply, val_main_v47_apply, val_main_cst_15_apply,
    val_main_v49_apply, val_main_v54_apply, val_main_v53_apply, val_main_v52_apply, val_main_v51_apply]
  simp only [Ideal.ofBits_def, Ideal.ofBits_zero_f32]
  rfl

/-- The normalisation total. -/
theorem v12_eq (x2 : S262144x128.Idx → EReal) (k : S_.Idx) :
    val_main_v12 (F := Ideal) x2 k = totR (fun i => validW (x2 i)) := by
  rw [val_main_v12_apply, val_main_v11_apply, val_main_cst_3_apply, val_main_cst_2_apply]
  simp only [Ideal.ofBits_def, Ideal.ofBits_zero_f32, ofBits_one, zero_add, Ideal.maximumf_def]
  unfold totR
  exact congrArg (fun t => max t 1) (Finset.sum_congr rfl (fun j _ => v10_eq x2 j))

/-! ### The scatter-add: where an update lands -/

/-- The scatter's dimension numbers. -/
abbrev scatD : ScatterDims S10 S33554432x1 S33554432 := scatter_S10_S33554432x1_S33554432_n_0_0_1

/-- No operand axis is a window axis: the one operand axis is inserted. -/
theorem scat_window (j : S33554432.Idx) (a : Fin S10.rank) : scatD.window j a = 0 := by
  unfold ScatterDims.window
  rw [dif_neg]
  intro h
  have : a = 0 := Subsingleton.elim _ _
  subst this
  revert h
  decide

/-- The scatter index update j reads: row j of the index column. -/
theorem scat_start (j : S33554432.Idx) (idx : IVec S33554432x1 32) (a : Fin S10.rank) :
    scatD.start j idx a = (idx (ix2 (j 0) (0 : Fin 1))).toInt := by
  have ha : a = 0 := Subsingleton.elim _ _
  subst ha
  unfold ScatterDims.start
  rw [dif_pos (show (0 : Fin S10.rank) ∈ scatD.scatterDimsToOperandDims from List.mem_singleton.mpr rfl)]
  congr 2
  funext b
  refine Fin.ext ?_
  match b with
  | ⟨0, _⟩ => rfl
  | ⟨1, _⟩ => rfl

/-- A natural below 2^31, as a 32-bit word, reads back signed as itself. -/
theorem toInt_ofNat_small (n : Nat) (hn : n < 2 ^ 31) : (BitVec.ofNat 32 n).toInt = (n : Int) := by
  rw [← BitVec.ofInt_natCast]
  exact BitVec.toInt_ofInt_eq_self (by decide) (by simpa using (by omega : -2 ^ 31 ≤ (n : Int)))
    (by simpa using (by omega : (n : Int) < 2 ^ 31))

/-- An update whose scatter index is the word of g, g one of 0..9, lands at bin g. -/
theorem scat_result (idx : IVec S33554432x1 32) (j : S33554432.Idx) (g : Fin 10)
    (hg : idx (ix2 (j 0) (0 : Fin 1)) = BitVec.ofNat 32 g.val) :
    scatD.resultIdx? j idx = some (ix1 g) := by
  have hs : ∀ a, scatD.start j idx a + (scatD.window j a : Int) = (g.val : Int) := by
    intro a
    rw [scat_start, scat_window, hg, toInt_ofNat_small _ (by have := g.isLt; omega)]
    simp
  unfold ScatterDims.resultIdx?
  rw [dif_pos]
  · refine congrArg some (funext fun a => Fin.ext ?_)
    have ha : a = 0 := Subsingleton.elim _ _
    subst ha
    show (scatD.start j idx 0 + (scatD.window j 0 : Int)).toNat = g.val
    rw [hs 0]
    rfl
  · intro a
    have ha : a = 0 := Subsingleton.elim _ _
    subst ha
    rw [hs 0]
    refine ⟨Int.natCast_nonneg _, ?_⟩
    show (g.val : Int) < ((10 : Nat) : Int)
    exact_mod_cast g.isLt

/-- The scatter-add at bin b: the operand's element plus the updates whose scatter index is b. -/
theorem scatterAdd_bins (x : S10.Idx → EReal) (idx : IVec S33554432x1 32) (upd : S33554432.Idx → EReal)
    (g : S33554432.Idx → Fin 10) (hg : ∀ j, idx (ix2 (j 0) (0 : Fin 1)) = BitVec.ofNat 32 (g j).val) (b : Fin 10) :
    Ideal.hostScatterAdd scatD x idx upd (ix1 b) = x (ix1 b) + ∑ j, if g j = b then upd j else 0 := by
  unfold Ideal.hostScatterAdd
  rw [Finset.sum_filter]
  refine congrArg (fun t => x (ix1 b) + t) (Finset.sum_congr rfl fun j _ => ?_)
  rw [scat_result idx j (g j) (hg j)]
  have hiff : (some (ix1 (g j)) = some (ix1 b)) ↔ g j = b := by
    constructor
    · intro h
      exact congrFun (Option.some.inj h) 0
    · intro h
      rw [h]
  simp only [hiff]

/-- At the ideal instance the host's scatter-add is the exact per-element sum. -/
theorem scatterAdd_at_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- The flat axis and the [262144,128] index set, matched by row-major position. -/
abbrev flatE : S33554432.Idx ≃ S262144x128.Idx := Shape.reshapeEquiv shapeCasts_S262144x128_S33554432

/-- The scatter index of update j is the bin word of the element at j's row-major position. -/
theorem v21_eq (x0 x1 : S262144x128.Idx → EReal) (j : S33554432.Idx) :
    val_main_v21 (F := Ideal) x0 x1 (ix2 (j 0) (0 : Fin 1))
      = BitVec.ofNat 32 (binF (x0 (flatE j)) (x1 (flatE j))).val := by
  rw [val_main_v21_apply]
  have hj : idx_main_v21 (ix2 (j 0) (0 : Fin 1)) = j := by
    funext a
    match a with
    | ⟨0, _⟩ => rfl
  rw [hj]
  have h19 : val_main_v19 (F := Ideal) x0 x1 j = val_main_v17 (F := Ideal) x0 x1 (flatE j) := rfl
  rw [h19, v17_eq, binW_eq]

/-- The update of the flat axis at j is the validity indicator of the element at j's row-major position. -/
theorem v18_eq (x2 : S262144x128.Idx → EReal) (j : S33554432.Idx) :
    val_main_v18 (F := Ideal) x2 j = validW (x2 (flatE j)) := by
  have h18 : val_main_v18 (F := Ideal) x2 j = val_main_v10 (F := Ideal) x2 (flatE j) := rfl
  rw [h18, v10_eq]

/-- The per-bin counts: the scatter-add of the validity indicators by bin. -/
theorem v22_eq (x0 x1 x2 : S262144x128.Idx → EReal) (b : Fin 10) :
    val_main_v22 (F := Ideal) x0 x1 x2 (ix1 b)
      = cntE (fun i => binF (x0 i) (x1 i)) (fun i => validW (x2 i)) b := by
  have h22 : val_main_v22 (F := Ideal) x0 x1 x2
      = Host.scatterAdd (F := Ideal) (φ := .f32) scatD (val_main_v20 (F := Ideal)) (val_main_v21 (F := Ideal) x0 x1)
          (val_main_v18 (F := Ideal) x2) := rfl
  rw [h22, scatterAdd_at_ideal]
  rw [scatterAdd_bins (val_main_v20 (F := Ideal)) (val_main_v21 (F := Ideal) x0 x1) (val_main_v18 (F := Ideal) x2)
    (fun j => binF (x0 (flatE j)) (x1 (flatE j))) (v21_eq x0 x1) b]
  rw [val_main_v20_apply, val_main_cst_5_apply, Ideal.ofBits_def, Ideal.ofBits_zero_f32, zero_add]
  rw [cntE]
  refine Fintype.sum_equiv flatE _ _ (fun j => ?_)
  show (if binF (x0 (flatE j)) (x1 (flatE j)) = b then val_main_v18 (F := Ideal) x2 j else 0)
    = if binF (x0 (flatE j)) (x1 (flatE j)) = b then validW (x2 (flatE j)) else 0
  rw [v18_eq]

/-! ### The number of nonempty bins -/

/-- 0/1 words add up to the word of how many of them are 1. -/
theorem fold_addi_ind {ι : Type} [DecidableEq ι] (s : Finset ι) (P : ι → Prop) [i1 : DecidablePred P]
    [i2 : DecidablePred P] :
    s.fold IntOp.addi 0#32 (fun b => @ite _ (P b) (i1 b) 1#32 0#32) = BitVec.ofNat 32 (@Finset.filter _ P i2 s).card := by
  have hi : i1 = i2 := Subsingleton.elim _ _
  subst hi
  induction s using Finset.induction_on with
  | empty => rfl
  | insert a s ha ih =>
    rw [Finset.fold_insert ha, ih, Finset.filter_insert]
    by_cases hp : P a
    · rw [if_pos hp, if_pos hp, Finset.card_insert_of_notMem (fun h => ha (Finset.mem_of_mem_filter a h)),
        Nat.add_comm, BitVec.ofNat_add]
      rfl
    · rw [if_neg hp, if_neg hp]
      exact BitVec.zero_add _

/-- The 0/1 word of bin b: 1 where the bin has a valid element. -/
theorem v25_eq (x0 x1 x2 : S262144x128.Idx → EReal) (b : Fin 10) :
    val_main_v25 (F := Ideal) x0 x1 x2 (ix1 b)
      = if 0 < cntE (fun i => binF (x0 i) (x1 i)) (fun i => validW (x2 i)) b then 1#32 else 0#32 := by
  rw [val_main_v25_apply, val_main_v24_apply, v22_eq, val_main_v23_apply, val_main_cst_6_apply, Ideal.ofBits_def,
    Ideal.ofBits_zero_f32]
  generalize cntE (fun i => binF (x0 i) (x1 i)) (fun i => validW (x2 i)) b = c
  have hc : FloatOps.cmpf (F := Ideal) (φ := .f32) .ogt c 0 = BitVec.ofBool (decide (0 < c)) := rfl
  rw [hc]
  by_cases h : 0 < c
  · rw [if_pos h, decide_eq_true h]; rfl
  · rw [if_neg h, decide_eq_false h]; rfl

/-- The ten bins as a rank-1 index set. -/
def e10 : Fin 10 ≃ S10.Idx where
  toFun := ix1
  invFun i := i 0
  left_inv _ := rfl
  right_inv i := (eq_ix1 i).symm

/-- The integer count of nonempty bins. -/
theorem v26_eq (x0 x1 x2 : S262144x128.Idx → EReal) (k : S_.Idx) :
    val_main_v26 (F := Ideal) x0 x1 x2 k
      = BitVec.ofNat 32 (nneN (fun i => binF (x0 i) (x1 i)) (fun i => validW (x2 i))) := by
  have h26 : val_main_v26 (F := Ideal) x0 x1 x2
      = Host.reduce IntOp.addi (val_main_v25 (F := Ideal) x0 x1 x2) (val_main_c_7 (F := Ideal)) reducesTo_S10_S_d0 h_S_ := rfl
  rw [h26, Host.reduce_eq_fold IntOp.addi _ _ reducesTo_S10_S_d0 h_S_ k,
    Finset.filter_true_of_mem (fun i _ => funext fun b => b.elim0), ← Finset.map_univ_equiv e10, Finset.fold_map]
  have hf : (val_main_v25 (F := Ideal) x0 x1 x2 ∘ ⇑e10.toEmbedding)
      = fun b : Fin 10 => if 0 < cntE (fun i => binF (x0 i) (x1 i)) (fun i => validW (x2 i)) b then 1#32 else 0#32 := by
    funext b
    exact v25_eq x0 x1 x2 b
  have h0 : val_main_c_7 (F := Ideal) (Shape.Idx.first h_S_) = 0#32 := rfl
  rw [hf, h0, nneN]
  exact fold_addi_ind Finset.univ (fun b : Fin 10 => 0 < cntE (fun i => binF (x0 i) (x1 i)) (fun i => validW (x2 i)) b)

theorem nneN_le (x0 x1 x2 : S262144x128.Idx → EReal) :
    nneN (fun i => binF (x0 i) (x1 i)) (fun i => validW (x2 i)) ≤ 10 := by
  rw [nneN]
  exact (Finset.card_filter_le _ _).trans (by simp)

/-- A word of a natural at most 10 is positive in the signed order exactly when the natural is positive. -/
theorem sgt_zero_ofNat (n : Nat) (hn : n ≤ 10) :
    IntOp.cmpi .sgt (BitVec.ofNat 32 n) 0#32 = BitVec.ofBool (decide (0 < n)) := by
  have h : IntOp.cmpi .sgt (BitVec.ofNat 32 n) 0#32 = BitVec.ofBool ((0#32 : BitVec 32).slt (BitVec.ofNat 32 n)) := rfl
  rw [h, BitVec.slt_eq_decide, toInt_ofNat_small n (by omega)]
  have h0 : (0#32 : BitVec 32).toInt = 0 := by decide
  rw [h0]
  congr 1
  simp

/-- A word of a natural below 10 is not negative in the signed order. -/
theorem slt_zero_ofNat (n : Nat) (hn : n < 10) : IntOp.cmpi .slt (BitVec.ofNat 32 n) 0#32 = 0#1 := by
  have h : IntOp.cmpi .slt (BitVec.ofNat 32 n) 0#32 = BitVec.ofBool ((BitVec.ofNat 32 n).slt (0#32 : BitVec 32)) := rfl
  rw [h, BitVec.slt_eq_decide, toInt_ofNat_small n (by omega)]
  have h0 : (0#32 : BitVec 32).toInt = 0 := by decide
  rw [h0, decide_eq_false (by omega)]
  rfl

/-! ### The per-bin weight and its gather -/

/-- A select on a comparison with zero, over abstract operands. -/
theorem select_ogt_zero (c a : EReal) :
    Scalar.select (FloatOps.cmpf (F := Ideal) (φ := .f32) .ogt c (0 : EReal)) a (0 : EReal) = if 0 < c then a else 0 := by
  have hc : FloatOps.cmpf (F := Ideal) (φ := .f32) .ogt c (0 : EReal) = BitVec.ofBool (decide (0 < c)) := rfl
  rw [hc]
  by_cases h : 0 < c
  · rw [if_pos h, decide_eq_true h]; rfl
  · rw [if_neg h, decide_eq_false h]; rfl

/-- The per-bin weight of bin b. -/
theorem v33_eq (x0 x1 x2 : S262144x128.Idx → EReal) (b : Fin 10) :
    val_main_v33 (F := Ideal) x0 x1 x2 (ix1 b)
      = pbwR (fun i => binF (x0 i) (x1 i)) (fun i => validW (x2 i)) b := by
  rw [pbwR, val_main_v33_apply, val_main_v28_apply, val_main_v32_apply, val_main_v31_apply, v12_eq, val_main_v30_apply,
    v22_eq, val_main_v29_apply, val_main_cst_9_apply, val_main_v27_apply, val_main_cst_8_apply,
    val_main_call0_v1_apply, val_main_call0_v0_apply, val_main_cst_10_apply]
  generalize cntE (fun i => binF (x0 i) (x1 i)) (fun i => validW (x2 i)) b = c
  generalize totR (fun i => validW (x2 i)) = T
  rw [Ideal.ofBits_def, Ideal.ofBits_zero_f32, Ideal.ofBits_def, ofBits_one, Ideal.hostDivf_def, Ideal.maximumf_def]
  exact select_ogt_zero c (Ideal.div T (max c 1))

/-- The gather's start index at element i: the bin word, the negative-index wrap never firing. -/
theorem v39_eq (x0 x1 : S262144x128.Idx → EReal) (i : S262144x128.Idx) :
    val_main_v39 (F := Ideal) x0 x1 (takeIdx i) = BitVec.ofNat 32 (binF (x0 i) (x1 i)).val := by
  rw [val_main_v39_apply]
  have hi : idx_main_v39 (takeIdx i) = i := by
    funext a
    match a with
    | ⟨0, _⟩ => rfl
    | ⟨1, _⟩ => rfl
  rw [hi, val_main_v38_apply, val_main_v35_apply, v17_eq, val_main_v34_apply, val_main_c_11_apply, binW_eq,
    slt_zero_ofNat _ (binF (x0 i) (x1 i)).isLt]
  exact select_zero _ _

/-- A gather of a ten-element operand at a start index that is the word of g, g one of 0..9, reads element g. -/
theorem gather10_apply (x : S10.Idx → EReal) (idx : IVec S262144x128x1 32) (i : S262144x128.Idx) (g : Fin 10)
    (hg : idx (takeIdx i) = BitVec.ofNat 32 g.val) :
    Host.gather (takeDims 10 262144 128 gather_S10_S262144x128x1_S262144x128_n_0_n_n_0_2_1_wf) x idx i = x (ix1 g) := by
  rw [gather_take_apply (by decide)]
  refine congrArg x (congrArg (ix1 (n := 10)) (Fin.ext ?_))
  show min (idx (takeIdx i)).toInt.toNat (10 - 1) = g.val
  rw [hg, toInt_ofNat_small _ (by have := g.isLt; omega)]
  have := g.isLt
  simp only [Int.toNat_natCast]
  omega

/-- The gathered per-bin weight of element i. -/
theorem v40_eq (x0 x1 x2 : S262144x128.Idx → EReal) (i : S262144x128.Idx) :
    val_main_v40 (F := Ideal) x0 x1 x2 i
      = pbwR (fun i => binF (x0 i) (x1 i)) (fun i => validW (x2 i)) (binF (x0 i) (x1 i)) := by
  have h40 : val_main_v40 (F := Ideal) x0 x1 x2
      = Host.gather (takeDims 10 262144 128 gather_S10_S262144x128x1_S262144x128_n_0_n_n_0_2_1_wf)
          (val_main_v33 (F := Ideal) x0 x1 x2) (val_main_v39 (F := Ideal) x0 x1) := rfl
  rw [h40, gather10_apply _ _ i (binF (x0 i) (x1 i)) (v39_eq x0 x1 i)]
  exact v33_eq x0 x1 x2 (binF (x0 i) (x1 i))

/-! ### The weight of one element, and the loss -/

/-- The weight of element i before the division by the number of nonempty bins. -/
theorem v41_eq (x0 x1 x2 : S262144x128.Idx → EReal) (i : S262144x128.Idx) :
    val_main_v41 (F := Ideal) x0 x1 x2 i
      = if 0 < x2 i then pbwR (fun i => binF (x0 i) (x1 i)) (fun i => validW (x2 i)) (binF (x0 i) (x1 i)) else 0 := by
  rw [val_main_v41_apply, val_main_v9_apply, val_main_v8_apply, val_main_cst_1_apply, v40_eq,
    val_main_call1_v1_apply, val_main_call1_v0_apply, val_main_cst_13_apply]
  generalize pbwR (fun i => binF (x0 i) (x1 i)) (fun i => validW (x2 i)) (binF (x0 i) (x1 i)) = q
  rw [Ideal.ofBits_def, Ideal.ofBits_zero_f32]
  exact select_ogt_zero (x2 i) q

/-- A select on a decided bit over a division by a cast count, over abstract operands. -/
theorem select_count (n : Nat) (hn : n ≤ 10) (a : EReal) :
    Scalar.select (BitVec.ofBool (decide (0 < n)))
        (FloatOps.hostDivf (F := Ideal) (φ := .f32) a (FloatOps.sitofp (F := Ideal) .f32 (BitVec.ofNat 32 n))) a
      = if 0 < n then Ideal.div a (((n : ℕ) : ℝ) : EReal) else a := by
  have hs : FloatOps.sitofp (F := Ideal) .f32 (BitVec.ofNat 32 n) = (((n : ℕ) : ℝ) : EReal) := by
    show ((((BitVec.ofNat 32 n).toInt : ℤ) : ℝ) : EReal) = _
    rw [toInt_ofNat_small n (by omega)]
    simp
  rw [hs, Ideal.hostDivf_def]
  by_cases h : 0 < n
  · rw [if_pos h, decide_eq_true h]; rfl
  · rw [if_neg h, decide_eq_false h]; rfl

/-- The weight of element i. -/
theorem v46_eq (x0 x1 x2 : S262144x128.Idx → EReal) (i : S262144x128.Idx) :
    val_main_v46 (F := Ideal) x0 x1 x2 i
      = weightR (fun i => binF (x0 i) (x1 i)) (fun i => validW (x2 i)) (fun i => 0 < x2 i) i := by
  have h46 : val_main_v46 (F := Ideal) x0 x1 x2
      = select (broadcastInDim S262144x128 ![] bcast_S_S262144x128 (val_main_v42 (F := Ideal) x0 x1 x2))
          (val_main_v45 (F := Ideal) x0 x1 x2) (val_main_v41 (F := Ideal) x0 x1 x2) := rfl
  rw [h46, select_apply,
    broadcastInDim_apply _ bcast_S_S262144x128 (val_main_v42 (F := Ideal) x0 x1 x2) i (fun a => a.elim0)
      (fun a => a.elim0),
    val_main_v42_apply, v26_eq, val_main_c_14_apply, sgt_zero_ofNat _ (nneN_le x0 x1 x2),
    val_main_v45_apply, val_main_v44_apply, val_main_v43_apply, v26_eq, v41_eq, weightR]
  have hn := nneN_le x0 x1 x2
  generalize nneN (fun i => binF (x0 i) (x1 i)) (fun i => validW (x2 i)) = n at hn ⊢
  generalize (if 0 < x2 i then pbwR (fun i => binF (x0 i) (x1 i)) (fun i => validW (x2 i)) (binF (x0 i) (x1 i)) else 0) = a
  exact select_count n hn a

/-- The summand of element i. -/
theorem v56_eq (x0 x1 x2 : S262144x128.Idx → EReal) (i : S262144x128.Idx) :
    val_main_v56 (F := Ideal) x0 x1 x2 i
      = bceW (x0 i) (x1 i) * weightR (fun i => binF (x0 i) (x1 i)) (fun i => validW (x2 i)) (fun i => 0 < x2 i) i := by
  rw [val_main_v56_apply, v55_eq, v46_eq, Ideal.mulf_def]

/-- The reference's result term at Ideal is the elementwise arrangement of the loss. -/
theorem ref_value (x0 x1 x2 : S262144x128.Idx → EReal) :
    Cert.ReferenceIdeal.ReadP.val_main_v59 (F := Ideal) x0 x1 x2
      = fun _ => lossRE (fun i => binF (x0 i) (x1 i)) (fun i => bceW (x0 i) (x1 i)) (fun i => validW (x2 i))
          (fun i => 0 < x2 i) := by
  funext k
  have hsum : (∑ j : S262144x128.Idx, val_main_v56 (F := Ideal) x0 x1 x2 j)
      = ∑ e : S262144x128.Idx, bceW (x0 e) (x1 e)
          * weightR (fun i => binF (x0 i) (x1 i)) (fun i => validW (x2 i)) (fun i => 0 < x2 i) e :=
    Finset.sum_congr rfl (fun i _ => v56_eq x0 x1 x2 i)
  rw [val_main_v59_apply, val_main_v58_apply, val_main_v57_apply, v12_eq, val_main_cst_17_apply, val_main_cst_16_apply,
    hsum, lossRE]
  generalize (∑ e : S262144x128.Idx, bceW (x0 e) (x1 e)
      * weightR (fun i => binF (x0 i) (x1 i)) (fun i => validW (x2 i)) (fun i => 0 < x2 i) e) = A
  generalize totR (fun i => validW (x2 i)) = T
  rw [Ideal.ofBits_def, Ideal.ofBits_zero_f32, Ideal.ofBits_def, ofBits_one, zero_add, Ideal.mulf_def, Ideal.hostDivf_def]

end Ghmc.Ref

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«100415_j21895743275016_2_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.KPre.lean ====
/-
  What the precondition says at the ideal values: every entry of the three inputs is a real number.

  The precondition is the conjunction of three tests, one per input array x: "every |entry| is below +∞", each
  computed as the reduction by "and" over the whole array of the comparison |x| < +∞, the three results joined by
  "and" into one bit. The bit is 1 exactly when each of the three tests is 1, and a test that is 1 had |entry| < +∞
  at every entry, which excludes both infinities of the extended reals: the entry is a real number.
-/
import proofs.«100415_j21895743275016_2_alg».proof.Pre_finite_inputs
import proofs.«100415_j21895743275016_2_alg».proof.Proof.Gen.Pre_finite_inputs
import proofs.«100415_j21895743275016_2_alg».proof.Proof.LibFinitePre

noncomputable section

namespace Ghmc.Pre

open Idealize.ShloMosaic Idealize.ShloMosaic.ValueIdx

/-- Where the precondition holds, every entry of the logits, of the targets and of the label weights is real. -/
theorem real_of_pre [Cert.Pre_finite_inputs.Facts] (x0 x1 x2 : FVec Ideal Cert.Pre_finite_inputs.S262144x128 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  unfold Cert.Pre_finite_inputs.fn at h0
  dsimp only at h0
  change IntOp.andi (IntOp.andi _ _) _ = 1#1 at h0
  obtain ⟨h01, h2⟩ := IntOp.andi_eq_one.1 h0
  obtain ⟨h0', h1⟩ := IntOp.andi_eq_one.1 h01
  exact ⟨fun i => Cert.LibFinitePre.all_real x0 _ _ _ h0' i, fun i => Cert.LibFinitePre.all_real x1 _ _ _ h1 i,
    fun i => Cert.LibFinitePre.all_real x2 _ _ _ h2 i⟩

end Ghmc.Pre

end
-- ==== Proof.lean ====
/-
  The certificate of the gradient-harmonised classification loss: a one-pass kernel that bins the elements by gradient
  norm into ten bins, accumulating per bin and lane the number of valid elements and their summed cross entropy over
  a 2 × 32 grid, and a short host epilogue, against the plain jnp reference that counts the bins by a segment sum,
  weights every element by its bin's weight and sums.

  The three frame claims are the generated frames (the kernel programs) and the reference's run with its result
  dropped. The ideal pass rewrote nothing, so the idealization claim is trivial. The equivalence: at the ideal values
  the kernel program's result is the binned arrangement of the loss of the argument arrays (KValue over KTail, KFinal,
  KAcc and the three cases of the body), the reference's the elementwise arrangement (RefSide), and the two arrangements
  are one number when the cross entropies are real (Spec) — which the precondition gives: finite logits and targets
  have a real cross entropy (Elem, KPre).
-/
import proofs.«100415_j21895743275016_2_alg».proof.Defs
import proofs.«100415_j21895743275016_2_alg».proof.Proof.Gen.Kernel
import proofs.«100415_j21895743275016_2_alg».proof.Proof.Gen.Kernel.Skeleton
import proofs.«100415_j21895743275016_2_alg».proof.Proof.Gen.Kernel.Launch
import proofs.«100415_j21895743275016_2_alg».proof.Proof.Gen.Kernel.Points
import proofs.«100415_j21895743275016_2_alg».proof.Proof.Gen.Kernel.Frame
import proofs.«100415_j21895743275016_2_alg».proof.Proof.Gen.KernelIdeal
import proofs.«100415_j21895743275016_2_alg».proof.Proof.Gen.KernelIdeal.Skeleton
import proofs.«100415_j21895743275016_2_alg».proof.Proof.Gen.KernelIdeal.Launch
import proofs.«100415_j21895743275016_2_alg».proof.Proof.Gen.KernelIdeal.Points
import proofs.«100415_j21895743275016_2_alg».proof.Proof.Gen.KernelIdeal.Frame
import proofs.«100415_j21895743275016_2_alg».proof.Proof.Gen.ReferenceIdeal
import proofs.«100415_j21895743275016_2_alg».proof.Proof.Gen.Pre_finite_inputs
import proofs.«100415_j21895743275016_2_alg».proof.Proof.KValue
import proofs.«100415_j21895743275016_2_alg».proof.Proof.RefSide
import proofs.«100415_j21895743275016_2_alg».proof.Proof.KPre
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the three arguments, finite by the precondition, both programs end with the loss:
    the kernel program in its binned arrangement, the reference in its elementwise one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Ghmc.lossKE (fun i => Ghmc.binF (Cert.KernelIdeal.Acc.argX0 m c i) (Cert.KernelIdeal.Acc.argX1 m c i))
      (fun i => Ghmc.bceW (Cert.KernelIdeal.Acc.argX0 m c i) (Cert.KernelIdeal.Acc.argX1 m c i))
      (fun i => Ghmc.validW (Cert.KernelIdeal.Acc.argX2 m c i)), ?_, ?_⟩
  · exact (θ_run Cert.KernelIdeal.defs _ _).mono
      (fun _ h c => ⟨(h c).1.trans (Cert.KernelIdeal.Acc.kernel_value m c), (h c).2⟩)
      (Cert.KernelIdeal.Acc.kernel_run m ρ)
  · refine (θ_run Cert.ReferenceIdeal.defs _ _).mono (fun _ h c => ⟨(h c).1.trans ?_, (h c).2⟩)
      (Cert.ReferenceIdeal.ValueP.run (F := Ideal) m' ρ')
    obtain ⟨hr0, hr1, -⟩ := Ghmc.Pre.real_of_pre _ _ _ (hpre c)
    rw [Cert.ReferenceIdeal.ReadP.val_main_v59_eq, (hagree c).1, (hagree c).2.1, (hagree c).2.2, Ghmc.Ref.ref_value]
    funext _
    refine (Ghmc.lossKE_eq_lossRE _ _ _ _ (fun i => ?_) (fun i => rfl)).symm
    obtain ⟨r0, e0⟩ := hr0 i
    obtain ⟨r1, e1⟩ := hr1 i
    show ∃ r : ℝ, Ghmc.bceW (m ((c.tc : Thread Cert.KernelIdeal.nD Cert.KernelIdeal.τ).loc Cert.KernelIdeal.main_arg0) i)
      (m ((c.tc : Thread Cert.KernelIdeal.nD Cert.KernelIdeal.τ).loc Cert.KernelIdeal.main_arg1) i) = (r : EReal)
    rw [e0, e1]
    exact Ghmc.bceW_real r0 r1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
